-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x1024 : Shape := ⟨3, ![32, 4096, 1024]⟩
abbrev S32x4096 : Shape := ⟨2, ![32, 4096]⟩
abbrev S512x1024 : Shape := ⟨2, ![512, 1024]⟩
abbrev S512 : Shape := ⟨1, ![512]⟩
abbrev S_ : Shape := ⟨0, ![]⟩

class Facts : Prop where
  bcast_S_S32x4096x1024 : S_.BroadcastsInDim S32x4096x1024 (![] : Fin 0 → Fin S32x4096x1024.rank)
  reducesTo_S32x4096x1024_S_d0_1_2 : S32x4096x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S32x4096x1024 .f32) (main_arg1 : IVec S32x4096 1) (main_arg2 : FVec F S512x1024 .f32) (main_arg3 : FVec F S512 .f32) : IVec S_ 1 :=
  let main_v0 : FVec F S32x4096x1024 .f32 := Host.absf main_arg0
  let main_cst : FVec F S_ .f32 := constant S_ .f32 0x7F800000#32
  let main_v1 : FVec F S32x4096x1024 .f32 := broadcastInDim S32x4096x1024 ![] bcast_S_S32x4096x1024 main_cst
  let main_v2 : IVec S32x4096x1024 1 := cmpf .olt main_v0 main_v1
  let main_c : IVec S_ 1 := constantI S_ 1 1#1
  let main_v3 : IVec S_ 1 := (fun x v => Host.reduce IntOp.andi x v reducesTo_S32x4096x1024_S_d0_1_2 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S32x4096x1024 : Shape := ⟨3, ![32, 4096, 1024]⟩
abbrev S32x4096 : Shape := ⟨2, ![32, 4096]⟩
abbrev S512x1024 : Shape := ⟨2, ![512, 1024]⟩
abbrev S512 : Shape := ⟨1, ![512]⟩
abbrev S1024x512 : Shape := ⟨2, ![1024, 512]⟩
abbrev S4096x32x512 : Shape := ⟨3, ![4096, 32, 512]⟩
abbrev S32x64x1024 : Shape := ⟨3, ![32, 64, 1024]⟩
abbrev S64x32x512 : Shape := ⟨3, ![64, 32, 512]⟩
abbrev S2048x1024 : Shape := ⟨2, ![2048, 1024]⟩
abbrev S2048x512 : Shape := ⟨2, ![2048, 512]⟩
abbrev S1x512 : Shape := ⟨2, ![1, 512]⟩
abbrev S32x64x512 : Shape := ⟨3, ![32, 64, 512]⟩
abbrev S_ : Shape := ⟨0, ![]⟩
abbrev S32x1 : Shape := ⟨2, ![32, 1]⟩
abbrev S32x4095 : Shape := ⟨2, ![32, 4095]⟩
abbrev S4096x32 : Shape := ⟨2, ![4096, 32]⟩
abbrev S32x4096x512 : Shape := ⟨3, ![32, 4096, 512]⟩
abbrev S64x32 : Shape := ⟨2, ![64, 32]⟩
abbrev S32x512 : Shape := ⟨2, ![32, 512]⟩
abbrev S1x32 : Shape := ⟨2, ![1, 32]⟩
abbrev S32 : Shape := ⟨1, ![32]⟩
abbrev S1x32x512 : Shape := ⟨3, ![1, 32, 512]⟩
abbrev S32x1x512 : Shape := ⟨3, ![32, 1, 512]⟩

abbrev nBuf : Space → Nat
  | .hbm => 14
  | .vmem => 13
  | .smem => 0
  | _ => 0

abbrev bufTy : (tb : Table) → Fin (tcTables nBuf tb) → BufTy
  | .hbm, ⟨0, _⟩ => ⟨S32x4096x1024, .f32⟩
  | .hbm, ⟨1, _⟩ => ⟨S32x4096, .i1⟩
  | .hbm, ⟨2, _⟩ => ⟨S512x1024, .f32⟩
  | .hbm, ⟨3, _⟩ => ⟨S512, .f32⟩
  | .hbm, ⟨4, _⟩ => ⟨S1024x512, .f32⟩
  | .hbm, ⟨5, _⟩ => ⟨S1024x512, .bf16⟩
  | .hbm, ⟨6, _⟩ => ⟨S4096x32x512, .bf16⟩
  | .hbm, ⟨7, _⟩ => ⟨S_, .i1⟩
  | .hbm, ⟨8, _⟩ => ⟨S32x1, .i1⟩
  | .hbm, ⟨9, _⟩ => ⟨S32x4095, .i1⟩
  | .hbm, ⟨10, _⟩ => ⟨S32x4096, .i1⟩
  | .hbm, ⟨11, _⟩ => ⟨S4096x32, .i1⟩
  | .hbm, ⟨12, _⟩ => ⟨S4096x32, .f32⟩
  | .hbm, ⟨13, _⟩ => ⟨S32x4096x512, .f32⟩
  | .local _ .vmem, ⟨0, _⟩ => ⟨S32x64x1024, .f32⟩
  | .local _ .vmem, ⟨1, _⟩ => ⟨S32x64x1024, .f32⟩
  | .local _ .vmem, ⟨2, _⟩ => ⟨S1024x512, .bf16⟩
  | .local _ .vmem, ⟨3, _⟩ => ⟨S512, .f32⟩
  | .local _ .vmem, ⟨4, _⟩ => ⟨S64x32x512, .bf16⟩
  | .local _ .vmem, ⟨5, _⟩ => ⟨S64x32x512, .bf16⟩
  | .local _ .vmem, ⟨6, _⟩ => ⟨S64x32x512, .bf16⟩
  | .local _ .vmem, ⟨7, _⟩ => ⟨S64x32x512, .bf16⟩
  | .local _ .vmem, ⟨8, _⟩ => ⟨S64x32, .f32⟩
  | .local _ .vmem, ⟨9, _⟩ => ⟨S64x32, .f32⟩
  | .local _ .vmem, ⟨10, _⟩ => ⟨S32x64x512, .f32⟩
  | .local _ .vmem, ⟨11, _⟩ => ⟨S32x64x512, .f32⟩
  | .local _ .vmem, ⟨12, _⟩ => ⟨S32x512, .f32⟩
  | _, _ => ⟨S32x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S64x32x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x64x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S512x1024_S1024x512_1_0 : S512x1024.Transposes [1, 0] S1024x512
  bitsLt_bf16_f32 : FTy.bits .bf16 < FTy.bits .f32
  inb_S32x64x1024_S32x64x1024_0_0_0 : ∀ a, (![0, 0, 0] : Fin 3 → Nat) a + S32x64x1024.size a ≤ S32x64x1024.size a
  h_S32x64x1024 : 0 < S32x64x1024.numel
  shapeCasts_S32x64x1024_S2048x1024 : S32x64x1024.ShapeCasts S2048x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  shapeCasts_S2048x512_S32x64x512 : S2048x512.ShapeCasts S32x64x512
  transposes_S32x64x512_p1_0_2_S64x32x512 : S32x64x512.Transposes [1, 0, 2] S64x32x512
  inb_S64x32x512_S64x32x512_0_0_0 : ∀ a, (![0, 0, 0] : Fin 3 → Nat) a + S64x32x512.size a ≤ S64x32x512.size a
  h_S64x32x512 : 0 < S64x32x512.numel
  packedbf16_S64x32x512_S64x32x512_0_0_0 : (Rect.unit (s := S64x32x512) ![0, 0, 0] S64x32x512.size inb_S64x32x512_S64x32x512_0_0_0).PackedRows (EltTy.packing .bf16)
  bcast_S_S32x1 : S_.BroadcastsInDim S32x1 (![] : Fin 0 → Fin S32x1.rank)
  slices_S32x4096_S32x4095_0_0 : S32x4096.Slices ![0, 0] S32x4095
  concatenates_S32x1_S32x4095_S32x4096_d1 : Shape.Concatenates [S32x1, S32x4095] S32x4096 1
  transposes_S32x4096_S4096x32_1_0 : S32x4096.Transposes [1, 0] S4096x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S64x32_S1x32_0_0 : ∀ a, (![0, 0] : Fin 2 → Nat) a + S1x32.size a ≤ S64x32.size a
  h_S1x32 : 0 < S1x32.numel
  shapeCasts_S1x32_S32 : S1x32.ShapeCasts S32
  shapeCasts_S32_S32x1 : S32.ShapeCasts S32x1
  inb_S64x32x512_S1x32x512_0_0_0 : ∀ a, (![0, 0, 0] : Fin 3 → Nat) a + S1x32x512.size a ≤ S64x32x512.size a
  h_S1x32x512 : 0 < S1x32x512.numel
  shapeCasts_S1x32x512_S32x512 : S1x32x512.ShapeCasts S32x512
  broadcasts_S32x1_S32x512 : S32x1.Broadcasts S32x512
  inb_S32x64x512_S32x1x512_0_0_0 : ∀ a, (![0, 0, 0] : Fin 3 → Nat) a + S32x1x512.size a ≤ S32x64x512.size a
  h_S32x1x512 : 0 < S32x1x512.numel
  shapeCasts_S32x1x512_S32x512 : S32x1x512.ShapeCasts S32x512
  shapeCasts_S32x512_S32x1x512 : S32x512.ShapeCasts S32x1x512
  inb_S64x32_S1x32_1_0 : ∀ a, (![1, 0] : Fin 2 → Nat) a + S1x32.size a ≤ S64x32.size a
  inb_S64x32x512_S1x32x512_1_0_0 : ∀ a, (![1, 0, 0] : Fin 3 → Nat) a + S1x32x512.size a ≤ S64x32x512.size a
  inb_S32x64x512_S32x1x512_0_1_0 : ∀ a, (![0, 1, 0] : Fin 3 → Nat) a + S32x1x512.size a ≤ S32x64x512.size a
  inb_S64x32_S1x32_2_0 : ∀ a, (![2, 0] : Fin 2 → Nat) a + S1x32.size a ≤ S64x32.size a
  inb_S64x32x512_S1x32x512_2_0_0 : ∀ a, (![2, 0, 0] : Fin 3 → Nat) a + S1x32x512.size a ≤ S64x32x512.size a
  inb_S32x64x512_S32x1x512_0_2_0 : ∀ a, (![0, 2, 0] : Fin 3 → Nat) a + S32x1x512.size a ≤ S32x64x512.size a
  inb_S64x32_S1x32_3_0 : ∀ a, (![3, 0] : Fin 2 → Nat) a + S1x32.size a ≤ S64x32.size a
  inb_S64x32x512_S1x32x512_3_0_0 : ∀ a, (![3, 0, 0] : Fin 3 → Nat) a + S1x32x512.size a ≤ S64x32x512.size a
  inb_S32x64x512_S32x1x512_0_3_0 : ∀ a, (![0, 3, 0] : Fin 3 → Nat) a + S32x1x512.size a ≤ S32x64x512.size a
  inb_S64x32_S1x32_4_0 : ∀ a, (![4, 0] : Fin 2 → Nat) a + S1x32.size a ≤ S64x32.size a
  inb_S64x32x512_S1x32x512_4_0_0 : ∀ a, (![4, 0, 0] : Fin 3 → Nat) a + S1x32x512.size a ≤ S64x32x512.size a
  inb_S32x64x512_S32x1x512_0_4_0 : ∀ a, (![0, 4, 0] : Fin 3 → Nat) a + S32x1x512.size a ≤ S32x64x512.size a
  inb_S64x32_S1x32_5_0 : ∀ a, (![5, 0] : Fin 2 → Nat) a + S1x32.size a ≤ S64x32.size a
  inb_S64x32x512_S1x32x512_5_0_0 : ∀ a, (![5, 0, 0] : Fin 3 → Nat) a + S1x32x512.size a ≤ S64x32x512.size a
  inb_S32x64x512_S32x1x512_0_5_0 : ∀ a, (![0, 5, 0] : Fin 3 → Nat) a + S32x1x512.size a ≤ S32x64x512.size a
  inb_S64x32_S1x32_6_0 : ∀ a, (![6, 0] : Fin 2 → Nat) a + S1x32.size a ≤ S64x32.size a
  inb_S64x32x512_S1x32x512_6_0_0 : ∀ a, (![6, 0, 0] : Fin 3 → Nat) a + S1x32x512.size a ≤ S64x32x512.size a
  inb_S32x64x512_S32x1x512_0_6_0 : ∀ a, (![0, 6, 0] : Fin 3 → Nat) a + S32x1x512.size a ≤ S32x64x512.size a
  inb_S64x32_S1x32_7_0 : ∀ a, (![7, 0] : Fin 2 → Nat) a + S1x32.size a ≤ S64x32.size a
  inb_S64x32x512_S1x32x512_7_0_0 : ∀ a, (![7, 0, 0] : Fin 3 → Nat) a + S1x32x512.size a ≤ S64x32x512.size a
  inb_S32x64x512_S32x1x512_0_7_0 : ∀ a, (![0, 7, 0] : Fin 3 → Nat) a + S32x1x512.size a ≤ S32x64x512.size a
  inb_S64x32_S1x32_8_0 : ∀ a, (![8, 0] : Fin 2 → Nat) a + S1x32.size a ≤ S64x32.size a
  inb_S64x32x512_S1x32x512_8_0_0 : ∀ a, (![8, 0, 0] : Fin 3 → Nat) a + S1x32x512.size a ≤ S64x32x512.size a
  inb_S32x64x512_S32x1x512_0_8_0 : ∀ a, (![0, 8, 0] : Fin 3 → Nat) a + S32x1x512.size a ≤ S32x64x512.size a
  inb_S64x32_S1x32_9_0 : ∀ a, (![9, 0] : Fin 2 → Nat) a + S1x32.size a ≤ S64x32.size a
  inb_S64x32x512_S1x32x512_9_0_0 : ∀ a, (![9, 0, 0] : Fin 3 → Nat) a + S1x32x512.size a ≤ S64x32x512.size a
  inb_S32x64x512_S32x1x512_0_9_0 : ∀ a, (![0, 9, 0] : Fin 3 → Nat) a + S32x1x512.size a ≤ S32x64x512.size a
  inb_S64x32_S1x32_10_0 : ∀ a, (![10, 0] : Fin 2 → Nat) a + S1x32.size a ≤ S64x32.size a
  inb_S64x32x512_S1x32x512_10_0_0 : ∀ a, (![10, 0, 0] : Fin 3 → Nat) a + S1x32x512.size a ≤ S64x32x512.size a
  inb_S32x64x512_S32x1x512_0_10_0 : ∀ a, (![0, 10, 0] : Fin 3 → Nat) a + S32x1x512.size a ≤ S32x64x512.size a
  inb_S64x32_S1x32_11_0 : ∀ a, (![11, 0] : Fin 2 → Nat) a + S1x32.size a ≤ S64x32.size a
  inb_S64x32x512_S1x32x512_11_0_0 : ∀ a, (![11, 0, 0] : Fin 3 → Nat) a + S1x32x512.size a ≤ S64x32x512.size a
  inb_S32x64x512_S32x1x512_0_11_0 : ∀ a, (![0, 11, 0] : Fin 3 → Nat) a + S32x1x512.size a ≤ S32x64x512.size a
  inb_S64x32_S1x32_12_0 : ∀ a, (![12, 0] : Fin 2 → Nat) a + S1x32.size a ≤ S64x32.size a
  inb_S64x32x512_S1x32x512_12_0_0 : ∀ a, (![12, 0, 0] : Fin 3 → Nat) a + S1x32x512.size a ≤ S64x32x512.size a
  inb_S32x64x512_S32x1x512_0_12_0 : ∀ a, (![0, 12, 0] : Fin 3 → Nat) a + S32x1x512.size a ≤ S32x64x512.size a
  inb_S64x32_S1x32_13_0 : ∀ a, (![13, 0] : Fin 2 → Nat) a + S1x32.size a ≤ S64x32.size a
  inb_S64x32x512_S1x32x512_13_0_0 : ∀ a, (![13, 0, 0] : Fin 3 → Nat) a + S1x32x512.size a ≤ S64x32x512.size a
  inb_S32x64x512_S32x1x512_0_13_0 : ∀ a, (![0, 13, 0] : Fin 3 → Nat) a + S32x1x512.size a ≤ S32x64x512.size a
  inb_S64x32_S1x32_14_0 : ∀ a, (![14, 0] : Fin 2 → Nat) a + S1x32.size a ≤ S64x32.size a
  inb_S64x32x512_S1x32x512_14_0_0 : ∀ a, (![14, 0, 0] : Fin 3 → Nat) a + S1x32x512.size a ≤ S64x32x512.size a
  inb_S32x64x512_S32x1x512_0_14_0 : ∀ a, (![0, 14, 0] : Fin 3 → Nat) a + S32x1x512.size a ≤ S32x64x512.size a
  inb_S64x32_S1x32_15_0 : ∀ a, (![15, 0] : Fin 2 → Nat) a + S1x32.size a ≤ S64x32.size a
  inb_S64x32x512_S1x32x512_15_0_0 : ∀ a, (![15, 0, 0] : Fin 3 → Nat) a + S1x32x512.size a ≤ S64x32x512.size a
  inb_S32x64x512_S32x1x512_0_15_0 : ∀ a, (![0, 15, 0] : Fin 3 → Nat) a + S32x1x512.size a ≤ S32x64x512.size a
  inb_S64x32_S1x32_16_0 : ∀ a, (![16, 0] : Fin 2 → Nat) a + S1x32.size a ≤ S64x32.size a
  inb_S64x32x512_S1x32x512_16_0_0 : ∀ a, (![16, 0, 0] : Fin 3 → Nat) a + S1x32x512.size a ≤ S64x32x512.size a
  inb_S32x64x512_S32x1x512_0_16_0 : ∀ a, (![0, 16, 0] : Fin 3 → Nat) a + S32x1x512.size a ≤ S32x64x512.size a
  inb_S64x32_S1x32_17_0 : ∀ a, (![17, 0] : Fin 2 → Nat) a + S1x32.size a ≤ S64x32.size a
  inb_S64x32x512_S1x32x512_17_0_0 : ∀ a, (![17, 0, 0] : Fin 3 → Nat) a + S1x32x512.size a ≤ S64x32x512.size a
  inb_S32x64x512_S32x1x512_0_17_0 : ∀ a, (![0, 17, 0] : Fin 3 → Nat) a + S32x1x512.size a ≤ S32x64x512.size a
  inb_S64x32_S1x32_18_0 : ∀ a, (![18, 0] : Fin 2 → Nat) a + S1x32.size a ≤ S64x32.size a
  inb_S64x32x512_S1x32x512_18_0_0 : ∀ a, (![18, 0, 0] : Fin 3 → Nat) a + S1x32x512.size a ≤ S64x32x512.size a
  inb_S32x64x512_S32x1x512_0_18_0 : ∀ a, (![0, 18, 0] : Fin 3 → Nat) a + S32x1x512.size a ≤ S32x64x512.size a
  inb_S64x32_S1x32_19_0 : ∀ a, (![19, 0] : Fin 2 → Nat) a + S1x32.size a ≤ S64x32.size a
  inb_S64x32x512_S1x32x512_19_0_0 : ∀ a, (![19, 0, 0] : Fin 3 → Nat) a + S1x32x512.size a ≤ S64x32x512.size a
  inb_S32x64x512_S32x1x512_0_19_0 : ∀ a, (![0, 19, 0] : Fin 3 → Nat) a + S32x1x512.size a ≤ S32x64x512.size a
  inb_S64x32_S1x32_20_0 : ∀ a, (![20, 0] : Fin 2 → Nat) a + S1x32.size a ≤ S64x32.size a
  inb_S64x32x512_S1x32x512_20_0_0 : ∀ a, (![20, 0, 0] : Fin 3 → Nat) a + S1x32x512.size a ≤ S64x32x512.size a
  inb_S32x64x512_S32x1x512_0_20_0 : ∀ a, (![0, 20, 0] : Fin 3 → Nat) a + S32x1x512.size a ≤ S32x64x512.size a
  inb_S64x32_S1x32_21_0 : ∀ a, (![21, 0] : Fin 2 → Nat) a + S1x32.size a ≤ S64x32.size a
  inb_S64x32x512_S1x32x512_21_0_0 : ∀ a, (![21, 0, 0] : Fin 3 → Nat) a + S1x32x512.size a ≤ S64x32x512.size a
  inb_S32x64x512_S32x1x512_0_21_0 : ∀ a, (![0, 21, 0] : Fin 3 → Nat) a + S32x1x512.size a ≤ S32x64x512.size a
  inb_S64x32_S1x32_22_0 : ∀ a, (![22, 0] : Fin 2 → Nat) a + S1x32.size a ≤ S64x32.size a
  inb_S64x32x512_S1x32x512_22_0_0 : ∀ a, (![22, 0, 0] : Fin 3 → Nat) a + S1x32x512.size a ≤ S64x32x512.size a
  inb_S32x64x512_S32x1x512_0_22_0 : ∀ a, (![0, 22, 0] : Fin 3 → Nat) a + S32x1x512.size a ≤ S32x64x512.size a
  inb_S64x32_S1x32_23_0 : ∀ a, (![23, 0] : Fin 2 → Nat) a + S1x32.size a ≤ S64x32.size a
  inb_S64x32x512_S1x32x512_23_0_0 : ∀ a, (![23, 0, 0] : Fin 3 → Nat) a + S1x32x512.size a ≤ S64x32x512.size a
  inb_S32x64x512_S32x1x512_0_23_0 : ∀ a, (![0, 23, 0] : Fin 3 → Nat) a + S32x1x512.size a ≤ S32x64x512.size a
  inb_S64x32_S1x32_24_0 : ∀ a, (![24, 0] : Fin 2 → Nat) a + S1x32.size a ≤ S64x32.size a
  inb_S64x32x512_S1x32x512_24_0_0 : ∀ a, (![24, 0, 0] : Fin 3 → Nat) a + S1x32x512.size a ≤ S64x32x512.size a
  inb_S32x64x512_S32x1x512_0_24_0 : ∀ a, (![0, 24, 0] : Fin 3 → Nat) a + S32x1x512.size a ≤ S32x64x512.size a
  inb_S64x32_S1x32_25_0 : ∀ a, (![25, 0] : Fin 2 → Nat) a + S1x32.size a ≤ S64x32.size a
  inb_S64x32x512_S1x32x512_25_0_0 : ∀ a, (![25, 0, 0] : Fin 3 → Nat) a + S1x32x512.size a ≤ S64x32x512.size a
  inb_S32x64x512_S32x1x512_0_25_0 : ∀ a, (![0, 25, 0] : Fin 3 → Nat) a + S32x1x512.size a ≤ S32x64x512.size a
  inb_S64x32_S1x32_26_0 : ∀ a, (![26, 0] : Fin 2 → Nat) a + S1x32.size a ≤ S64x32.size a
  inb_S64x32x512_S1x32x512_26_0_0 : ∀ a, (![26, 0, 0] : Fin 3 → Nat) a + S1x32x512.size a ≤ S64x32x512.size a
  inb_S32x64x512_S32x1x512_0_26_0 : ∀ a, (![0, 26, 0] : Fin 3 → Nat) a + S32x1x512.size a ≤ S32x64x512.size a
  inb_S64x32_S1x32_27_0 : ∀ a, (![27, 0] : Fin 2 → Nat) a + S1x32.size a ≤ S64x32.size a
  inb_S64x32x512_S1x32x512_27_0_0 : ∀ a, (![27, 0, 0] : Fin 3 → Nat) a + S1x32x512.size a ≤ S64x32x512.size a
  inb_S32x64x512_S32x1x512_0_27_0 : ∀ a, (![0, 27, 0] : Fin 3 → Nat) a + S32x1x512.size a ≤ S32x64x512.size a
  inb_S64x32_S1x32_28_0 : ∀ a, (![28, 0] : Fin 2 → Nat) a + S1x32.size a ≤ S64x32.size a
  inb_S64x32x512_S1x32x512_28_0_0 : ∀ a, (![28, 0, 0] : Fin 3 → Nat) a + S1x32x512.size a ≤ S64x32x512.size a
  inb_S32x64x512_S32x1x512_0_28_0 : ∀ a, (![0, 28, 0] : Fin 3 → Nat) a + S32x1x512.size a ≤ S32x64x512.size a
  inb_S64x32_S1x32_29_0 : ∀ a, (![29, 0] : Fin 2 → Nat) a + S1x32.size a ≤ S64x32.size a
  inb_S64x32x512_S1x32x512_29_0_0 : ∀ a, (![29, 0, 0] : Fin 3 → Nat) a + S1x32x512.size a ≤ S64x32x512.size a
  inb_S32x64x512_S32x1x512_0_29_0 : ∀ a, (![0, 29, 0] : Fin 3 → Nat) a + S32x1x512.size a ≤ S32x64x512.size a
  inb_S64x32_S1x32_30_0 : ∀ a, (![30, 0] : Fin 2 → Nat) a + S1x32.size a ≤ S64x32.size a
  inb_S64x32x512_S1x32x512_30_0_0 : ∀ a, (![30, 0, 0] : Fin 3 → Nat) a + S1x32x512.size a ≤ S64x32x512.size a
  inb_S32x64x512_S32x1x512_0_30_0 : ∀ a, (![0, 30, 0] : Fin 3 → Nat) a + S32x1x512.size a ≤ S32x64x512.size a
  inb_S64x32_S1x32_31_0 : ∀ a, (![31, 0] : Fin 2 → Nat) a + S1x32.size a ≤ S64x32.size a
  inb_S64x32x512_S1x32x512_31_0_0 : ∀ a, (![31, 0, 0] : Fin 3 → Nat) a + S1x32x512.size a ≤ S64x32x512.size a
  inb_S32x64x512_S32x1x512_0_31_0 : ∀ a, (![0, 31, 0] : Fin 3 → Nat) a + S32x1x512.size a ≤ S32x64x512.size a
  inb_S64x32_S1x32_32_0 : ∀ a, (![32, 0] : Fin 2 → Nat) a + S1x32.size a ≤ S64x32.size a
  inb_S64x32x512_S1x32x512_32_0_0 : ∀ a, (![32, 0, 0] : Fin 3 → Nat) a + S1x32x512.size a ≤ S64x32x512.size a
  inb_S32x64x512_S32x1x512_0_32_0 : ∀ a, (![0, 32, 0] : Fin 3 → Nat) a + S32x1x512.size a ≤ S32x64x512.size a
  inb_S64x32_S1x32_33_0 : ∀ a, (![33, 0] : Fin 2 → Nat) a + S1x32.size a ≤ S64x32.size a
  inb_S64x32x512_S1x32x512_33_0_0 : ∀ a, (![33, 0, 0] : Fin 3 → Nat) a + S1x32x512.size a ≤ S64x32x512.size a
  inb_S32x64x512_S32x1x512_0_33_0 : ∀ a, (![0, 33, 0] : Fin 3 → Nat) a + S32x1x512.size a ≤ S32x64x512.size a
  inb_S64x32_S1x32_34_0 : ∀ a, (![34, 0] : Fin 2 → Nat) a + S1x32.size a ≤ S64x32.size a
  inb_S64x32x512_S1x32x512_34_0_0 : ∀ a, (![34, 0, 0] : Fin 3 → Nat) a + S1x32x512.size a ≤ S64x32x512.size a
  inb_S32x64x512_S32x1x512_0_34_0 : ∀ a, (![0, 34, 0] : Fin 3 → Nat) a + S32x1x512.size a ≤ S32x64x512.size a
  inb_S64x32_S1x32_35_0 : ∀ a, (![35, 0] : Fin 2 → Nat) a + S1x32.size a ≤ S64x32.size a
  inb_S64x32x512_S1x32x512_35_0_0 : ∀ a, (![35, 0, 0] : Fin 3 → Nat) a + S1x32x512.size a ≤ S64x32x512.size a
  inb_S32x64x512_S32x1x512_0_35_0 : ∀ a, (![0, 35, 0] : Fin 3 → Nat) a + S32x1x512.size a ≤ S32x64x512.size a
  inb_S64x32_S1x32_36_0 : ∀ a, (![36, 0] : Fin 2 → Nat) a + S1x32.size a ≤ S64x32.size a
  inb_S64x32x512_S1x32x512_36_0_0 : ∀ a, (![36, 0, 0] : Fin 3 → Nat) a + S1x32x512.size a ≤ S64x32x512.size a
  inb_S32x64x512_S32x1x512_0_36_0 : ∀ a, (![0, 36, 0] : Fin 3 → Nat) a + S32x1x512.size a ≤ S32x64x512.size a
  inb_S64x32_S1x32_37_0 : ∀ a, (![37, 0] : Fin 2 → Nat) a + S1x32.size a ≤ S64x32.size a
  inb_S64x32x512_S1x32x512_37_0_0 : ∀ a, (![37, 0, 0] : Fin 3 → Nat) a + S1x32x512.size a ≤ S64x32x512.size a
  inb_S32x64x512_S32x1x512_0_37_0 : ∀ a, (![0, 37, 0] : Fin 3 → Nat) a + S32x1x512.size a ≤ S32x64x512.size a
  inb_S64x32_S1x32_38_0 : ∀ a, (![38, 0] : Fin 2 → Nat) a + S1x32.size a ≤ S64x32.size a
  inb_S64x32x512_S1x32x512_38_0_0 : ∀ a, (![38, 0, 0] : Fin 3 → Nat) a + S1x32x512.size a ≤ S64x32x512.size a
  inb_S32x64x512_S32x1x512_0_38_0 : ∀ a, (![0, 38, 0] : Fin 3 → Nat) a + S32x1x512.size a ≤ S32x64x512.size a
  inb_S64x32_S1x32_39_0 : ∀ a, (![39, 0] : Fin 2 → Nat) a + S1x32.size a ≤ S64x32.size a
  inb_S64x32x512_S1x32x512_39_0_0 : ∀ a, (![39, 0, 0] : Fin 3 → Nat) a + S1x32x512.size a ≤ S64x32x512.size a
  inb_S32x64x512_S32x1x512_0_39_0 : ∀ a, (![0, 39, 0] : Fin 3 → Nat) a + S32x1x512.size a ≤ S32x64x512.size a
  inb_S64x32_S1x32_40_0 : ∀ a, (![40, 0] : Fin 2 → Nat) a + S1x32.size a ≤ S64x32.size a
  inb_S64x32x512_S1x32x512_40_0_0 : ∀ a, (![40, 0, 0] : Fin 3 → Nat) a + S1x32x512.size a ≤ S64x32x512.size a
  inb_S32x64x512_S32x1x512_0_40_0 : ∀ a, (![0, 40, 0] : Fin 3 → Nat) a + S32x1x512.size a ≤ S32x64x512.size a
  inb_S64x32_S1x32_41_0 : ∀ a, (![41, 0] : Fin 2 → Nat) a + S1x32.size a ≤ S64x32.size a
  inb_S64x32x512_S1x32x512_41_0_0 : ∀ a, (![41, 0, 0] : Fin 3 → Nat) a + S1x32x512.size a ≤ S64x32x512.size a
  inb_S32x64x512_S32x1x512_0_41_0 : ∀ a, (![0, 41, 0] : Fin 3 → Nat) a + S32x1x512.size a ≤ S32x64x512.size a
  inb_S64x32_S1x32_42_0 : ∀ a, (![42, 0] : Fin 2 → Nat) a + S1x32.size a ≤ S64x32.size a
  inb_S64x32x512_S1x32x512_42_0_0 : ∀ a, (![42, 0, 0] : Fin 3 → Nat) a + S1x32x512.size a ≤ S64x32x512.size a
  inb_S32x64x512_S32x1x512_0_42_0 : ∀ a, (![0, 42, 0] : Fin 3 → Nat) a + S32x1x512.size a ≤ S32x64x512.size a
  inb_S64x32_S1x32_43_0 : ∀ a, (![43, 0] : Fin 2 → Nat) a + S1x32.size a ≤ S64x32.size a
  inb_S64x32x512_S1x32x512_43_0_0 : ∀ a, (![43, 0, 0] : Fin 3 → Nat) a + S1x32x512.size a ≤ S64x32x512.size a
  inb_S32x64x512_S32x1x512_0_43_0 : ∀ a, (![0, 43, 0] : Fin 3 → Nat) a + S32x1x512.size a ≤ S32x64x512.size a
  inb_S64x32_S1x32_44_0 : ∀ a, (![44, 0] : Fin 2 → Nat) a + S1x32.size a ≤ S64x32.size a
  inb_S64x32x512_S1x32x512_44_0_0 : ∀ a, (![44, 0, 0] : Fin 3 → Nat) a + S1x32x512.size a ≤ S64x32x512.size a
  inb_S32x64x512_S32x1x512_0_44_0 : ∀ a, (![0, 44, 0] : Fin 3 → Nat) a + S32x1x512.size a ≤ S32x64x512.size a
  inb_S64x32_S1x32_45_0 : ∀ a, (![45, 0] : Fin 2 → Nat) a + S1x32.size a ≤ S64x32.size a
  inb_S64x32x512_S1x32x512_45_0_0 : ∀ a, (![45, 0, 0] : Fin 3 → Nat) a + S1x32x512.size a ≤ S64x32x512.size a
  inb_S32x64x512_S32x1x512_0_45_0 : ∀ a, (![0, 45, 0] : Fin 3 → Nat) a + S32x1x512.size a ≤ S32x64x512.size a
  inb_S64x32_S1x32_46_0 : ∀ a, (![46, 0] : Fin 2 → Nat) a + S1x32.size a ≤ S64x32.size a
  inb_S64x32x512_S1x32x512_46_0_0 : ∀ a, (![46, 0, 0] : Fin 3 → Nat) a + S1x32x512.size a ≤ S64x32x512.size a
  inb_S32x64x512_S32x1x512_0_46_0 : ∀ a, (![0, 46, 0] : Fin 3 → Nat) a + S32x1x512.size a ≤ S32x64x512.size a
  inb_S64x32_S1x32_47_0 : ∀ a, (![47, 0] : Fin 2 → Nat) a + S1x32.size a ≤ S64x32.size a
  inb_S64x32x512_S1x32x512_47_0_0 : ∀ a, (![47, 0, 0] : Fin 3 → Nat) a + S1x32x512.size a ≤ S64x32x512.size a
  inb_S32x64x512_S32x1x512_0_47_0 : ∀ a, (![0, 47, 0] : Fin 3 → Nat) a + S32x1x512.size a ≤ S32x64x512.size a
  inb_S64x32_S1x32_48_0 : ∀ a, (![48, 0] : Fin 2 → Nat) a + S1x32.size a ≤ S64x32.size a
  inb_S64x32x512_S1x32x512_48_0_0 : ∀ a, (![48, 0, 0] : Fin 3 → Nat) a + S1x32x512.size a ≤ S64x32x512.size a
  inb_S32x64x512_S32x1x512_0_48_0 : ∀ a, (![0, 48, 0] : Fin 3 → Nat) a + S32x1x512.size a ≤ S32x64x512.size a
  inb_S64x32_S1x32_49_0 : ∀ a, (![49, 0] : Fin 2 → Nat) a + S1x32.size a ≤ S64x32.size a
  inb_S64x32x512_S1x32x512_49_0_0 : ∀ a, (![49, 0, 0] : Fin 3 → Nat) a + S1x32x512.size a ≤ S64x32x512.size a
  inb_S32x64x512_S32x1x512_0_49_0 : ∀ a, (![0, 49, 0] : Fin 3 → Nat) a + S32x1x512.size a ≤ S32x64x512.size a
  inb_S64x32_S1x32_50_0 : ∀ a, (![50, 0] : Fin 2 → Nat) a + S1x32.size a ≤ S64x32.size a
  inb_S64x32x512_S1x32x512_50_0_0 : ∀ a, (![50, 0, 0] : Fin 3 → Nat) a + S1x32x512.size a ≤ S64x32x512.size a
  inb_S32x64x512_S32x1x512_0_50_0 : ∀ a, (![0, 50, 0] : Fin 3 → Nat) a + S32x1x512.size a ≤ S32x64x512.size a
  inb_S64x32_S1x32_51_0 : ∀ a, (![51, 0] : Fin 2 → Nat) a + S1x32.size a ≤ S64x32.size a
  inb_S64x32x512_S1x32x512_51_0_0 : ∀ a, (![51, 0, 0] : Fin 3 → Nat) a + S1x32x512.size a ≤ S64x32x512.size a
  inb_S32x64x512_S32x1x512_0_51_0 : ∀ a, (![0, 51, 0] : Fin 3 → Nat) a + S32x1x512.size a ≤ S32x64x512.size a
  inb_S64x32_S1x32_52_0 : ∀ a, (![52, 0] : Fin 2 → Nat) a + S1x32.size a ≤ S64x32.size a
  inb_S64x32x512_S1x32x512_52_0_0 : ∀ a, (![52, 0, 0] : Fin 3 → Nat) a + S1x32x512.size a ≤ S64x32x512.size a
  inb_S32x64x512_S32x1x512_0_52_0 : ∀ a, (![0, 52, 0] : Fin 3 → Nat) a + S32x1x512.size a ≤ S32x64x512.size a
  inb_S64x32_S1x32_53_0 : ∀ a, (![53, 0] : Fin 2 → Nat) a + S1x32.size a ≤ S64x32.size a
  inb_S64x32x512_S1x32x512_53_0_0 : ∀ a, (![53, 0, 0] : Fin 3 → Nat) a + S1x32x512.size a ≤ S64x32x512.size a
  inb_S32x64x512_S32x1x512_0_53_0 : ∀ a, (![0, 53, 0] : Fin 3 → Nat) a + S32x1x512.size a ≤ S32x64x512.size a
  inb_S64x32_S1x32_54_0 : ∀ a, (![54, 0] : Fin 2 → Nat) a + S1x32.size a ≤ S64x32.size a
  inb_S64x32x512_S1x32x512_54_0_0 : ∀ a, (![54, 0, 0] : Fin 3 → Nat) a + S1x32x512.size a ≤ S64x32x512.size a
  inb_S32x64x512_S32x1x512_0_54_0 : ∀ a, (![0, 54, 0] : Fin 3 → Nat) a + S32x1x512.size a ≤ S32x64x512.size a
  inb_S64x32_S1x32_55_0 : ∀ a, (![55, 0] : Fin 2 → Nat) a + S1x32.size a ≤ S64x32.size a
  inb_S64x32x512_S1x32x512_55_0_0 : ∀ a, (![55, 0, 0] : Fin 3 → Nat) a + S1x32x512.size a ≤ S64x32x512.size a
  inb_S32x64x512_S32x1x512_0_55_0 : ∀ a, (![0, 55, 0] : Fin 3 → Nat) a + S32x1x512.size a ≤ S32x64x512.size a
  inb_S64x32_S1x32_56_0 : ∀ a, (![56, 0] : Fin 2 → Nat) a + S1x32.size a ≤ S64x32.size a
  inb_S64x32x512_S1x32x512_56_0_0 : ∀ a, (![56, 0, 0] : Fin 3 → Nat) a + S1x32x512.size a ≤ S64x32x512.size a
  inb_S32x64x512_S32x1x512_0_56_0 : ∀ a, (![0, 56, 0] : Fin 3 → Nat) a + S32x1x512.size a ≤ S32x64x512.size a
  inb_S64x32_S1x32_57_0 : ∀ a, (![57, 0] : Fin 2 → Nat) a + S1x32.size a ≤ S64x32.size a
  inb_S64x32x512_S1x32x512_57_0_0 : ∀ a, (![57, 0, 0] : Fin 3 → Nat) a + S1x32x512.size a ≤ S64x32x512.size a
  inb_S32x64x512_S32x1x512_0_57_0 : ∀ a, (![0, 57, 0] : Fin 3 → Nat) a + S32x1x512.size a ≤ S32x64x512.size a
  inb_S64x32_S1x32_58_0 : ∀ a, (![58, 0] : Fin 2 → Nat) a + S1x32.size a ≤ S64x32.size a
  inb_S64x32x512_S1x32x512_58_0_0 : ∀ a, (![58, 0, 0] : Fin 3 → Nat) a + S1x32x512.size a ≤ S64x32x512.size a
  inb_S32x64x512_S32x1x512_0_58_0 : ∀ a, (![0, 58, 0] : Fin 3 → Nat) a + S32x1x512.size a ≤ S32x64x512.size a
  inb_S64x32_S1x32_59_0 : ∀ a, (![59, 0] : Fin 2 → Nat) a + S1x32.size a ≤ S64x32.size a
  inb_S64x32x512_S1x32x512_59_0_0 : ∀ a, (![59, 0, 0] : Fin 3 → Nat) a + S1x32x512.size a ≤ S64x32x512.size a
  inb_S32x64x512_S32x1x512_0_59_0 : ∀ a, (![0, 59, 0] : Fin 3 → Nat) a + S32x1x512.size a ≤ S32x64x512.size a
  inb_S64x32_S1x32_60_0 : ∀ a, (![60, 0] : Fin 2 → Nat) a + S1x32.size a ≤ S64x32.size a
  inb_S64x32x512_S1x32x512_60_0_0 : ∀ a, (![60, 0, 0] : Fin 3 → Nat) a + S1x32x512.size a ≤ S64x32x512.size a
  inb_S32x64x512_S32x1x512_0_60_0 : ∀ a, (![0, 60, 0] : Fin 3 → Nat) a + S32x1x512.size a ≤ S32x64x512.size a
  inb_S64x32_S1x32_61_0 : ∀ a, (![61, 0] : Fin 2 → Nat) a + S1x32.size a ≤ S64x32.size a
  inb_S64x32x512_S1x32x512_61_0_0 : ∀ a, (![61, 0, 0] : Fin 3 → Nat) a + S1x32x512.size a ≤ S64x32x512.size a
  inb_S32x64x512_S32x1x512_0_61_0 : ∀ a, (![0, 61, 0] : Fin 3 → Nat) a + S32x1x512.size a ≤ S32x64x512.size a
  inb_S64x32_S1x32_62_0 : ∀ a, (![62, 0] : Fin 2 → Nat) a + S1x32.size a ≤ S64x32.size a
  inb_S64x32x512_S1x32x512_62_0_0 : ∀ a, (![62, 0, 0] : Fin 3 → Nat) a + S1x32x512.size a ≤ S64x32x512.size a
  inb_S32x64x512_S32x1x512_0_62_0 : ∀ a, (![0, 62, 0] : Fin 3 → Nat) a + S32x1x512.size a ≤ S32x64x512.size a
  inb_S64x32_S1x32_63_0 : ∀ a, (![63, 0] : Fin 2 → Nat) a + S1x32.size a ≤ S64x32.size a
  inb_S64x32x512_S1x32x512_63_0_0 : ∀ a, (![63, 0, 0] : Fin 3 → Nat) a + S1x32x512.size a ≤ S64x32x512.size a
  inb_S32x64x512_S32x1x512_0_63_0 : ∀ a, (![0, 63, 0] : Fin 3 → Nat) a + S32x1x512.size a ≤ S32x64x512.size a
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x1024.size a ≤ S32x4096x1024.size a
  hwx0_0 : ∀ i : grid0.Coords, EltTy.bits .f32 = 32 ∨ (Rect.block (s := S32x4096x1024) S32x64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x32x512.size a ≤ S4096x32x512.size a
  hwx0_3 : ∀ i : grid0.Coords, EltTy.bits .bf16 = 32 ∨ (Rect.block (s := S4096x32x512) S64x32x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x32x512.size a ≤ S4096x32x512.size a
  hwx1_0 : ∀ i : grid1.Coords, EltTy.bits .bf16 = 32 ∨ (Rect.block (s := S4096x32x512) S64x32x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S4096x32.size a
  hwx1_1 : ∀ i : grid1.Coords, EltTy.bits .f32 = 32 ∨ (Rect.block (s := S4096x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x64x512.size a ≤ S32x4096x512.size a
  hwx1_2 : ∀ i : grid1.Coords, EltTy.bits .f32 = 32 ∨ (Rect.block (s := S32x4096x512) S32x64x512.size (cc1_transform_2 i) (hinb1_2 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_arg0) S32x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S64x32x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S64x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S32x64x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x4096x1024 : Shape := ⟨3, ![32, 4096, 1024]⟩
abbrev S32x4096 : Shape := ⟨2, ![32, 4096]⟩
abbrev S512x1024 : Shape := ⟨2, ![512, 1024]⟩
abbrev S512 : Shape := ⟨1, ![512]⟩
abbrev S32x4096x512 : Shape := ⟨3, ![32, 4096, 512]⟩
abbrev S1x1x512 : Shape := ⟨3, ![1, 1, 512]⟩
abbrev S4096 : Shape := ⟨1, ![4096]⟩
abbrev S_ : Shape := ⟨0, ![]⟩
abbrev S32x1 : Shape := ⟨2, ![32, 1]⟩
abbrev S32x4095 : Shape := ⟨2, ![32, 4095]⟩
abbrev S1x4096 : Shape := ⟨2, ![1, 4096]⟩
abbrev S32x4096x1 : Shape := ⟨3, ![32, 4096, 1]⟩
abbrev S1 : Shape := ⟨1, ![1]⟩
abbrev S1x1x1 : Shape := ⟨3, ![1, 1, 1]⟩

abbrev nBuf : Space → Nat
  | .hbm => 45
  | .vmem => 0
  | .smem => 0
  | _ => 0

abbrev bufTy : (tb : Table) → Fin (tcTables nBuf tb) → BufTy
  | .hbm, ⟨0, _⟩ => ⟨S32x4096x1024, .f32⟩
  | .hbm, ⟨1, _⟩ => ⟨S32x4096, .i1⟩
  | .hbm, ⟨2, _⟩ => ⟨S512x1024, .f32⟩
  | .hbm, ⟨3, _⟩ => ⟨S512, .f32⟩
  | .hbm, ⟨4, _⟩ => ⟨S32x4096x512, .f32⟩
  | .hbm, ⟨5, _⟩ => ⟨S1x1x512, .f32⟩
  | .hbm, ⟨6, _⟩ => ⟨S32x4096x512, .f32⟩
  | .hbm, ⟨7, _⟩ => ⟨S32x4096x512, .f32⟩
  | .hbm, ⟨8, _⟩ => ⟨S4096, .i32⟩
  | .hbm, ⟨9, _⟩ => ⟨S_, .i1⟩
  | .hbm, ⟨10, _⟩ => ⟨S32x1, .i1⟩
  | .hbm, ⟨11, _⟩ => ⟨S32x4095, .i1⟩
  | .hbm, ⟨12, _⟩ => ⟨S32x4096, .i1⟩
  | .hbm, ⟨13, _⟩ => ⟨S1x4096, .i32⟩
  | .hbm, ⟨14, _⟩ => ⟨S_, .i32⟩
  | .hbm, ⟨15, _⟩ => ⟨S_, .i32⟩
  | .hbm, ⟨16, _⟩ => ⟨S32x4096, .i32⟩
  | .hbm, ⟨17, _⟩ => ⟨S32x4096, .i32⟩
  | .hbm, ⟨18, _⟩ => ⟨S32x4096, .i32⟩
  | .hbm, ⟨19, _⟩ => ⟨S_, .i32⟩
  | .hbm, ⟨20, _⟩ => ⟨S_, .i32⟩
  | .hbm, ⟨21, _⟩ => ⟨S32x4096, .i32⟩
  | .hbm, ⟨22, _⟩ => ⟨S32x4096x1, .i32⟩
  | .hbm, ⟨23, _⟩ => ⟨S_, .i32⟩
  | .hbm, ⟨24, _⟩ => ⟨S32x4096x1, .i32⟩
  | .hbm, ⟨25, _⟩ => ⟨S32x4096x1, .i1⟩
  | .hbm, ⟨26, _⟩ => ⟨S_, .i32⟩
  | .hbm, ⟨27, _⟩ => ⟨S32x4096x1, .i32⟩
  | .hbm, ⟨28, _⟩ => ⟨S32x4096x1, .i32⟩
  | .hbm, ⟨29, _⟩ => ⟨S32x4096x1, .i32⟩
  | .hbm, ⟨30, _⟩ => ⟨S1, .i32⟩
  | .hbm, ⟨31, _⟩ => ⟨S_, .i32⟩
  | .hbm, ⟨32, _⟩ => ⟨S32x4096x1, .i32⟩
  | .hbm, ⟨33, _⟩ => ⟨S32x4096x1, .i1⟩
  | .hbm, ⟨34, _⟩ => ⟨S1x1x1, .i32⟩
  | .hbm, ⟨35, _⟩ => ⟨S32x4096x1, .i32⟩
  | .hbm, ⟨36, _⟩ => ⟨S32x4096x1, .i1⟩
  | .hbm, ⟨37, _⟩ => ⟨S32x4096x1, .i1⟩
  | .hbm, ⟨38, _⟩ => ⟨S_, .i1⟩
  | .hbm, ⟨39, _⟩ => ⟨S32x4096, .i1⟩
  | .hbm, ⟨40, _⟩ => ⟨S32x4096x512, .f32⟩
  | .hbm, ⟨41, _⟩ => ⟨S32x4096x512, .i1⟩
  | .hbm, ⟨42, _⟩ => ⟨S_, .f32⟩
  | .hbm, ⟨43, _⟩ => ⟨S32x4096x512, .f32⟩
  | .hbm, ⟨44, _⟩ => ⟨S32x4096x512, .f32⟩
  | _, _ => ⟨S32x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_call1_c : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_call2_c : Ref sig .tc := ⟨.hbm, 23, rfl⟩
abbrev main_call2_v0 : Ref sig .tc := ⟨.hbm, 24, rfl⟩
abbrev main_call2_v1 : Ref sig .tc := ⟨.hbm, 25, rfl⟩
abbrev main_call2_c_0 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_c_1 : Ref sig .tc := ⟨.hbm, 30, rfl⟩
abbrev main_call2_c_2 : Ref sig .tc := ⟨.hbm, 31, rfl⟩
abbrev main_call2_v5 : Ref sig .tc := ⟨.hbm, 32, rfl⟩
abbrev main_call2_v6 : Ref sig .tc := ⟨.hbm, 33, rfl⟩
abbrev main_call2_v7 : Ref sig .tc := ⟨.hbm, 34, rfl⟩
abbrev main_call2_v8 : Ref sig .tc := ⟨.hbm, 35, rfl⟩
abbrev main_call2_v9 : Ref sig .tc := ⟨.hbm, 36, rfl⟩
abbrev main_call2_v10 : Ref sig .tc := ⟨.hbm, 37, rfl⟩
abbrev main_call2_c_3 : Ref sig .tc := ⟨.hbm, 38, rfl⟩
abbrev main_call2_v11 : Ref sig .tc := ⟨.hbm, 39, rfl⟩
abbrev main_call2_v12 : Ref sig .tc := ⟨.hbm, 40, rfl⟩
abbrev main_call2_v13 : Ref sig .tc := ⟨.hbm, 41, rfl⟩
abbrev main_call2_cst : Ref sig .tc := ⟨.hbm, 42, rfl⟩
abbrev main_call2_v14 : Ref sig .tc := ⟨.hbm, 43, rfl⟩
abbrev main_v12 : Ref sig .tc := ⟨.hbm, 44, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x4096x512_0_1_2 : S1x1x512.BroadcastsInDim S32x4096x512 (![0, 1, 2] : Fin 3 → Fin S32x4096x512.rank)
  bcast_S_S32x1 : S_.BroadcastsInDim S32x1 (![] : Fin 0 → Fin S32x1.rank)
  slices_S32x4096_S32x4095_0_0 : S32x4096.Slices ![0, 0] S32x4095
  concatenates_S32x1_S32x4095_S32x4096_d1 : Shape.Concatenates [S32x1, S32x4095] S32x4096 1
  bcast_S4096_S1x4096_1 : S4096.BroadcastsInDim S1x4096 (![1] : Fin 1 → Fin S1x4096.rank)
  bcast_S1x4096_S32x4096_0_1 : S1x4096.BroadcastsInDim S32x4096 (![0, 1] : Fin 2 → Fin S32x4096.rank)
  bcast_S_S32x4096 : S_.BroadcastsInDim S32x4096 (![] : Fin 0 → Fin S32x4096.rank)
  bcast_S_S_ : S_.BroadcastsInDim S_ (![] : Fin 0 → Fin S_.rank)
  reduceWindows_S32x4096_S32x4096_w1s1p0_0_w4096s1p4095_0 : S32x4096.ReduceWindows (![1, 4096] : Fin 2 → Nat) ![1, 1] ![0, 4095] ![0, 0] S32x4096
  h_S_ : 0 < S_.numel
  bcast_S32x4096_S32x4096x1_0_1 : S32x4096.BroadcastsInDim S32x4096x1 (![0, 1] : Fin 2 → Fin S32x4096x1.rank)
  bcast_S_S32x4096x1 : S_.BroadcastsInDim S32x4096x1 (![] : Fin 0 → Fin S32x4096x1.rank)
  bcast_S1_S1x1x1_2 : S1.BroadcastsInDim S1x1x1 (![2] : Fin 1 → Fin S1x1x1.rank)
  bcast_S1x1x1_S32x4096x1_0_1_2 : S1x1x1.BroadcastsInDim S32x4096x1 (![0, 1, 2] : Fin 3 → Fin S32x4096x1.rank)
  reducesTo_S32x4096x1_S32x4096_d2 : S32x4096x1.ReducesTo [2] S32x4096
  bcast_S32x4096_S32x4096x512_0_1 : S32x4096.BroadcastsInDim S32x4096x512 (![0, 1] : Fin 2 → Fin S32x4096x512.rank)
  bcast_S_S32x4096x512 : S_.BroadcastsInDim S32x4096x512 (![] : Fin 0 → Fin S32x4096x512.rank)
  dot_S32x4096x1024_S512x1024_S32x4096x512_2_1_01_0_n_n_wf : DotDims.WF S32x4096x1024 S512x1024 S32x4096x512 [2] [1] [0, 1] [0] [] []
  gather_S32x4096x512_S32x4096x1_S32x4096x512_2_1_0_0_1_2_11512_wf : GatherDims.WF S32x4096x512 S32x4096x1 S32x4096x512 [2] [1] [0] [1] [0] 2 ![1, 1, 512]

variable [Facts₀]

def dot_S32x4096x1024_S512x1024_S32x4096x512_2_1_01_0_n_n : DotDims S32x4096x1024 S512x1024 S32x4096x512 where
  lhsContracting := [2]
  rhsContracting := [1]
  lhsNonContracting := [0, 1]
  rhsNonContracting := [0]
  lhsBatch := []
  rhsBatch := []
  wf := dot_S32x4096x1024_S512x1024_S32x4096x512_2_1_01_0_n_n_wf
def gather_S32x4096x512_S32x4096x1_S32x4096x512_2_1_0_0_1_2_11512 : GatherDims S32x4096x512 S32x4096x1 S32x4096x512 where
  offsetDims := [2]
  collapsedSliceDims := [1]
  operandBatchingDims := [0]
  startIndicesBatchingDims := [0]
  startIndexMap := [1]
  indexVectorDim := 2
  sliceSizes := ![1, 1, 512]
  wf := gather_S32x4096x512_S32x4096x1_S32x4096x512_2_1_0_0_1_2_11512_wf

class Facts : Prop extends Facts₀ where

variable [Facts]
-- ==== Proof.WMmBody.lean ====
/-
  The first pallas_call of the program (the linear layer): what its body leaves in the output window's block.

  The grid has 64 points.  At point t the body sees the block x[0:32, 64t:64t+64, 0:1024] of the activations, the
  whole (transposed, bf16) weight matrix w[0:1024, 0:512] and the whole bias row, and writes the block
  y'[64t:64t+64, 0:32, 0:512] of the position-major result: it reshapes its x block to 2048 rows, multiplies by
  w into a zero accumulator, adds the bias to every row, and lays the rows back out position-major.  The weight
  matrix and the bias have a constant block index, so the pipeline fetches them at the first point only; their
  staging buffers nevertheless hold the same block at every point, because the body leaves them in place.

  This module states, at ANY entry contents V of the TensorCore's buffers: each window's block at a point; the
  output block as one function out0_3 of the three input blocks; the body's triple; the pipeline's proof
  data; and the library's body obligation for it.
-/
import proofs.«134082_j74328704025133_1_alg».proof.Proof.Gen.Kernel.Launch
import proofs.«134082_j74328704025133_1_alg».proof.Proof.Gen.Kernel.Skeleton
import proofs.«134082_j74328704025133_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds their block at every point, for any proof data whose array is V's and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point, fetched there (the first point) or
    not (every later one: its block index never moves, and the body leaves it in place). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer holds the whole row at every point, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S32x64x1024 := Rect.unit (s := S32x64x1024) ![0, 0, 0] S32x64x1024.size inb_S32x64x1024_S32x64x1024_0_0_0
abbrev r0_1 : Rect S1024x512 := Rect.unit (s := S1024x512) ![0, 0] S1024x512.size inb_S1024x512_S1024x512_0_0
abbrev r0_2 : Rect S512 := Rect.unit (s := S512) ![0] S512.size inb_S512_S512_0
abbrev r0_3 : Rect S64x32x512 := Rect.unit (s := S64x32x512) ![0, 0, 0] S64x32x512.size inb_S64x32x512_S64x32x512_0_0_0

/-! ## What the body leaves in the output window's buffer -/

/-- The output block after the body, from the three input blocks: its one store, of the whole block, of the
    linear layer of the loaded blocks laid out position-major. -/
def out0_3 (x0 : Vec F S32x64x1024 .f32) (x1 : Vec F S1024x512 .bf16) (x2 : Vec F S512 .f32) : Vec F S64x32x512 .bf16 :=
  View.canon [⟨r0_3, k0_pay1 (View.ld x0 r0_0) (View.ld x1 r0_1) (View.ld x2 r0_2)⟩]

/-- The one store is of the whole block, so it covers it. -/
theorem cover0_3 (p0 : Vec F S64x32x512 .bf16) (y : S64x32x512.Idx) :
    ∃ pc ∈ ([⟨r0_3, p0⟩] : List (View.Piece (Elt F) S64x32x512 .bf16)), y ∈ pc.1.set :=
  View.cover_of_tiled [⟨r0_3, p0⟩] S64x32x512.size (by rfl) y

/-! ## The body's triple -/

set_option maxHeartbeats 1000000 in
/-- The body on whole staging memrefs, the inputs' at read contents x0, x1, x2 and the output's at anything, runs
    to the continuation holding the inputs' as they were and the output's at out0_3 of the inputs'. -/
theorem sound_kernel0 (c : Dev nD) (E : Set ℕ) (i : grid0.Coords)
    (arg0 : Memref sig .tc .vmem S32x64x1024 .f32) (harg0 : arg0.IsWhole) (arg1 : Memref sig .tc .vmem S1024x512 .bf16) (harg1 : arg1.IsWhole)
    (arg2 : Memref sig .tc .vmem S512 .f32) (harg2 : arg2.IsWhole) (arg3 : Memref sig .tc .vmem S64x32x512 .bf16) (harg3 : arg3.IsWhole)
    (x0 : Vec F S32x64x1024 .f32) (x1 : Vec F S1024x512 .bf16) (x2 : Vec F S512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__mm_kernel i arg0 harg0 arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core c: the arrays as the region finds them (V); after the body at point
    t each input's buffer at its block and the output's at out0_3 of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant
    and the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WScanDefs.lean ====
/-
  The carried-row kernel (the second region): what its control depends on, and the memrefs it is run on.

  The body branches once, on "this is the grid's first point": there it clears the carried row before reading it.
  Everything after that branch is the same straight line at every point — 64 steps, each reading one row of the
  start flags and one row block of the linear layer's output, updating the carried row and storing it into the
  output block — and a final store of the carried row back into the scratch.
-/
import proofs.«134082_j74328704025133_1_alg».proof.Proof.Gen.Kernel.Launch
import proofs.«134082_j74328704025133_1_alg».proof.Proof.Gen.Kernel.Skeleton
import proofs.«134082_j74328704025133_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinate: "the coordinate is zero". -/
abbrev cond1_0 (i : grid1.Coords) : Prop :=
  (Scalar.cmpi .ne (Scalar.extui (Scalar.cmpi .eq (BitVec.ofNat 32 (i 0).val) 0#32)) 0#32) = 1#1

/-- It holds at the first point of the grid and at no other (decided over the 64 points). -/
theorem hcond1_0 : ∀ t : Fin cfg1.N, cond1_0 (grid1.coords t) ↔ t.val = 0 :=
  (by decide +kernel : ∀ t : Fin grid1.N, cond1_0 (grid1.coords t) ↔ t.val = 0)

/-- Each window's current staging memref at point `t`, as the pipeline passes it to the body, and its wholeness. -/
abbrev ms1_0 (t : Fin cfg1.N) : Memref sig .tc .vmem S64x32x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x64x512 .f32 := win1_2.stage (cfg1.slots t 2)
abbrev hs1_2 (t : Fin cfg1.N) : (ms1_2 t).IsWhole := hstage1_2 ((cfg1.slots t 2).cast nbuf1_2)
/-- The scratch operand: the carried row's buffer, whole. -/
abbrev scM1_0 : Memref sig .tc .vmem S32x512 .f32 := Memref.whole cc1_scratch0
/-- The carried row's buffer as a view: what it holds is stated through it. -/
abbrev VS1_0 : View sig .tc .vmem S32x512 .f32 := scM1_0.view
/-- One staging buffer of the output window, through which its contents are stated. -/
abbrev VO1_2 : View sig .tc .vmem S32x64x512 .f32 := (Memref.whole cc1_stg2_0 : Memref sig .tc .vmem S32x64x512 .f32).view

end Cert.Kernel.Hand

end
-- ==== Proof.WScanRunB.lean ====
/-
  The carried-row kernel run symbolically at a point that is not the grid's first: the branch that clears the
  carried row is not taken, so the row the point before left is what the 64 steps start from.
-/
import proofs.«134082_j74328704025133_1_alg».proof.Proof.WScanDefs

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in the output block's buffer and in the carried row's buffer, as pieces (last first), at a point that is not the grid's first (the clearing branch not taken), WITH the proof that on whole
    memrefs — the two inputs' at their contents, the output's at anything, the carried row's at the contents the point before left — the body runs to the continuation
    holding the inputs' as they were and the two written buffers with their pieces written.  The pieces are what the symbolic run finds. -/
noncomputable def kernelRun1_B (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : ¬cond1_0 i)
    (x0 : Vec F S64x32x512 .bf16) (x1 : Vec F S64x32 .f32) (xs0 : Vec F S32x512 .f32) :
    Σ' (L2 : List (View.Piece (Elt F) S32x64x512 .f32)), { LS0 : List (View.Piece (Elt F) S32x512 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__scan_kernel i arg1 harg1 arg2 harg2 arg3 harg3 arg4 harg4) K } := by
  refine ⟨?_, ?_, fun E K => ?run⟩
  case run =>
    simp only [cc1__scan_kernel_eq_skeleton]; unfold cc1__scan_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.WScanRunA.lean ====
/-
  The carried-row kernel run symbolically at the grid's first point: the branch that clears the carried row is
  taken, so whatever the scratch held is overwritten with zeros before the 64 steps read it.
-/
import proofs.«134082_j74328704025133_1_alg».proof.Proof.WScanRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in the output block's buffer and in the carried row's buffer, as pieces (last first), at the first point of the grid (the clearing branch taken), WITH the proof that on whole
    memrefs — the two inputs' at their contents, the output's at anything, the carried row's at anything — the body runs to the continuation
    holding the inputs' as they were and the two written buffers with their pieces written.  The pieces are what the symbolic run finds. -/
noncomputable def kernelRun1_A (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : cond1_0 i)
    (x0 : Vec F S64x32x512 .bf16) (x1 : Vec F S64x32 .f32) :
    Σ' (L2 : List (View.Piece (Elt F) S32x64x512 .f32)), { LS0 : List (View.Piece (Elt F) S32x512 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__scan_kernel i arg1 harg1 arg2 harg2 arg3 harg3 arg4 harg4) K } := by
  refine ⟨?_, ?_, fun E K => ?run⟩
  case run =>
    simp only [cc1__scan_kernel_eq_skeleton]; unfold cc1__scan_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.WScanFrame.lean ====
/-
  The second region's proof data.  At every grid point the body is handed its two input blocks (64 rows of the
  linear layer's output, 64 rows of start flags), the output block at anything and the carried row; it leaves the
  output block written by its 64 stores and the carried row at its last value.  What the point leaves is therefore
  a function of the point's input blocks and of what the point BEFORE left in the carried row — a recursion on the
  point, started at the first point, where the body clears the row itself.  The region's invariant between points
  is: the carried row's buffer at exactly that value (before the first point: at anything), every other scoped
  buffer at anything, the generator register at some state.
-/
import proofs.«134082_j74328704025133_1_alg».proof.Proof.WScanRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## What each case leaves: its pieces cover the buffers -/

/-- At the first point the output block's 64 stored slabs tile it. -/
theorem cover1_A_2 (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : cond1_0 i)
    (x0 : Vec F S64x32x512 .bf16) (x1 : Vec F S64x32 .f32) (y : S32x64x512.Idx) :
    ∃ pc ∈ (kernelRun1_A c i arg1 harg1 arg2 harg2 arg3 harg3 arg4 harg4 hc0 x0 x1).1, y ∈ pc.1.set :=
  View.cover_of_tiledL (kernelRun1_A c i arg1 harg1 arg2 harg2 arg3 harg3 arg4 harg4 hc0 x0 x1).1 S32x1x512.size (by sl_kernel_rfl) y
/-- What the first point leaves in the output block's buffer: its pieces read back. -/
def out1_A_2 (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : cond1_0 i)
    (x0 : Vec F S64x32x512 .bf16) (x1 : Vec F S64x32 .f32) : Vec F S32x64x512 .f32 :=
  VO1_2.read (Elt F) (VO1_2.writes (Elt F) VO1_2.junk (kernelRun1_A c i arg1 harg1 arg2 harg2 arg3 harg3 arg4 harg4 hc0 x0 x1).1)
/-- At the first point the carried row's stores cover its buffer. -/
theorem scover1_A_0 (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : cond1_0 i)
    (x0 : Vec F S64x32x512 .bf16) (x1 : Vec F S64x32 .f32) (y : S32x512.Idx) :
    ∃ pc ∈ (kernelRun1_A c i arg1 harg1 arg2 harg2 arg3 harg3 arg4 harg4 hc0 x0 x1).2.1, y ∈ pc.1.set :=
  View.cover_of_tiledL (kernelRun1_A c i arg1 harg1 arg2 harg2 arg3 harg3 arg4 harg4 hc0 x0 x1).2.1 S32x512.size (by sl_kernel_rfl) y
/-- What the first point leaves in the carried row's buffer. -/
def sout1_A_0 (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : cond1_0 i)
    (x0 : Vec F S64x32x512 .bf16) (x1 : Vec F S64x32 .f32) : Vec F S32x512 .f32 :=
  VS1_0.read (Elt F) (VS1_0.writes (Elt F) VS1_0.junk (kernelRun1_A c i arg1 harg1 arg2 harg2 arg3 harg3 arg4 harg4 hc0 x0 x1).2.1)

/-- At a later point the output block's 64 stored slabs tile it. -/
theorem cover1_B_2 (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : ¬cond1_0 i)
    (x0 : Vec F S64x32x512 .bf16) (x1 : Vec F S64x32 .f32) (xs0 : Vec F S32x512 .f32) (y : S32x64x512.Idx) :
    ∃ pc ∈ (kernelRun1_B c i arg1 harg1 arg2 harg2 arg3 harg3 arg4 harg4 hc0 x0 x1 xs0).1, y ∈ pc.1.set :=
  View.cover_of_tiledL (kernelRun1_B c i arg1 harg1 arg2 harg2 arg3 harg3 arg4 harg4 hc0 x0 x1 xs0).1 S32x1x512.size (by sl_kernel_rfl) y
/-- What a later point leaves in the output block's buffer, given what the point before left in the carried row. -/
def out1_B_2 (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : ¬cond1_0 i)
    (x0 : Vec F S64x32x512 .bf16) (x1 : Vec F S64x32 .f32) (xs0 : Vec F S32x512 .f32) : Vec F S32x64x512 .f32 :=
  VO1_2.read (Elt F) (VO1_2.writes (Elt F) VO1_2.junk (kernelRun1_B c i arg1 harg1 arg2 harg2 arg3 harg3 arg4 harg4 hc0 x0 x1 xs0).1)
/-- At a later point the carried row's store covers its buffer. -/
theorem scover1_B_0 (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : ¬cond1_0 i)
    (x0 : Vec F S64x32x512 .bf16) (x1 : Vec F S64x32 .f32) (xs0 : Vec F S32x512 .f32) (y : S32x512.Idx) :
    ∃ pc ∈ (kernelRun1_B c i arg1 harg1 arg2 harg2 arg3 harg3 arg4 harg4 hc0 x0 x1 xs0).2.1, y ∈ pc.1.set :=
  View.cover_of_tiledL (kernelRun1_B c i arg1 harg1 arg2 harg2 arg3 harg3 arg4 harg4 hc0 x0 x1 xs0).2.1 S32x512.size (by sl_kernel_rfl) y
/-- What a later point leaves in the carried row's buffer. -/
def sout1_B_0 (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : ¬cond1_0 i)
    (x0 : Vec F S64x32x512 .bf16) (x1 : Vec F S64x32 .f32) (xs0 : Vec F S32x512 .f32) : Vec F S32x512 .f32 :=
  VS1_0.read (Elt F) (VS1_0.writes (Elt F) VS1_0.junk (kernelRun1_B c i arg1 harg1 arg2 harg2 arg3 harg3 arg4 harg4 hc0 x0 x1 xs0).2.1)

section
variable (V : (c : Dev nD) → (b : Ref sig .tc) → Buf (Elt F) ((c : Thread nD τ).loc b))

/-! ## Point by point -/

/-- What the output block's buffer and the carried row's buffer hold after the body at position `n`: at the first
    point what the clearing case leaves, afterwards what the other case leaves over the carried row of the point before. -/
def outsAt1 (c : Dev nD) : (n : ℕ) → n < cfg1.N → Vec F S32x64x512 .f32 × Vec F S32x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr rfl) (iblk1 V c 0 ⟨0, hn⟩) (iblk1 V c 1 ⟨0, hn⟩),
              sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr rfl) (iblk1 V c 0 ⟨0, hn⟩) (iblk1 V c 1 ⟨0, hn⟩))
  | n + 1, hn => (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) (iblk1 V c 0 ⟨n + 1, hn⟩) (iblk1 V c 1 ⟨n + 1, hn⟩) (outsAt1 c n (Nat.lt_of_succ_lt hn)).2,
              sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) (iblk1 V c 0 ⟨n + 1, hn⟩) (iblk1 V c 1 ⟨n + 1, hn⟩) (outsAt1 c n (Nat.lt_of_succ_lt hn)).2)

/-- `outsAt1` at the first point. -/
theorem outsAt1_A (c : Dev nD) (t : Fin cfg1.N) (h0 : t.val = 0) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (iblk1 V c 0 t) (iblk1 V c 1 t),
      sout1_A_0 c (grid1.coords t) (ms1_0 t) (hs1_0 t) (ms1_1 t) (hs1_1 t) (ms1_2 t) (hs1_2 t) scM1_0 (Memref.isWhole_whole _) ((hcond1_0 t).mpr h0) (iblk1 V c 0 t) (iblk1 V c 1 t)) := by
  obtain ⟨n, hn⟩ := t
  cases n with
  | zero => exact rfl
  | succ n => exact absurd h0 (Nat.succ_ne_zero n)

/-- `outsAt1` at a later point: over what the point before left. -/
theorem outsAt1_B (c : Dev nD) (t : Fin cfg1.N) (h0 : ¬t.val = 0) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (iblk1 V c 0 t) (iblk1 V c 1 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) scM1_0 (Memref.isWhole_whole _) (fun h => h0 ((hcond1_0 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact rfl

/-! ## The invariant between points -/

/-- The class's invariant with the scoped buffers spelt out: the other region's six staging buffers and the carried
    row's buffer, each at anything, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- The region invariant before position `n`: before the first point the class's; afterwards the same with the carried
    row's buffer at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The proof data of the second pipeline on core `c`: the arrays as the region finds them; after the body at point
    `t` each input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- No window of this pipeline is ever idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the first point is the clearing case, every other
    the carrying case; the invariant hands the body the carried row's buffer (at anything at the first point, at what
    the point before left otherwise) and takes it back at this point's value; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases hz : t.val = 0
  · rw [outsAt1_A V c t hz]
    unfold out1_A_2 sout1_A_0; (try dsimp only)
    rw [PhiS1_castSucc V c t, PhiS1_zero V c _ _ hz, PhiA1_eq]
    iintro ⟨⟨⟨Hb1, Hb2, Hb3, Hb4, Hb5, Hb6, HS0⟩, Hg⟩, Ho, ⟨%d0, H0⟩, ⟨%d1, H1⟩, ⟨%d2, H2⟩⟩
    iapply ((kernelRun1_A c (grid1.coords t) _ _ _ _ _ _ _ _ ((hcond1_0 t).mpr hz) (iblk1 V c 0 t) (iblk1 V c 1 t)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [Hb1 Hb2 Hb3 Hb4 Hb5 Hb6 HS0 Hg]
    · isplitl [Hb1 Hb2 Hb3 Hb4 Hb5 Hb6 HS0]
      · isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        unfold owns; iexists _; isplitr
        swap; · iexact HS0
        ipureintro; exact View.read_writes_of_cover _ _ _ _ _ (scover1_A_0 c _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _ _ _)
  · rw [outsAt1_B V c t hz]
    unfold out1_B_2 sout1_B_0; (try dsimp only)
    rw [PhiS1_castSucc V c t, PhiS1_pos V c _ _ hz]
    iintro ⟨⟨⟨Hb1, Hb2, Hb3, Hb4, Hb5, Hb6, HS0⟩, Hg⟩, Ho, ⟨%d0, H0⟩, ⟨%d1, H1⟩, ⟨%d2, H2⟩⟩
    iapply ((kernelRun1_B c (grid1.coords t) _ _ _ _ _ _ _ _ (fun h => hz ((hcond1_0 t).mp h)) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [Hb1 Hb2 Hb3 Hb4 Hb5 Hb6 HS0 Hg]
    · isplitl [Hb1 Hb2 Hb3 Hb4 Hb5 Hb6 HS0]
      · isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        unfold owns; iexists _; isplitr
        swap; · iexact HS0
        ipureintro; exact View.read_writes_of_cover _ _ _ _ _ (scover1_B_0 c _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried row's value is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hb1, Hb2, Hb3, Hb4, Hb5, Hb6, HS0⟩, Hg⟩
  isplitl [Hb1 Hb2 Hb3 Hb4 Hb5 Hb6 HS0]
  · isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end

end Cert.Kernel.Hand

end
-- ==== Proof.WAssemble.lean ====
/-
  The whole program's run.  @main is four segments: a host stretch (the weight matrix transposed and rounded), the
  first kernel region (the linear layer, written row-block by row-block), a second host stretch (the start flags from
  the mask), the second kernel region (the carried row).  The buffer contents at the five segment boundaries are a
  fold from the launch memory: a host stretch applies its operations; a region replaces its windows' arrays by what
  its write-backs leave and keeps every other buffer.  Each region is entered from "every unscoped buffer at the
  boundary's contents, the generator register at some state, nothing owed" and left in the same form at the next
  boundary, so the segments chain, and the last boundary read against the final memory gives every unscoped buffer's
  final contents — among them the four arguments, which no segment writes, and the result array.
-/
import proofs.«134082_j74328704025133_1_alg».proof.Proof.WMmBody
import proofs.«134082_j74328704025133_1_alg».proof.Proof.WScanFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W1`, left at `W2`. Its arrays are split
    out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split
    out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME at any instance: every execution terminates without a fault and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The result array's final contents: what the second region's write-backs leave in its output window's array. -/
theorem final_v8 (c : Dev nD) : W4 m ρ c (Proc.devRef .tc main_v8) = (dat1 (V3 m ρ) c).arrAt 2 cfg1.N :=
  W4_arr m ρ c 2

end Cert.Kernel.Hand

end
-- ==== Proof.ScanDefs.lean ====
/-
  The carried-row kernel (the second region): what its control depends on, and the memrefs it is run on.

  The body branches once, on "this is the grid's first point": there it clears the carried row before reading it.
  Everything after that branch is the same straight line at every point — 64 steps, each reading one row of the
  start flags and one row block of the linear layer's output, updating the carried row and storing it into the
  output block — and a final store of the carried row back into the scratch.
-/
import proofs.«134082_j74328704025133_1_alg».proof.Proof.Gen.KernelIdeal.Launch
import proofs.«134082_j74328704025133_1_alg».proof.Proof.Gen.KernelIdeal.Skeleton
import proofs.«134082_j74328704025133_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinate: "the coordinate is zero". -/
abbrev cond1_0 (i : grid1.Coords) : Prop :=
  (Scalar.cmpi .ne (Scalar.extui (Scalar.cmpi .eq (BitVec.ofNat 32 (i 0).val) 0#32)) 0#32) = 1#1

/-- It holds at the first point of the grid and at no other (decided over the 64 points). -/
theorem hcond1_0 : ∀ t : Fin cfg1.N, cond1_0 (grid1.coords t) ↔ t.val = 0 :=
  (by decide +kernel : ∀ t : Fin grid1.N, cond1_0 (grid1.coords t) ↔ t.val = 0)

/-- Each window's current staging memref at point `t`, as the pipeline passes it to the body, and its wholeness. -/
abbrev ms1_0 (t : Fin cfg1.N) : Memref sig .tc .vmem S64x32x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x64x512 .f32 := win1_2.stage (cfg1.slots t 2)
abbrev hs1_2 (t : Fin cfg1.N) : (ms1_2 t).IsWhole := hstage1_2 ((cfg1.slots t 2).cast nbuf1_2)
/-- The scratch operand: the carried row's buffer, whole. -/
abbrev scM1_0 : Memref sig .tc .vmem S32x512 .f32 := Memref.whole cc1_scratch0
/-- The carried row's buffer as a view: what it holds is stated through it. -/
abbrev VS1_0 : View sig .tc .vmem S32x512 .f32 := scM1_0.view
/-- One staging buffer of the output window, through which its contents are stated. -/
abbrev VO1_2 : View sig .tc .vmem S32x64x512 .f32 := (Memref.whole cc1_stg2_0 : Memref sig .tc .vmem S32x64x512 .f32).view

end Cert.KernelIdeal.Hand

end
-- ==== Proof.ScanRunB.lean ====
/-
  The carried-row kernel run symbolically at a point that is not the grid's first: the branch that clears the
  carried row is not taken, so the row the point before left is what the 64 steps start from.
-/
import proofs.«134082_j74328704025133_1_alg».proof.Proof.ScanDefs

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in the output block's buffer and in the carried row's buffer, as pieces (last first), at a point that is not the grid's first (the clearing branch not taken), WITH the proof that on whole
    memrefs — the two inputs' at their contents, the output's at anything, the carried row's at the contents the point before left — the body runs to the continuation
    holding the inputs' as they were and the two written buffers with their pieces written.  The pieces are what the symbolic run finds. -/
noncomputable def kernelRun1_B (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : ¬cond1_0 i)
    (x0 : Vec F S64x32x512 .bf16) (x1 : Vec F S64x32 .f32) (xs0 : Vec F S32x512 .f32) :
    Σ' (L2 : List (View.Piece (Elt F) S32x64x512 .f32)), { LS0 : List (View.Piece (Elt F) S32x512 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__scan_kernel i arg1 harg1 arg2 harg2 arg3 harg3 arg4 harg4) K } := by
  refine ⟨?_, ?_, fun E K => ?run⟩
  case run =>
    simp only [cc1__scan_kernel_eq_skeleton]; unfold cc1__scan_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.ScanRunA.lean ====
/-
  The carried-row kernel run symbolically at the grid's first point: the branch that clears the carried row is
  taken, so whatever the scratch held is overwritten with zeros before the 64 steps read it.
-/
import proofs.«134082_j74328704025133_1_alg».proof.Proof.ScanRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in the output block's buffer and in the carried row's buffer, as pieces (last first), at the first point of the grid (the clearing branch taken), WITH the proof that on whole
    memrefs — the two inputs' at their contents, the output's at anything, the carried row's at anything — the body runs to the continuation
    holding the inputs' as they were and the two written buffers with their pieces written.  The pieces are what the symbolic run finds. -/
noncomputable def kernelRun1_A (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : cond1_0 i)
    (x0 : Vec F S64x32x512 .bf16) (x1 : Vec F S64x32 .f32) :
    Σ' (L2 : List (View.Piece (Elt F) S32x64x512 .f32)), { LS0 : List (View.Piece (Elt F) S32x512 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__scan_kernel i arg1 harg1 arg2 harg2 arg3 harg3 arg4 harg4) K } := by
  refine ⟨?_, ?_, fun E K => ?run⟩
  case run =>
    simp only [cc1__scan_kernel_eq_skeleton]; unfold cc1__scan_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.ScanFrame.lean ====
/-
  The second region's proof data.  At every grid point the body is handed its two input blocks (64 rows of the
  linear layer's output, 64 rows of start flags), the output block at anything and the carried row; it leaves the
  output block written by its 64 stores and the carried row at its last value.  What the point leaves is therefore
  a function of the point's input blocks and of what the point BEFORE left in the carried row — a recursion on the
  point, started at the first point, where the body clears the row itself.  The region's invariant between points
  is: the carried row's buffer at exactly that value (before the first point: at anything), every other scoped
  buffer at anything, the generator register at some state.
-/
import proofs.«134082_j74328704025133_1_alg».proof.Proof.ScanRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## What each case leaves: its pieces cover the buffers -/

/-- At the first point the output block's 64 stored slabs tile it. -/
theorem cover1_A_2 (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : cond1_0 i)
    (x0 : Vec F S64x32x512 .bf16) (x1 : Vec F S64x32 .f32) (y : S32x64x512.Idx) :
    ∃ pc ∈ (kernelRun1_A c i arg1 harg1 arg2 harg2 arg3 harg3 arg4 harg4 hc0 x0 x1).1, y ∈ pc.1.set :=
  View.cover_of_tiledL (kernelRun1_A c i arg1 harg1 arg2 harg2 arg3 harg3 arg4 harg4 hc0 x0 x1).1 S32x1x512.size (by sl_kernel_rfl) y
/-- What the first point leaves in the output block's buffer: its pieces read back. -/
def out1_A_2 (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : cond1_0 i)
    (x0 : Vec F S64x32x512 .bf16) (x1 : Vec F S64x32 .f32) : Vec F S32x64x512 .f32 :=
  VO1_2.read (Elt F) (VO1_2.writes (Elt F) VO1_2.junk (kernelRun1_A c i arg1 harg1 arg2 harg2 arg3 harg3 arg4 harg4 hc0 x0 x1).1)
/-- At the first point the carried row's stores cover its buffer. -/
theorem scover1_A_0 (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : cond1_0 i)
    (x0 : Vec F S64x32x512 .bf16) (x1 : Vec F S64x32 .f32) (y : S32x512.Idx) :
    ∃ pc ∈ (kernelRun1_A c i arg1 harg1 arg2 harg2 arg3 harg3 arg4 harg4 hc0 x0 x1).2.1, y ∈ pc.1.set :=
  View.cover_of_tiledL (kernelRun1_A c i arg1 harg1 arg2 harg2 arg3 harg3 arg4 harg4 hc0 x0 x1).2.1 S32x512.size (by sl_kernel_rfl) y
/-- What the first point leaves in the carried row's buffer. -/
def sout1_A_0 (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : cond1_0 i)
    (x0 : Vec F S64x32x512 .bf16) (x1 : Vec F S64x32 .f32) : Vec F S32x512 .f32 :=
  VS1_0.read (Elt F) (VS1_0.writes (Elt F) VS1_0.junk (kernelRun1_A c i arg1 harg1 arg2 harg2 arg3 harg3 arg4 harg4 hc0 x0 x1).2.1)

/-- At a later point the output block's 64 stored slabs tile it. -/
theorem cover1_B_2 (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : ¬cond1_0 i)
    (x0 : Vec F S64x32x512 .bf16) (x1 : Vec F S64x32 .f32) (xs0 : Vec F S32x512 .f32) (y : S32x64x512.Idx) :
    ∃ pc ∈ (kernelRun1_B c i arg1 harg1 arg2 harg2 arg3 harg3 arg4 harg4 hc0 x0 x1 xs0).1, y ∈ pc.1.set :=
  View.cover_of_tiledL (kernelRun1_B c i arg1 harg1 arg2 harg2 arg3 harg3 arg4 harg4 hc0 x0 x1 xs0).1 S32x1x512.size (by sl_kernel_rfl) y
/-- What a later point leaves in the output block's buffer, given what the point before left in the carried row. -/
def out1_B_2 (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : ¬cond1_0 i)
    (x0 : Vec F S64x32x512 .bf16) (x1 : Vec F S64x32 .f32) (xs0 : Vec F S32x512 .f32) : Vec F S32x64x512 .f32 :=
  VO1_2.read (Elt F) (VO1_2.writes (Elt F) VO1_2.junk (kernelRun1_B c i arg1 harg1 arg2 harg2 arg3 harg3 arg4 harg4 hc0 x0 x1 xs0).1)
/-- At a later point the carried row's store covers its buffer. -/
theorem scover1_B_0 (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : ¬cond1_0 i)
    (x0 : Vec F S64x32x512 .bf16) (x1 : Vec F S64x32 .f32) (xs0 : Vec F S32x512 .f32) (y : S32x512.Idx) :
    ∃ pc ∈ (kernelRun1_B c i arg1 harg1 arg2 harg2 arg3 harg3 arg4 harg4 hc0 x0 x1 xs0).2.1, y ∈ pc.1.set :=
  View.cover_of_tiledL (kernelRun1_B c i arg1 harg1 arg2 harg2 arg3 harg3 arg4 harg4 hc0 x0 x1 xs0).2.1 S32x512.size (by sl_kernel_rfl) y
/-- What a later point leaves in the carried row's buffer. -/
def sout1_B_0 (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : ¬cond1_0 i)
    (x0 : Vec F S64x32x512 .bf16) (x1 : Vec F S64x32 .f32) (xs0 : Vec F S32x512 .f32) : Vec F S32x512 .f32 :=
  VS1_0.read (Elt F) (VS1_0.writes (Elt F) VS1_0.junk (kernelRun1_B c i arg1 harg1 arg2 harg2 arg3 harg3 arg4 harg4 hc0 x0 x1 xs0).2.1)

section
variable (V : (c : Dev nD) → (b : Ref sig .tc) → Buf (Elt F) ((c : Thread nD τ).loc b))

/-! ## Point by point -/

/-- What the output block's buffer and the carried row's buffer hold after the body at position `n`: at the first
    point what the clearing case leaves, afterwards what the other case leaves over the carried row of the point before. -/
def outsAt1 (c : Dev nD) : (n : ℕ) → n < cfg1.N → Vec F S32x64x512 .f32 × Vec F S32x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr rfl) (iblk1 V c 0 ⟨0, hn⟩) (iblk1 V c 1 ⟨0, hn⟩),
              sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr rfl) (iblk1 V c 0 ⟨0, hn⟩) (iblk1 V c 1 ⟨0, hn⟩))
  | n + 1, hn => (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) (iblk1 V c 0 ⟨n + 1, hn⟩) (iblk1 V c 1 ⟨n + 1, hn⟩) (outsAt1 c n (Nat.lt_of_succ_lt hn)).2,
              sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) (iblk1 V c 0 ⟨n + 1, hn⟩) (iblk1 V c 1 ⟨n + 1, hn⟩) (outsAt1 c n (Nat.lt_of_succ_lt hn)).2)

/-- `outsAt1` at the first point. -/
theorem outsAt1_A (c : Dev nD) (t : Fin cfg1.N) (h0 : t.val = 0) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (iblk1 V c 0 t) (iblk1 V c 1 t),
      sout1_A_0 c (grid1.coords t) (ms1_0 t) (hs1_0 t) (ms1_1 t) (hs1_1 t) (ms1_2 t) (hs1_2 t) scM1_0 (Memref.isWhole_whole _) ((hcond1_0 t).mpr h0) (iblk1 V c 0 t) (iblk1 V c 1 t)) := by
  obtain ⟨n, hn⟩ := t
  cases n with
  | zero => exact rfl
  | succ n => exact absurd h0 (Nat.succ_ne_zero n)

/-- `outsAt1` at a later point: over what the point before left. -/
theorem outsAt1_B (c : Dev nD) (t : Fin cfg1.N) (h0 : ¬t.val = 0) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (iblk1 V c 0 t) (iblk1 V c 1 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) scM1_0 (Memref.isWhole_whole _) (fun h => h0 ((hcond1_0 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact rfl

/-! ## The invariant between points -/

/-- The class's invariant with the scoped buffers spelt out: the other region's six staging buffers and the carried
    row's buffer, each at anything, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- The region invariant before position `n`: before the first point the class's; afterwards the same with the carried
    row's buffer at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The proof data of the second pipeline on core `c`: the arrays as the region finds them; after the body at point
    `t` each input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- No window of this pipeline is ever idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the first point is the clearing case, every other
    the carrying case; the invariant hands the body the carried row's buffer (at anything at the first point, at what
    the point before left otherwise) and takes it back at this point's value; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases hz : t.val = 0
  · rw [outsAt1_A V c t hz]
    unfold out1_A_2 sout1_A_0; (try dsimp only)
    rw [PhiS1_castSucc V c t, PhiS1_zero V c _ _ hz, PhiA1_eq]
    iintro ⟨⟨⟨Hb1, Hb2, Hb3, Hb4, Hb5, Hb6, HS0⟩, Hg⟩, Ho, ⟨%d0, H0⟩, ⟨%d1, H1⟩, ⟨%d2, H2⟩⟩
    iapply ((kernelRun1_A c (grid1.coords t) _ _ _ _ _ _ _ _ ((hcond1_0 t).mpr hz) (iblk1 V c 0 t) (iblk1 V c 1 t)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [Hb1 Hb2 Hb3 Hb4 Hb5 Hb6 HS0 Hg]
    · isplitl [Hb1 Hb2 Hb3 Hb4 Hb5 Hb6 HS0]
      · isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        unfold owns; iexists _; isplitr
        swap; · iexact HS0
        ipureintro; exact View.read_writes_of_cover _ _ _ _ _ (scover1_A_0 c _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _ _ _)
  · rw [outsAt1_B V c t hz]
    unfold out1_B_2 sout1_B_0; (try dsimp only)
    rw [PhiS1_castSucc V c t, PhiS1_pos V c _ _ hz]
    iintro ⟨⟨⟨Hb1, Hb2, Hb3, Hb4, Hb5, Hb6, HS0⟩, Hg⟩, Ho, ⟨%d0, H0⟩, ⟨%d1, H1⟩, ⟨%d2, H2⟩⟩
    iapply ((kernelRun1_B c (grid1.coords t) _ _ _ _ _ _ _ _ (fun h => hz ((hcond1_0 t).mp h)) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [Hb1 Hb2 Hb3 Hb4 Hb5 Hb6 HS0 Hg]
    · isplitl [Hb1 Hb2 Hb3 Hb4 Hb5 Hb6 HS0]
      · isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        unfold owns; iexists _; isplitr
        swap; · iexact HS0
        ipureintro; exact View.read_writes_of_cover _ _ _ _ _ (scover1_B_0 c _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried row's value is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hb1, Hb2, Hb3, Hb4, Hb5, Hb6, HS0⟩, Hg⟩
  isplitl [Hb1 Hb2 Hb3 Hb4 Hb5 Hb6 HS0]
  · isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end

end Cert.KernelIdeal.Hand

end
-- ==== Proof.ScanPieces.lean ====
/-
  What the carried-row kernel's stores are, as a recursion.  One step takes the carried row, a row of start flags
  and a row block of the linear layer's output to the next carried row; the body at a grid point applies it 64
  times, to rows 0 … 63 of the point's two input blocks, storing the carried row after step `t` into slab `t` of
  the output block and the last one back into the scratch.  The pieces the symbolic run found are exactly these.
-/
import proofs.«134082_j74328704025133_1_alg».proof.Proof.ScanFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rows a step reads and the slab it writes -/

theorem inbC (t : Fin 64) : ∀ a, (![t.val, 0] : Fin 2 → Nat) a + S1x32.size a ≤ S64x32.size a := fun a =>
  match a with
  | ⟨0, _⟩ => by show t.val + 1 ≤ 64; omega
  | ⟨1, _⟩ => by show 0 + 32 ≤ 32; omega
theorem inbY (t : Fin 64) : ∀ a, (![t.val, 0, 0] : Fin 3 → Nat) a + S1x32x512.size a ≤ S64x32x512.size a := fun a =>
  match a with
  | ⟨0, _⟩ => by show t.val + 1 ≤ 64; omega
  | ⟨1, _⟩ => by show 0 + 32 ≤ 32; omega
  | ⟨2, _⟩ => by show 0 + 512 ≤ 512; omega
theorem inbO (t : Fin 64) : ∀ a, (![0, t.val, 0] : Fin 3 → Nat) a + S32x1x512.size a ≤ S32x64x512.size a := fun a =>
  match a with
  | ⟨0, _⟩ => by show 0 + 32 ≤ 32; omega
  | ⟨1, _⟩ => by show t.val + 1 ≤ 64; omega
  | ⟨2, _⟩ => by show 0 + 512 ≤ 512; omega

/-- Row `t` of the start flags' block, row block `t` of the linear layer's block, slab `t` of the output block. -/
abbrev rC (t : Fin 64) : Rect S64x32 := Rect.unit (s := S64x32) ![t.val, 0] S1x32.size (inbC t)
abbrev rY (t : Fin 64) : Rect S64x32x512 := Rect.unit (s := S64x32x512) ![t.val, 0, 0] S1x32x512.size (inbY t)
abbrev rO (t : Fin 64) : Rect S32x64x512 := Rect.unit (s := S32x64x512) ![0, t.val, 0] S32x1x512.size (inbO t)
/-- The carried row's whole buffer. -/
abbrev rS : Rect S32x512 := Rect.unit (s := S32x512) ![0, 0] S32x512.size inb_S32x512_S32x512_0_0

/-- The carried row after step `t` of a point, from the point's two blocks and the row the point starts from. -/
def curV (x0 : Vec F S64x32x512 .bf16) (x1 : Vec F S64x32 .f32) (init : FVec F S32x512 .f32) : (t : ℕ) → t < 64 → FVec F S32x512 .f32
  | 0, h => k1_pay2 init (View.ld x1 (rC ⟨0, h⟩)) (View.ld x0 (rY ⟨0, h⟩))
  | t + 1, h => k1_pay2 (curV x0 x1 init t (Nat.lt_of_succ_lt h)) (View.ld x1 (rC ⟨t + 1, h⟩)) (View.ld x0 (rY ⟨t + 1, h⟩))

/-- Slab `t`'s piece: the carried row after step `t`, as a [32,1,512] slab at row `t`. -/
def slab (x0 : Vec F S64x32x512 .bf16) (x1 : Vec F S64x32 .f32) (init : FVec F S32x512 .f32) (t : Fin 64) : View.Piece (Elt F) S32x64x512 .f32 :=
  ⟨rO t, shapeCast S32x1x512 (curV x0 x1 init t.val t.isLt) shapeCasts_S32x512_S32x1x512⟩

/-- The 64 slabs, last first. -/
def slabs (x0 : Vec F S64x32x512 .bf16) (x1 : Vec F S64x32 .f32) (init : FVec F S32x512 .f32) : List (View.Piece (Elt F) S32x64x512 .f32) :=
  List.ofFn fun t : Fin 64 => slab x0 x1 init ⟨63 - t.val, by omega⟩

/-- The carried row's last value, as the piece stored back into the scratch. -/
def lastRow (x0 : Vec F S64x32x512 .bf16) (x1 : Vec F S64x32 .f32) (init : FVec F S32x512 .f32) : View.Piece (Elt F) S32x512 .f32 :=
  ⟨rS, shapeCast S32x512 (curV x0 x1 init 63 (by omega)) shapeCasts_S32x512_S32x512⟩

/-! ## The pieces the run found are these -/

set_option maxRecDepth 65536 in
set_option maxHeartbeats 4000000 in
/-- At a point that is not the first: the output block's pieces are the 64 slabs over the point's blocks (as the
    memrefs' contents read) and the row handed in. -/
theorem piecesB_out (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : ¬cond1_0 i)
    (x0 : Vec F S64x32x512 .bf16) (x1 : Vec F S64x32 .f32) (xs0 : Vec F S32x512 .f32) :
    (kernelRun1_B c i arg1 harg1 arg2 harg2 arg3 harg3 arg4 harg4 hc0 x0 x1 xs0).1
      = slabs (arg1.view.read (Elt F) (harg1.unread x0)) (arg2.view.read (Elt F) (harg2.unread x1))
          (View.ld (arg4.view.read (Elt F) (harg4.unread xs0)) rS) := rfl

set_option maxRecDepth 65536 in
set_option maxHeartbeats 4000000 in
/-- At a point that is not the first: the carried row's buffer gets one piece, the row after the last step. -/
theorem piecesB_scr (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : ¬cond1_0 i)
    (x0 : Vec F S64x32x512 .bf16) (x1 : Vec F S64x32 .f32) (xs0 : Vec F S32x512 .f32) :
    (kernelRun1_B c i arg1 harg1 arg2 harg2 arg3 harg3 arg4 harg4 hc0 x0 x1 xs0).2.1
      = [lastRow (arg1.view.read (Elt F) (harg1.unread x0)) (arg2.view.read (Elt F) (harg2.unread x1))
          (View.ld (arg4.view.read (Elt F) (harg4.unread xs0)) rS)] := rfl

/-- At the first point the row the steps start from is what a load of the carried row's buffer reads after the
    clearing store: the cleared row. -/
theorem clearedRow_eq (c : Dev nD) (arg4 : Memref sig .tc .vmem S32x512 .f32) :
    kernelRun1_A.sl.v3 (F := F) c arg4 = k1_pay1 (F := F) := by
  unfold kernelRun1_A.sl.v3 kernelRun1_A.sl.HS0_1
  exact View.readCov_unit_zero arg4.view (by funext a; match a with | ⟨0, _⟩ => rfl | ⟨1, _⟩ => rfl) _ _

set_option maxRecDepth 65536 in
set_option maxHeartbeats 4000000 in
/-- At the first point: the 64 slabs over the point's blocks, started from the row read after the clearing store. -/
theorem piecesA_out (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : cond1_0 i)
    (x0 : Vec F S64x32x512 .bf16) (x1 : Vec F S64x32 .f32) :
    (kernelRun1_A c i arg1 harg1 arg2 harg2 arg3 harg3 arg4 harg4 hc0 x0 x1).1
      = slabs (arg1.view.read (Elt F) (harg1.unread x0)) (arg2.view.read (Elt F) (harg2.unread x1)) (kernelRun1_A.sl.v3 (F := F) c arg4) := rfl

set_option maxRecDepth 65536 in
set_option maxHeartbeats 4000000 in
/-- At the first point: the carried row's buffer gets the cleared row, then the row after the last step. -/
theorem piecesA_scr (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : cond1_0 i)
    (x0 : Vec F S64x32x512 .bf16) (x1 : Vec F S64x32 .f32) :
    (kernelRun1_A c i arg1 harg1 arg2 harg2 arg3 harg3 arg4 harg4 hc0 x0 x1).2.1
      = [lastRow (arg1.view.read (Elt F) (harg1.unread x0)) (arg2.view.read (Elt F) (harg2.unread x1)) (kernelRun1_A.sl.v3 (F := F) c arg4),
         ⟨rS, k1_pay1 (F := F)⟩] := rfl

end Cert.KernelIdeal.Hand

end
-- ==== Proof.ScanStep.lean ====
/-
  One step of the carried row of the scan, read at an index, at the ideal instance.

  The scan's body carries a [32, 512] row block  cur  and, for each of its 64 positions, replaces it by
      cur' = c * y + (1 - c) * cur
  where  c  is the column of the 32 rows' start flags (given as a [1, 32] row, laid out as a [32, 1] column and
  repeated along the 512 lanes) and  y  is the position's [1, 32, 512] block of the linear layer's result, viewed as
  [32, 512].  Read at (b, g) the step is the scalar blend
      cur'(b, g) = c(b) * y(b, g) + (1 - c(b)) * cur(b, g).
  This module proves that, with the clearing value (zero everywhere) and the two re-layouts through which a row block is
  stored: [32, 512] viewed as [32, 1, 512], and [32, 512] viewed as itself.

  The layout operations are read at indices written by coordinates: a vector laid out as a column, a matrix given a
  middle unit axis, and a column repeated along the lanes, each the operand at the evident index.
-/
import proofs.«134082_j74328704025133_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandValue

open Cert.KernelIdeal Cert.KernelIdeal.Gen Idealize.ShloMosaic Idealize.ShloMosaic.ValueIdx

/-! ## Three layout operations at an index given by coordinates -/

section Layout
variable {α : Type}

/-- An `[a]` vector laid out as a column `[a, 1]` reads, at `(i, u)`, the vector at `i`: both have row-major
position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` matrix given a middle unit axis, `[a, 1, b]`, reads, at `(i, u, j)`, the matrix at `(i, j)`: both
have row-major position `i * b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` repeated along `b` lanes reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## The two float words of the step -/

/-- The word `0x3F800000` is the real number one. -/
theorem ofBits_one_f32 : Ideal.ofBits .f32 0x3F800000#32 = 1 := by
  simp [Ideal.ofBits, Ideal.ieee, -EReal.coe_mul]; norm_num

/-! ## The flags' column and the block's matrix -/

/-- The flags' `[1, 32]` row, flattened and laid out as a `[32, 1]` column, reads at `(b, u)` the row's entry `b`. -/
theorem flagColumn_apply {α : Type} (v4 : S1x32.Idx → α) (b : Fin 32) (u : Fin 1) :
    shapeCast S32x1 (shapeCast S32 v4 shapeCasts_S1x32_S32) shapeCasts_S32_S32x1 (ix2 b u)
      = v4 (ix2 (0 : Fin 1) b) :=
  (shapeCast_a_a1_apply _ shapeCasts_S32_S32x1 b u).trans (shapeCast_1a_a_apply v4 shapeCasts_S1x32_S32 b)

/-! ## The step, the clearing value, and the stored forms -/

/-- ONE STEP OF THE CARRIED ROW at `(b, g)`: the blend `c(b) * y(b, g) + (1 - c(b)) * cur(b, g)`. -/
theorem pay2_apply (v3 : FVec Ideal S32x512 .f32) (v4 : Vec Ideal S1x32 .f32) (v7 : Vec Ideal S1x32x512 .bf16)
    (b : Fin 32) (g : Fin 512) :
    k1_pay2 (F := Ideal) v3 v4 v7 (ix2 b g)
      = v4 (ix2 (0 : Fin 1) b) * v7 (ix3 (0 : Fin 1) b g) + (1 - v4 (ix2 (0 : Fin 1) b)) * v3 (ix2 b g) := by
  unfold k1_pay2
  rw [addf_apply, mulf_apply, mulf_apply]
  rw [broadcastTo_a1_ab_apply _ broadcasts_S32x1_S32x512 b g,
    broadcastTo_a1_ab_apply _ broadcasts_S32x1_S32x512 b g]
  rw [subf_apply, broadcast_apply, flagColumn_apply v4 b 0, extf_apply,
    shapeCast_1ab_ab_apply v7 shapeCasts_S1x32x512_S32x512 b g]
  show v4 (ix2 (0 : Fin 1) b) * v7 (ix3 (0 : Fin 1) b g)
      + (Ideal.ofBits .f32 0x3F800000#32 - v4 (ix2 (0 : Fin 1) b)) * v3 (ix2 b g) = _
  rw [ofBits_one_f32]

/-- THE CLEARING VALUE is zero at every index. -/
theorem pay1_apply (b : Fin 32) (g : Fin 512) : k1_pay1 (F := Ideal) (ix2 b g) = 0 := by
  unfold k1_pay1
  rw [shapeCast_self]
  show Ideal.ofBits .f32 0x00000000#32 = 0
  exact Ideal.ofBits_zero_f32

/-- A `[32, 512]` row block stored as `[32, 1, 512]` reads, at `(b, u, g)`, the block at `(b, g)`. -/
theorem cast_32x512_32x1x512_apply (v : FVec Ideal S32x512 .f32) (b : Fin 32) (u : Fin 1) (g : Fin 512) :
    shapeCast S32x1x512 v shapeCasts_S32x512_S32x1x512 (ix3 b u g) = v (ix2 b g) :=
  shapeCast_ab_a1b_apply v shapeCasts_S32x512_S32x1x512 b u g

/-- THE STEP AS STORED, `[32, 1, 512]`, at `(b, u, g)`: the same blend. -/
theorem pay3_apply (v3 : FVec Ideal S32x512 .f32) (v4 : Vec Ideal S1x32 .f32) (v7 : Vec Ideal S1x32x512 .bf16)
    (b : Fin 32) (u : Fin 1) (g : Fin 512) :
    k1_pay3 (F := Ideal) v3 v4 v7 (ix3 b u g)
      = v4 (ix2 (0 : Fin 1) b) * v7 (ix3 (0 : Fin 1) b g) + (1 - v4 (ix2 (0 : Fin 1) b)) * v3 (ix2 b g) := by
  unfold k1_pay3
  exact (cast_32x512_32x1x512_apply _ b u g).trans (pay2_apply v3 v4 v7 b g)

/-- TWO STEPS ARE THE STEP TWICE: the second position's value is the step applied to the first position's value, the
carried row being whatever the first step left. -/
theorem pay4_eq_step_step (v3 : FVec Ideal S32x512 .f32) (v4 : Vec Ideal S1x32 .f32) (v7 : Vec Ideal S1x32x512 .bf16)
    (v20 : Vec Ideal S1x32 .f32) (v23 : Vec Ideal S1x32x512 .bf16) :
    k1_pay4 (F := Ideal) v3 v4 v7 v20 v23 = k1_pay2 (F := Ideal) (k1_pay2 (F := Ideal) v3 v4 v7) v20 v23 := rfl

/-- A `[32, 512]` row block viewed as `[32, 512]` is itself. -/
theorem cast_32x512_self_apply (v : FVec Ideal S32x512 .f32) (j : S32x512.Idx) :
    shapeCast S32x512 v shapeCasts_S32x512_S32x512 j = v j :=
  congrFun (shapeCast_self v shapeCasts_S32x512_S32x512) j

end Cert.KernelIdeal.HandValue

end
-- ==== Proof.FillSpec.lean ====
/-
  The mathematics both programs compute, stated once over literal shapes and imported by both sides.

  For a batch row `b`, a position `s` and a goal coordinate `g` the linear layer is
      lin b s g = (∑ d, x[b, s, d] · W[g, d]) + bias[g]
  on the extended reals.  Position `t` of row `b` STARTS a segment when it is the first position or when the
  mask is set at the position before it.  `segStart b t` is the last start at or before `t` (position 0 always
  starts one, so it exists), and the result at `(b, t, g)` is the linear layer's row at that start:
      G[b, t, g] = lin b (segStart b t) g.
  One side reaches this by carrying the row forward position by position (keep it unless a start is met), the
  other by a running maximum of the start positions followed by a gather; both are this function.
-/
import Idealize.ShloMosaic.PureOps.Ideal
import Idealize.ShloMosaic.Lib.ValueIdx

noncomputable section

open scoped BigOperators

namespace Cert.FillSpec

open Idealize.ShloMosaic Idealize.ShloMosaic.ValueIdx

/-- The shapes of the four arguments and of the result. -/
abbrev SX : Shape := ⟨3, ![32, 4096, 1024]⟩
abbrev SM : Shape := ⟨2, ![32, 4096]⟩
abbrev SW : Shape := ⟨2, ![512, 1024]⟩
abbrev SB : Shape := ⟨1, ![512]⟩
abbrev SO : Shape := ⟨3, ![32, 4096, 512]⟩

/-- The linear layer at batch row `b`, position `s`, goal coordinate `g`: the row of `x` against the row of
    `W`, plus the bias. -/
def lin (x : SX.Idx → EReal) (W : SW.Idx → EReal) (bias : SB.Idx → EReal) (b : Fin 32) (s : Fin 4096) (g : Fin 512) : EReal :=
  (∑ d : Fin 1024, x (ix3 b s d) * W (ix2 g d)) + bias (ix1 g)

/-- Position `t` of row `b` starts a segment: it is the first position, or the mask is set just before it. -/
def starts (mask : SM.Idx → BitVec 1) (b : Fin 32) (t : ℕ) : Prop :=
  t = 0 ∨ ∃ h : t - 1 < 4096, mask (ix2 b ⟨t - 1, h⟩) = 1#1

instance (mask : SM.Idx → BitVec 1) (b : Fin 32) (t : ℕ) : Decidable (starts mask b t) := by
  unfold starts; infer_instance

theorem starts_zero (mask : SM.Idx → BitVec 1) (b : Fin 32) : starts mask b 0 := Or.inl rfl

/-- At a later position, starting a segment is the mask bit of the position before. -/
theorem starts_succ (mask : SM.Idx → BitVec 1) (b : Fin 32) (t : ℕ) (h : t < 4096) :
    starts mask b (t + 1) ↔ mask (ix2 b ⟨t, h⟩) = 1#1 := by
  unfold starts
  constructor
  · rintro (h0 | ⟨_, hm⟩)
    · exact absurd h0 (Nat.succ_ne_zero t)
    · exact hm
  · intro hm; exact Or.inr ⟨h, hm⟩

/-- The last segment start at or before position `t` of row `b`. -/
def segStart (mask : SM.Idx → BitVec 1) (b : Fin 32) : ℕ → ℕ
  | 0 => 0
  | t + 1 => if starts mask b (t + 1) then t + 1 else segStart mask b t

@[simp] theorem segStart_zero (mask : SM.Idx → BitVec 1) (b : Fin 32) : segStart mask b 0 = 0 := rfl

theorem segStart_succ (mask : SM.Idx → BitVec 1) (b : Fin 32) (t : ℕ) :
    segStart mask b (t + 1) = if starts mask b (t + 1) then t + 1 else segStart mask b t := rfl

theorem segStart_le (mask : SM.Idx → BitVec 1) (b : Fin 32) (t : ℕ) : segStart mask b t ≤ t := by
  induction t with
  | zero => exact le_rfl
  | succ t ih =>
    rw [segStart_succ]; split
    · exact le_rfl
    · exact Nat.le_succ_of_le ih

/-- The segment start is itself a start. -/
theorem starts_segStart (mask : SM.Idx → BitVec 1) (b : Fin 32) (t : ℕ) : starts mask b (segStart mask b t) := by
  induction t with
  | zero => exact starts_zero mask b
  | succ t ih =>
    rw [segStart_succ]; split
    · assumption
    · exact ih

/-- No position strictly between the segment start and `t` (inclusive of `t`) starts a segment. -/
theorem not_starts_of_between (mask : SM.Idx → BitVec 1) (b : Fin 32) (t u : ℕ) (h1 : segStart mask b t < u) (h2 : u ≤ t) :
    ¬ starts mask b u := by
  induction t with
  | zero => omega
  | succ t ih =>
    rw [segStart_succ] at h1
    split at h1
    · omega
    · rename_i hns
      rcases Nat.lt_or_ge u (t + 1) with hlt | hge
      · exact ih h1 (by omega)
      · have : u = t + 1 := by omega
        subst this; exact hns

/-- The segment start as a position of the array. -/
def segStartFin (mask : SM.Idx → BitVec 1) (b : Fin 32) (t : Fin 4096) : Fin 4096 :=
  ⟨segStart mask b t.val, lt_of_le_of_lt (segStart_le mask b t.val) t.isLt⟩

/-- The result at batch row `b`, position `t`, goal coordinate `g`. -/
def Gat (x : SX.Idx → EReal) (mask : SM.Idx → BitVec 1) (W : SW.Idx → EReal) (bias : SB.Idx → EReal)
    (b : Fin 32) (t : Fin 4096) (g : Fin 512) : EReal :=
  lin x W bias b (segStartFin mask b t) g

/-- The result array. -/
def G (x : SX.Idx → EReal) (mask : SM.Idx → BitVec 1) (W : SW.Idx → EReal) (bias : SB.Idx → EReal) : SO.Idx → EReal :=
  fun i => Gat x mask W bias (i 0) (i 1) (i 2)

theorem G_ix3 (x : SX.Idx → EReal) (mask : SM.Idx → BitVec 1) (W : SW.Idx → EReal) (bias : SB.Idx → EReal)
    (b : Fin 32) (t : Fin 4096) (g : Fin 512) : G x mask W bias (ix3 b t g) = Gat x mask W bias b t g := rfl

end Cert.FillSpec

end
-- ==== Proof.FillCarry.lean ====
/-
  The carried recurrence on the extended reals.  One step with flag `c`, new value `y` and carried value `v` is
  `c · y + (1 − c) · v`.  With `c = 1` it is `y + 0 · v = y` — on the extended reals `0 · v = 0` for every `v`, the
  infinities included, so no finiteness is needed — and with `c = 0` it is `0 · y + 1 · v = v`.  Run along a row
  whose flag at position `p` is "a segment starts at `p`", from anything at all before position 0 (which always
  starts a segment), the carried value at `p` is therefore `y` at the last start at or before `p`.
-/
import proofs.«134082_j74328704025133_1_alg».proof.Proof.FillSpec

noncomputable section

namespace Cert.FillSpec

/-- One step of the carried value. -/
def stepE (cnd y cur : EReal) : EReal := cnd * y + (1 - cnd) * cur

theorem stepE_one (y cur : EReal) : stepE 1 y cur = y := by
  unfold stepE
  have h : (1 : EReal) - 1 = 0 := by
    rw [← EReal.coe_one, ← EReal.coe_sub, sub_self, EReal.coe_zero]
  rw [h, one_mul, zero_mul, add_zero]

theorem stepE_zero (y cur : EReal) : stepE 0 y cur = cur := by
  unfold stepE
  rw [zero_mul, sub_zero, one_mul, zero_add]

/-- The carried value after position `p`, from the flags, the new values, and whatever was carried in. -/
def carry (cnd : ℕ → EReal) (y : ℕ → EReal) (v0 : EReal) : ℕ → EReal
  | 0 => stepE (cnd 0) (y 0) v0
  | p + 1 => stepE (cnd (p + 1)) (y (p + 1)) (carry cnd y v0 p)

theorem carry_zero (cnd y : ℕ → EReal) (v0 : EReal) : carry cnd y v0 0 = stepE (cnd 0) (y 0) v0 := rfl
theorem carry_succ (cnd y : ℕ → EReal) (v0 : EReal) (p : ℕ) :
    carry cnd y v0 (p + 1) = stepE (cnd (p + 1)) (y (p + 1)) (carry cnd y v0 p) := rfl

/-- With the flags of a masked row, the carried value at `p` is the new value at the last segment start. -/
theorem carry_eq (mask : SM.Idx → BitVec 1) (b : Fin 32) (cnd y : ℕ → EReal) (v0 : EReal)
    (hc : ∀ p, cnd p = if starts mask b p then 1 else 0) (p : ℕ) :
    carry cnd y v0 p = y (segStart mask b p) := by
  induction p with
  | zero =>
    rw [carry_zero, hc 0, if_pos (starts_zero mask b), stepE_one, segStart_zero]
  | succ p ih =>
    rw [carry_succ, hc (p + 1), segStart_succ]
    by_cases h : starts mask b (p + 1)
    · rw [if_pos h, if_pos h, stepE_one]
    · rw [if_neg h, if_neg h, stepE_zero, ih]

/-- The carried value at `p` depends on the flags and the new values at positions up to `p` only. -/
theorem carry_congr (cnd cnd' y y' : ℕ → EReal) (v0 : EReal) (p : ℕ)
    (h : ∀ k, k ≤ p → cnd k = cnd' k ∧ y k = y' k) : carry cnd y v0 p = carry cnd' y' v0 p := by
  induction p with
  | zero => rw [carry_zero, carry_zero, (h 0 le_rfl).1, (h 0 le_rfl).2]
  | succ p ih =>
    rw [carry_succ, carry_succ, (h (p + 1) le_rfl).1, (h (p + 1) le_rfl).2, ih fun k hk => h k (Nat.le_succ_of_le hk)]

/-- Carrying on from a carried value: positions `q + 1 …` continue the same recurrence. -/
theorem carry_shift (cnd y : ℕ → EReal) (v0 : EReal) (q p : ℕ) :
    carry (fun k => cnd (q + 1 + k)) (fun k => y (q + 1 + k)) (carry cnd y v0 q) p = carry cnd y v0 (q + 1 + p) := by
  induction p with
  | zero => rw [carry_zero, Nat.add_zero, carry_succ]
  | succ p ih => rw [carry_succ, ih, ← Nat.add_assoc, carry_succ]

end Cert.FillSpec

end
-- ==== Proof.ScanValue.lean ====
/-
  The carried-row kernel at one grid point, index by index, on the extended reals.  Within a point the carried row
  after step `t`, at batch row `b` and goal coordinate `g`, is the scalar recurrence  c · y + (1 − c) · v  run over
  rows 0 … t of the point's two blocks from the value the point starts with; slab `t` of the output block holds it
  at every `(b, g)`, and the carried row's buffer ends holding it at `t = 63`.
-/
import proofs.«134082_j74328704025133_1_alg».proof.Proof.ScanPieces
import proofs.«134082_j74328704025133_1_alg».proof.Proof.ScanStep
import proofs.«134082_j74328704025133_1_alg».proof.Proof.FillCarry
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Cert.FillSpec
open Idealize.ShloMosaic Idealize.ShloMosaic.TcCoe Idealize.ShloMosaic.ValueIdx Idealize.SL.Sem

theorem hz2 : (![0, 0] : Fin 2 → Nat) = fun _ => 0 := by
  funext a; match a with | ⟨0, _⟩ => rfl | ⟨1, _⟩ => rfl

/-! ## Reading a row of a block -/

/-- A row number, kept inside the block. -/
def rowOf (k : ℕ) : Fin 64 := ⟨min k 63, by omega⟩
theorem rowOf_of_lt (k : ℕ) (h : k < 64) : rowOf k = ⟨k, h⟩ := Fin.ext (Nat.min_eq_left (by omega))

/-- Row `t` of the start flags' block, read through its rectangle. -/
theorem ldC_apply (x1 : Vec Ideal S64x32 .f32) (t : Fin 64) (b : Fin 32) :
    (View.ld x1 (rC t) : Vec Ideal S1x32 .f32) (ix2 (0 : Fin 1) b) = x1 (ix2 t b) := by
  show x1 ((rC t).emb (ix2 (0 : Fin 1) b)) = x1 (ix2 t b)
  refine congrArg x1 (funext fun a => Fin.ext ?_)
  match a with
  | ⟨0, _⟩ => show t.val + 1 * 0 = t.val; omega
  | ⟨1, _⟩ => show 0 + 1 * b.val = b.val; omega

/-- Row block `t` of the linear layer's block, read through its rectangle. -/
theorem ldY_apply (x0 : Vec Ideal S64x32x512 .bf16) (t : Fin 64) (b : Fin 32) (g : Fin 512) :
    (View.ld x0 (rY t) : Vec Ideal S1x32x512 .bf16) (ix3 (0 : Fin 1) b g) = x0 (ix3 t b g) := by
  show x0 ((rY t).emb (ix3 (0 : Fin 1) b g)) = x0 (ix3 t b g)
  refine congrArg x0 (funext fun a => Fin.ext ?_)
  match a with
  | ⟨0, _⟩ => show t.val + 1 * 0 = t.val; omega
  | ⟨1, _⟩ => show 0 + 1 * b.val = b.val; omega
  | ⟨2, _⟩ => show 0 + 1 * g.val = g.val; omega

/-- Where slab `s` of the output block sits. -/
theorem rO_emb (s : Fin 64) (xb : Fin 32) (xu : Fin 1) (xg : Fin 512) :
    ((rO s).emb (ix3 xb xu xg) : S32x64x512.Idx) = ix3 xb s xg := by
  refine funext fun a => Fin.ext ?_
  match a with
  | ⟨0, _⟩ => show 0 + 1 * xb.val = xb.val; omega
  | ⟨1, _⟩ => show s.val + 1 * xu.val = s.val; have := xu.isLt; omega
  | ⟨2, _⟩ => show 0 + 1 * xg.val = xg.val; omega

/-! ## The carried row within a point -/

/-- The carried value after step `t` at `(b, g)`: the scalar recurrence over the rows of the point's blocks, from `v0`. -/
def rowVal (x0 : Vec Ideal S64x32x512 .bf16) (x1 : Vec Ideal S64x32 .f32) (v0 : EReal) (b : Fin 32) (g : Fin 512) (t : ℕ) : EReal :=
  carry (fun k => x1 (ix2 (rowOf k) b)) (fun k => x0 (ix3 (rowOf k) b g)) v0 t

/-- The carried row after step `t`, at an index. -/
theorem curV_apply (x0 : Vec Ideal S64x32x512 .bf16) (x1 : Vec Ideal S64x32 .f32) (init : FVec Ideal S32x512 .f32)
    (t : ℕ) (h : t < 64) (b : Fin 32) (g : Fin 512) :
    curV (F := Ideal) x0 x1 init t h (ix2 b g) = rowVal x0 x1 (init (ix2 b g)) b g t := by
  induction t with
  | zero =>
    show k1_pay2 (F := Ideal) init (View.ld x1 (rC ⟨0, h⟩)) (View.ld x0 (rY ⟨0, h⟩)) (ix2 b g) = _
    rw [pay2_apply, ldC_apply, ldY_apply]
    unfold rowVal; rw [carry_zero]; unfold stepE; rw [rowOf_of_lt 0 h]
  | succ t ih =>
    show k1_pay2 (F := Ideal) (curV (F := Ideal) x0 x1 init t (Nat.lt_of_succ_lt h)) (View.ld x1 (rC ⟨t + 1, h⟩)) (View.ld x0 (rY ⟨t + 1, h⟩)) (ix2 b g) = _
    rw [pay2_apply, ldC_apply, ldY_apply, ih (Nat.lt_of_succ_lt h)]
    unfold rowVal; rw [carry_succ]; unfold stepE; rw [rowOf_of_lt (t + 1) h]

/-! ## The output block -/

/-- Every slab is the block, at its rectangle, of one function of the block's index. -/
theorem slabs_pieces (x0 : Vec Ideal S64x32x512 .bf16) (x1 : Vec Ideal S64x32 .f32) (init : FVec Ideal S32x512 .f32) :
    ∀ p ∈ slabs (F := Ideal) x0 x1 init, ∀ x : p.1.shape.Idx,
      p.2 x = (fun j : S32x64x512.Idx => rowVal x0 x1 (init (ix2 (j 0) (j 2))) (j 0) (j 2) (j 1).val) (p.1.emb x) := by
  intro p hp x
  unfold slabs at hp
  rw [List.mem_ofFn] at hp
  obtain ⟨t', rfl⟩ := hp
  obtain ⟨xb, xu, xg, rfl⟩ : ∃ (xb : Fin 32) (xu : Fin 1) (xg : Fin 512), x = ix3 xb xu xg := ⟨x 0, x 1, x 2, eq_ix3 x⟩
  show shapeCast S32x1x512 (curV (F := Ideal) x0 x1 init (63 - t'.val) _) shapeCasts_S32x512_S32x1x512 (ix3 xb xu xg) = _
  rw [cast_32x512_32x1x512_apply, curV_apply]
  show _ = (fun j : S32x64x512.Idx => rowVal x0 x1 (init (ix2 (j 0) (j 2))) (j 0) (j 2) (j 1).val) ((rO ⟨63 - t'.val, by omega⟩).emb (ix3 xb xu xg))
  rw [rO_emb]

/-- The 64 slabs read back at a covered index. -/
theorem canon_slabs_apply (x0 : Vec Ideal S64x32x512 .bf16) (x1 : Vec Ideal S64x32 .f32) (init : FVec Ideal S32x512 .f32)
    (y : S32x64x512.Idx) (hy : ∃ p ∈ slabs (F := Ideal) x0 x1 init, y ∈ p.1.set) :
    View.canon (slabs (F := Ideal) x0 x1 init) y = rowVal x0 x1 (init (ix2 (y 0) (y 2))) (y 0) (y 2) (y 1).val :=
  View.canon_apply_of_pieces (fun j : S32x64x512.Idx => rowVal x0 x1 (init (ix2 (j 0) (j 2))) (j 0) (j 2) (j 1).val)
    _ (slabs_pieces x0 x1 init) y hy

/-- At a point that is not the first: the output block at `(b, s, g)` is the carried value after step `s`, started from
    what the point before left. -/
theorem out1_B_2_apply (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : ¬cond1_0 i)
    (x0 : Vec Ideal S64x32x512 .bf16) (x1 : Vec Ideal S64x32 .f32) (xs0 : Vec Ideal S32x512 .f32) (b : Fin 32) (s : Fin 64) (g : Fin 512) :
    out1_B_2 (F := Ideal) c i arg1 harg1 arg2 harg2 arg3 harg3 arg4 harg4 hc0 x0 x1 xs0 (ix3 b s g) = rowVal x0 x1 (xs0 (ix2 b g)) b g s.val := by
  unfold out1_B_2
  rw [View.read_writes_eq_canon _ _ _ (cover1_B_2 c i arg1 harg1 arg2 harg2 arg3 harg3 arg4 harg4 hc0 x0 x1 xs0)]
  have hcov := cover1_B_2 c i arg1 harg1 arg2 harg2 arg3 harg3 arg4 harg4 hc0 x0 x1 xs0 (ix3 b s g)
  rw [piecesB_out] at hcov ⊢
  rw [harg1.read_unread, harg2.read_unread, harg4.read_unread, View.ld_unit_zero hz2] at hcov ⊢
  exact canon_slabs_apply x0 x1 xs0 (ix3 b s g) hcov

/-- … and the carried row's buffer ends at the value after the last step. -/
theorem sout1_B_0_apply (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : ¬cond1_0 i)
    (x0 : Vec Ideal S64x32x512 .bf16) (x1 : Vec Ideal S64x32 .f32) (xs0 : Vec Ideal S32x512 .f32) (b : Fin 32) (g : Fin 512) :
    sout1_B_0 (F := Ideal) c i arg1 harg1 arg2 harg2 arg3 harg3 arg4 harg4 hc0 x0 x1 xs0 (ix2 b g) = rowVal x0 x1 (xs0 (ix2 b g)) b g 63 := by
  unfold sout1_B_0
  rw [View.read_writes_eq_canon _ _ _ (scover1_B_0 c i arg1 harg1 arg2 harg2 arg3 harg3 arg4 harg4 hc0 x0 x1 xs0)]
  rw [piecesB_scr]
  unfold lastRow
  rw [View.canon_unit_zero hz2, cast_32x512_self_apply]
  rw [harg1.read_unread, harg2.read_unread, harg4.read_unread, View.ld_unit_zero hz2]
  exact curV_apply x0 x1 xs0 63 (by omega) b g

/-- At the first point the same, started from the cleared row: from 0. -/
theorem out1_A_2_apply (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : cond1_0 i)
    (x0 : Vec Ideal S64x32x512 .bf16) (x1 : Vec Ideal S64x32 .f32) (b : Fin 32) (s : Fin 64) (g : Fin 512) :
    out1_A_2 (F := Ideal) c i arg1 harg1 arg2 harg2 arg3 harg3 arg4 harg4 hc0 x0 x1 (ix3 b s g) = rowVal x0 x1 0 b g s.val := by
  unfold out1_A_2
  rw [View.read_writes_eq_canon _ _ _ (cover1_A_2 c i arg1 harg1 arg2 harg2 arg3 harg3 arg4 harg4 hc0 x0 x1)]
  have hcov := cover1_A_2 c i arg1 harg1 arg2 harg2 arg3 harg3 arg4 harg4 hc0 x0 x1 (ix3 b s g)
  rw [piecesA_out, clearedRow_eq] at hcov ⊢
  rw [harg1.read_unread, harg2.read_unread] at hcov ⊢
  refine (canon_slabs_apply x0 x1 (k1_pay1 (F := Ideal)) (ix3 b s g) hcov).trans ?_
  show rowVal x0 x1 (k1_pay1 (F := Ideal) (ix2 b g)) b g s.val = _
  rw [pay1_apply]

theorem sout1_A_0_apply (c : Dev nD) (i : grid1.Coords) (arg1 : Memref sig .tc .vmem S64x32x512 .bf16) (harg1 : arg1.IsWhole) (arg2 : Memref sig .tc .vmem S64x32 .f32) (harg2 : arg2.IsWhole) (arg3 : Memref sig .tc .vmem S32x64x512 .f32) (harg3 : arg3.IsWhole) (arg4 : Memref sig .tc .vmem S32x512 .f32) (harg4 : arg4.IsWhole) (hc0 : cond1_0 i)
    (x0 : Vec Ideal S64x32x512 .bf16) (x1 : Vec Ideal S64x32 .f32) (b : Fin 32) (g : Fin 512) :
    sout1_A_0 (F := Ideal) c i arg1 harg1 arg2 harg2 arg3 harg3 arg4 harg4 hc0 x0 x1 (ix2 b g) = rowVal x0 x1 0 b g 63 := by
  unfold sout1_A_0
  rw [View.read_writes_eq_canon _ _ _ (scover1_A_0 c i arg1 harg1 arg2 harg2 arg3 harg3 arg4 harg4 hc0 x0 x1)]
  rw [piecesA_scr, clearedRow_eq]
  unfold lastRow
  rw [View.canon_cons_unit_zero hz2, cast_32x512_self_apply]
  rw [harg1.read_unread, harg2.read_unread]
  refine (curV_apply x0 x1 (k1_pay1 (F := Ideal)) 63 (by omega) b g).trans ?_
  rw [pay1_apply]

end Cert.KernelIdeal.HandValue

end
-- ==== Proof.ScanFinal.lean ====
/-
  The result array after the second pallas_call, from what each grid point leaves in the output block.

  The call's 64 grid points walk the positions in order, 64 at a time.  At point t it reads positions
  64 t ... 64 t + 63 of the position-major linear layer y' : [4096, 32, 512] and of the segment-start flags
  [4096, 32], and writes positions 64 t ... 64 t + 63 of every batch row of the result [32, 4096, 512].  The
  points' output blocks are disjoint and position p lies in the block of point p / 64.  So if the block a point
  leaves is, index by index, the restriction to its positions of ONE function Z of the array's index, the array
  ends holding Z.  What the block holds (the carried row of the linear layer at the last segment start) is
  proved where the recurrence is run; here it is a hypothesis.
-/
import proofs.«134082_j74328704025133_1_alg».proof.Proof.ScanFrame
import Idealize.ShloMosaic.Lib.Pipeline.Value
import Idealize.ShloMosaic.Lib.ValueIdx
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the TensorCore's buffer contents when the call is entered
variable (V : (c : Dev nD) → (b : Ref sig .tc) → Buf (Elt Ideal) ((c : Thread nD τ).loc b))

/-! ## The windows' block indices, decided once over the grid -/

theorem hN1 : cfg1.N = 64 := N_1

/-- At point t the linear layer's block and the flags' block are block t along the positions, and the result's
    block is block t along its positions (its second axis). -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 3) = 0 ∧ win1_2.index t (1 : Fin 3) = t.val ∧ win1_2.index t (2 : Fin 3) = 0 :=
  (by decide +kernel : ∀ t : Fin grid1.N, _)

/-- Position s of a block at point t is position 64 t + s of the array. -/
def pos1 (t : Fin cfg1.N) (s : Fin 64) : Fin 4096 :=
  ⟨t.val * 64 + s.val, by have := t.isLt; have := hN1; omega⟩

/-! ## The input blocks, read -/

/-- The linear layer's block at point t: position s of the block is position 64 t + s of the array. -/
theorem iblk1_0_apply (c : Dev nD) (t : Fin cfg1.N) (s : Fin 64) (b : Fin 32) (g : Fin 512) :
    (iblk1 V c 0 t : Vec Ideal S64x32x512 .bf16) (ix3 s b g)
      = (V c main_v2 : S4096x32x512.Idx → EReal) (ix3 (pos1 t s) b g) := by
  obtain ⟨e0, e1, e2, -⟩ := idx_facts1 t
  unfold iblk1
  rw [View.read_apply]
  show (V c main_v2 : S4096x32x512.Idx → EReal) _ = _
  refine congrArg _ (funext fun a => Fin.ext ?_)
  match a with
  | ⟨0, _⟩ => show win1_0.index t (0 : Fin 3) * 64 + 1 * s.val = t.val * 64 + s.val; omega
  | ⟨1, _⟩ => show win1_0.index t (1 : Fin 3) * 32 + 1 * b.val = b.val; omega
  | ⟨2, _⟩ => show win1_0.index t (2 : Fin 3) * 512 + 1 * g.val = g.val; omega

/-- The flags' block at point t, likewise. -/
theorem iblk1_1_apply (c : Dev nD) (t : Fin cfg1.N) (s : Fin 64) (b : Fin 32) :
    (iblk1 V c 1 t : Vec Ideal S64x32 .f32) (ix2 s b)
      = (V c main_v7 : S4096x32.Idx → EReal) (ix2 (pos1 t s) b) := by
  obtain ⟨-, -, -, e0, e1, -⟩ := idx_facts1 t
  unfold iblk1
  rw [View.read_apply]
  show (V c main_v7 : S4096x32.Idx → EReal) _ = _
  refine congrArg _ (funext fun a => Fin.ext ?_)
  match a with
  | ⟨0, _⟩ => show win1_1.index t (0 : Fin 2) * 64 + 1 * s.val = t.val * 64 + s.val; omega
  | ⟨1, _⟩ => show win1_1.index t (1 : Fin 2) * 32 + 1 * b.val = b.val; omega

/-! ## What a point writes back -/

/-- Where the result's block at point t sits in the array: position s of the block is position 64 t + s. -/
theorem emb1_2 (t : Fin cfg1.N) (b : Fin 32) (s : Fin 64) (g : Fin 512) :
    (((cfg1.win 2).blk t).view.emb (ix3 b s g) : S32x4096x512.Idx) = ix3 b (pos1 t s) g := by
  obtain ⟨-, -, -, -, -, e0, e1, e2⟩ := idx_facts1 t
  refine funext fun a => Fin.ext ?_
  match a with
  | ⟨0, _⟩ => show win1_2.index t (0 : Fin 3) * 32 + 1 * b.val = b.val; omega
  | ⟨1, _⟩ => show win1_2.index t (1 : Fin 3) * 64 + 1 * s.val = t.val * 64 + s.val; omega
  | ⟨2, _⟩ => show win1_2.index t (2 : Fin 3) * 512 + 1 * g.val = g.val; omega

/-- WHAT POINT t WRITES BACK is block t of Z, when the block the body leaves is Z at the block's positions. -/
theorem flushed1_2_eq (c : Dev nD) (Z : S32x4096x512.Idx → EReal)
    (hblk : ∀ (t : Fin cfg1.N) (b : Fin 32) (s : Fin 64) (g : Fin 512),
      ((dat1 (F := Ideal) V c).after 2 t : Vec Ideal S32x64x512 .f32) (ix3 b s g) = Z (ix3 b (pos1 t s) g))
    (t : Fin cfg1.N) :
    (dat1 (F := Ideal) V c).flushed 2 t = ((cfg1.win 2).blk t).view.read (Elt Ideal) Z := by
  show (cfg1.win 2).cut (grid1.coords t) ((dat1 (F := Ideal) V c).after 2 t) = _
  funext j
  show ((dat1 (F := Ideal) V c).after 2 t : Vec Ideal S32x64x512 .f32) j = Z (((cfg1.win 2).blk t).view.emb j)
  obtain ⟨b, s, g, rfl⟩ : ∃ (b : Fin 32) (s : Fin 64) (g : Fin 512), j = ix3 b s g := ⟨j 0, j 1, j 2, eq_ix3 j⟩
  exact (hblk t b s g).trans (congrArg Z (emb1_2 t b s g).symm)

/-! ## The blocks cover the array -/

/-- An index of the array is in point t's block iff each coordinate is in the block's range on its axis. -/
theorem mem_blk1_2 (t : Fin cfg1.N) (i : S32x4096x512.Idx) :
    i ∈ ((cfg1.win 2).blk t).view.set ↔ ∀ a : Fin 3, win1_2.index t a * S32x64x512.size a ≤ (i a).val
      ∧ (i a).val < win1_2.index t a * S32x64x512.size a + S32x64x512.size a := by
  show i ∈ ((View.whole main_v8).slice (win1_2.rect t)).set ↔ _
  rw [View.set_slice_whole, Rect.mem_set_unit]
  exact Iff.rfl

/-- Position p lies in the block of point p / 64. -/
theorem cover1_2 (i : S32x4096x512.Idx) :
    ∃ t : Fin cfg1.N, (cfg1.win 2).flush t = true ∧ i ∈ ((cfg1.win 2).blk t).view.set := by
  have h0 : (i 0).val < 32 := (i 0).isLt
  have h1 : (i 1).val < 4096 := (i 1).isLt
  have h2 : (i 2).val < 512 := (i 2).isLt
  have ht : (i 1).val / 64 < cfg1.N := by rw [hN1]; omega
  refine ⟨⟨(i 1).val / 64, ht⟩, flush1_2 _, ?_⟩
  obtain ⟨-, -, -, -, -, e0, e1, e2⟩ := idx_facts1 ⟨(i 1).val / 64, ht⟩
  have e1' : win1_2.index ⟨(i 1).val / 64, ht⟩ (1 : Fin 3) = (i 1).val / 64 := e1
  rw [mem_blk1_2]
  intro a
  match a with
  | ⟨0, _⟩ =>
    show win1_2.index ⟨(i 1).val / 64, ht⟩ (0 : Fin 3) * 32 ≤ (i 0).val
      ∧ (i 0).val < win1_2.index ⟨(i 1).val / 64, ht⟩ (0 : Fin 3) * 32 + 32
    omega
  | ⟨1, _⟩ =>
    show win1_2.index ⟨(i 1).val / 64, ht⟩ (1 : Fin 3) * 64 ≤ (i 1).val
      ∧ (i 1).val < win1_2.index ⟨(i 1).val / 64, ht⟩ (1 : Fin 3) * 64 + 64
    omega
  | ⟨2, _⟩ =>
    show win1_2.index ⟨(i 1).val / 64, ht⟩ (2 : Fin 3) * 512 ≤ (i 2).val
      ∧ (i 2).val < win1_2.index ⟨(i 1).val / 64, ht⟩ (2 : Fin 3) * 512 + 512
    omega

/-! ## The array after the call -/

/-- THE RESULT ARRAY after the 64 points is Z, when every point's block is Z at the block's positions. -/
theorem arr1_final_of (c : Dev nD) (Z : S32x4096x512.Idx → EReal)
    (hblk : ∀ (t : Fin cfg1.N) (b : Fin 32) (s : Fin 64) (g : Fin 512),
      ((dat1 (F := Ideal) V c).after 2 t : Vec Ideal S32x64x512 .f32) (ix3 b s g) = Z (ix3 b (pos1 t s) g)) :
    (dat1 (F := Ideal) V c).arrAt 2 cfg1.N = Z :=
  (dat1 (F := Ideal) V c).arrAt_eq_of_cover 2 Z (fun t _ => flushed1_2_eq V c Z hblk t) cover1_2

end Cert.KernelIdeal.HandValue

end
-- ==== Proof.ScanState.lean ====
/-
  The carried value along a whole row of positions, as the second region finds its arrays.  With `flags[p, b]` the
  start flags' array and `y[p, b, g]` the linear layer's position-major array, the carried value after position `p`
  at batch row `b` and goal coordinate `g` is the scalar recurrence  c · y + (1 − c) · v  run from 0 over positions
  0 … p.  The 64 grid points each advance it by 64 positions, handing the value on through the carried row.
-/
import proofs.«134082_j74328704025133_1_alg».proof.Proof.ScanFrame
import proofs.«134082_j74328704025133_1_alg».proof.Proof.FillCarry
import Idealize.ShloMosaic.Lib.ValueIdx

set_option maxRecDepth 16384

noncomputable section

namespace Cert.KernelIdeal.HandValue

open Cert.KernelIdeal Cert.KernelIdeal.Gen Cert.KernelIdeal.Hand Cert.FillSpec
open Idealize.ShloMosaic Idealize.ShloMosaic.TcCoe Idealize.ShloMosaic.ValueIdx Idealize.SL.Sem

-- the TensorCore's buffer contents when the second region is entered
variable (V : (c : Dev nD) → (b : Ref sig .tc) → Buf (Elt Ideal) ((c : Thread nD τ).loc b))

/-- A position number, kept inside the array. -/
def posOf (k : ℕ) : Fin 4096 := ⟨min k 4095, by omega⟩
theorem posOf_of_lt (k : ℕ) (h : k < 4096) : posOf k = ⟨k, h⟩ := Fin.ext (Nat.min_eq_left (by omega))

/-- The start flag at position `k` of batch row `b`, and the linear layer's value there at goal coordinate `g`. -/
def flagAt (c : Dev nD) (b : Fin 32) (k : ℕ) : EReal := (V c main_v7 : S4096x32.Idx → EReal) (ix2 (posOf k) b)
def yAt (c : Dev nD) (b : Fin 32) (g : Fin 512) (k : ℕ) : EReal := (V c main_v2 : S4096x32x512.Idx → EReal) (ix3 (posOf k) b g)

/-- The carried value after position `p`. -/
def state (c : Dev nD) (b : Fin 32) (g : Fin 512) (p : ℕ) : EReal :=
  carry (flagAt V c b) (yAt V c b g) 0 p

end Cert.KernelIdeal.HandValue

end
-- ==== Proof.ScanGlobal.lean ====
/-
  From one grid point to the whole row of positions.  Point `n` works on positions 64 n … 64 n + 63: its two blocks
  are those rows of the flags' and the linear layer's arrays, so the recurrence it runs within the point is the
  global one shifted by 64 n, started from what point `n − 1` left in the carried row — by induction the global
  carried value after position 64 n − 1 (from 0 at the first point, where the body clears the row).  Hence slab `s`
  of point `n`'s output block holds the global carried value after position 64 n + s, and the result array, whose
  blocks these are, holds it at every position.
-/
import proofs.«134082_j74328704025133_1_alg».proof.Proof.ScanValue
import proofs.«134082_j74328704025133_1_alg».proof.Proof.ScanFinal
import proofs.«134082_j74328704025133_1_alg».proof.Proof.ScanState

set_option maxRecDepth 16384

noncomputable section

namespace Cert.KernelIdeal.HandValue

open Cert.KernelIdeal Cert.KernelIdeal.Gen Cert.KernelIdeal.Hand Cert.FillSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The recurrence over the rows of two blocks that are rows `64 n + k` of the two arrays is the global one, shifted. -/
theorem rowVal_of (c : Dev nD) (n : ℕ) (x0 : Vec Ideal S64x32x512 .bf16) (x1 : Vec Ideal S64x32 .f32)
    (h0 : ∀ (s : Fin 64) (b : Fin 32) (g : Fin 512), x0 (ix3 s b g) = yAt V c b g (n * 64 + s.val))
    (h1 : ∀ (s : Fin 64) (b : Fin 32), x1 (ix2 s b) = flagAt V c b (n * 64 + s.val))
    (v0 : EReal) (b : Fin 32) (g : Fin 512) (s : ℕ) (hs : s < 64) :
    rowVal x0 x1 v0 b g s = carry (fun k => flagAt V c b (n * 64 + k)) (fun k => yAt V c b g (n * 64 + k)) v0 s := by
  unfold rowVal
  refine carry_congr _ _ _ _ v0 s (fun k hk => ?_)
  have hk64 : k < 64 := by omega
  rw [rowOf_of_lt k hk64]
  exact ⟨h1 ⟨k, hk64⟩ b, h0 ⟨k, hk64⟩ b g⟩

/-- Row `s` of point `t`'s blocks is position `64 t + s` of the arrays. -/
theorem blk0_eq (c : Dev nD) (t : Fin cfg1.N) (s : Fin 64) (b : Fin 32) (g : Fin 512) :
    (iblk1 V c 0 t : Vec Ideal S64x32x512 .bf16) (ix3 s b g) = yAt V c b g (t.val * 64 + s.val) := by
  have ht : t.val < 64 := lt_of_lt_of_eq t.isLt hN1
  have hp : pos1 t s = posOf (t.val * 64 + s.val) :=
    Fin.ext (show t.val * 64 + s.val = min (t.val * 64 + s.val) 4095 from (Nat.min_eq_left (by have := s.isLt; omega)).symm)
  unfold yAt; rw [← hp]; exact iblk1_0_apply V c t s b g
theorem blk1_eq (c : Dev nD) (t : Fin cfg1.N) (s : Fin 64) (b : Fin 32) :
    (iblk1 V c 1 t : Vec Ideal S64x32 .f32) (ix2 s b) = flagAt V c b (t.val * 64 + s.val) := by
  have ht : t.val < 64 := lt_of_lt_of_eq t.isLt hN1
  have hp : pos1 t s = posOf (t.val * 64 + s.val) :=
    Fin.ext (show t.val * 64 + s.val = min (t.val * 64 + s.val) 4095 from (Nat.min_eq_left (by have := s.isLt; omega)).symm)
  unfold flagAt; rw [← hp]; exact iblk1_1_apply V c t s b

/-- Started from 0 at the first point, the point's recurrence is the global one. -/
theorem first_point (c : Dev nD) (t : Fin cfg1.N) (ht : t.val = 0) (b : Fin 32) (g : Fin 512) (s : ℕ) (hs : s < 64) :
    rowVal (iblk1 V c 0 t) (iblk1 V c 1 t) 0 b g s = state V c b g (t.val * 64 + s) := by
  refine (rowVal_of V c t.val (iblk1 V c 0 t) (iblk1 V c 1 t) (blk0_eq V c t) (blk1_eq V c t) 0 b g s hs).trans ?_
  unfold state
  have e : ∀ k, t.val * 64 + k = k := fun k => by rw [ht]; omega
  rw [e s]
  exact carry_congr _ _ _ _ 0 s (fun k _ =>
    ⟨by show flagAt V c b (t.val * 64 + k) = _; rw [e k], by show yAt V c b g (t.val * 64 + k) = _; rw [e k]⟩)

/-- Started from the global carried value after position `64 t − 1`, a later point's recurrence continues the global one. -/
theorem later_point (c : Dev nD) (t : Fin cfg1.N) (ht : ¬ t.val = 0) (b : Fin 32) (g : Fin 512) (s : ℕ) (hs : s < 64) :
    rowVal (iblk1 V c 0 t) (iblk1 V c 1 t) (state V c b g ((t.val - 1) * 64 + 63)) b g s = state V c b g (t.val * 64 + s) := by
  refine (rowVal_of V c t.val (iblk1 V c 0 t) (iblk1 V c 1 t) (blk0_eq V c t) (blk1_eq V c t) _ b g s hs).trans ?_
  unfold state
  have e : ∀ k, t.val * 64 + k = (t.val - 1) * 64 + 63 + 1 + k := fun k => by omega
  refine (carry_congr _ (fun k => flagAt V c b ((t.val - 1) * 64 + 63 + 1 + k)) _ (fun k => yAt V c b g ((t.val - 1) * 64 + 63 + 1 + k)) _ s
    (fun k _ => ⟨by show flagAt V c b (t.val * 64 + k) = _; rw [e k], by show yAt V c b g (t.val * 64 + k) = _; rw [e k]⟩)).trans ?_
  rw [carry_shift, e s]

set_option maxHeartbeats 1600000 in
/-- What each point leaves: slab `s` of its output block at the global carried value after position `64 t + s`, the
    carried row at the one after position `64 t + 63`. -/
theorem outsAt1_apply (c : Dev nD) : ∀ (n : ℕ) (t : Fin cfg1.N), t.val = n →
    (∀ (b : Fin 32) (s : Fin 64) (g : Fin 512),
        ((outsAt1 (F := Ideal) V c t.val t.isLt).1 : Vec Ideal S32x64x512 .f32) (ix3 b s g) = state V c b g (t.val * 64 + s.val))
    ∧ (∀ (b : Fin 32) (g : Fin 512),
        ((outsAt1 (F := Ideal) V c t.val t.isLt).2 : Vec Ideal S32x512 .f32) (ix2 b g) = state V c b g (t.val * 64 + 63)) := by
  intro n
  induction n with
  | zero =>
    intro t ht
    have hA := outsAt1_A (F := Ideal) V c t ht
    constructor
    · intro b s g
      have h1 : ((outsAt1 (F := Ideal) V c t.val t.isLt).1 : Vec Ideal S32x64x512 .f32) (ix3 b s g)
          = out1_A_2 (F := Ideal) c (grid1.coords t) (ms1_0 t) (hs1_0 t) (ms1_1 t) (hs1_1 t) (ms1_2 t) (hs1_2 t) scM1_0 (Memref.isWhole_whole _) ((hcond1_0 t).mpr ht) (iblk1 V c 0 t) (iblk1 V c 1 t) (ix3 b s g) := by rw [hA]
      exact h1.trans ((out1_A_2_apply c (grid1.coords t) (ms1_0 t) (hs1_0 t) (ms1_1 t) (hs1_1 t) (ms1_2 t) (hs1_2 t) scM1_0 (Memref.isWhole_whole _) ((hcond1_0 t).mpr ht) (iblk1 V c 0 t) (iblk1 V c 1 t) b s g).trans
        (first_point V c t ht b g s.val s.isLt))
    · intro b g
      have h1 : ((outsAt1 (F := Ideal) V c t.val t.isLt).2 : Vec Ideal S32x512 .f32) (ix2 b g)
          = sout1_A_0 (F := Ideal) c (grid1.coords t) (ms1_0 t) (hs1_0 t) (ms1_1 t) (hs1_1 t) (ms1_2 t) (hs1_2 t) scM1_0 (Memref.isWhole_whole _) ((hcond1_0 t).mpr ht) (iblk1 V c 0 t) (iblk1 V c 1 t) (ix2 b g) := by rw [hA]
      exact h1.trans ((sout1_A_0_apply c (grid1.coords t) (ms1_0 t) (hs1_0 t) (ms1_1 t) (hs1_1 t) (ms1_2 t) (hs1_2 t) scM1_0 (Memref.isWhole_whole _) ((hcond1_0 t).mpr ht) (iblk1 V c 0 t) (iblk1 V c 1 t) b g).trans
        (first_point V c t ht b g 63 (by omega)))
  | succ n ih =>
    intro t ht
    have ht0 : ¬ t.val = 0 := by omega
    have hlt : t.val - 1 < cfg1.N := Nat.lt_of_le_of_lt (Nat.sub_le _ _) t.isLt
    obtain ⟨-, ih2⟩ := ih ⟨t.val - 1, hlt⟩ (by show t.val - 1 = n; omega)
    have ih2' : ∀ (b : Fin 32) (g : Fin 512),
        ((outsAt1 (F := Ideal) V c (t.val - 1) hlt).2 : Vec Ideal S32x512 .f32) (ix2 b g) = state V c b g ((t.val - 1) * 64 + 63) := ih2
    have hB := outsAt1_B (F := Ideal) V c t ht0
    constructor
    · intro b s g
      have h1 : ((outsAt1 (F := Ideal) V c t.val t.isLt).1 : Vec Ideal S32x64x512 .f32) (ix3 b s g)
          = out1_B_2 (F := Ideal) c (grid1.coords t) (ms1_0 t) (hs1_0 t) (ms1_1 t) (hs1_1 t) (ms1_2 t) (hs1_2 t) scM1_0 (Memref.isWhole_whole _) (fun h => ht0 ((hcond1_0 t).mp h)) (iblk1 V c 0 t) (iblk1 V c 1 t) (outsAt1 (F := Ideal) V c (t.val - 1) hlt).2 (ix3 b s g) := by rw [hB]
      refine h1.trans ((out1_B_2_apply c (grid1.coords t) (ms1_0 t) (hs1_0 t) (ms1_1 t) (hs1_1 t) (ms1_2 t) (hs1_2 t) scM1_0 (Memref.isWhole_whole _) (fun h => ht0 ((hcond1_0 t).mp h)) (iblk1 V c 0 t) (iblk1 V c 1 t) (outsAt1 (F := Ideal) V c (t.val - 1) hlt).2 b s g).trans ?_)
      rw [ih2' b g]
      exact later_point V c t ht0 b g s.val s.isLt
    · intro b g
      have h1 : ((outsAt1 (F := Ideal) V c t.val t.isLt).2 : Vec Ideal S32x512 .f32) (ix2 b g)
          = sout1_B_0 (F := Ideal) c (grid1.coords t) (ms1_0 t) (hs1_0 t) (ms1_1 t) (hs1_1 t) (ms1_2 t) (hs1_2 t) scM1_0 (Memref.isWhole_whole _) (fun h => ht0 ((hcond1_0 t).mp h)) (iblk1 V c 0 t) (iblk1 V c 1 t) (outsAt1 (F := Ideal) V c (t.val - 1) hlt).2 (ix2 b g) := by rw [hB]
      refine h1.trans ((sout1_B_0_apply c (grid1.coords t) (ms1_0 t) (hs1_0 t) (ms1_1 t) (hs1_1 t) (ms1_2 t) (hs1_2 t) scM1_0 (Memref.isWhole_whole _) (fun h => ht0 ((hcond1_0 t).mp h)) (iblk1 V c 0 t) (iblk1 V c 1 t) (outsAt1 (F := Ideal) V c (t.val - 1) hlt).2 b g).trans ?_)
      rw [ih2' b g]
      exact later_point V c t ht0 b g 63 (by omega)

/-- The output block after the body at point `t`, index by index. -/
theorem after1_2_apply (c : Dev nD) (t : Fin cfg1.N) (b : Fin 32) (s : Fin 64) (g : Fin 512) :
    ((dat1 (F := Ideal) V c).after 2 t : Vec Ideal S32x64x512 .f32) (ix3 b s g) = state V c b g (t.val * 64 + s.val) := by
  rw [after1_2]
  exact (outsAt1_apply V c t.val t rfl).1 b s g

/-- THE RESULT ARRAY after the second region: at `(b, p, g)` the carried value after position `p`. -/
theorem arr1_final (c : Dev nD) :
    (dat1 (F := Ideal) V c).arrAt 2 cfg1.N = fun i : S32x4096x512.Idx => state V c (i 0) (i 2) (i 1).val :=
  arr1_final_of V c _ (fun t b s g => after1_2_apply V c t b s g)

end Cert.KernelIdeal.HandValue

end
-- ==== Proof.MmBody.lean ====
/-
  The first pallas_call of the program (the linear layer): what its body leaves in the output window's block.

  The grid has 64 points.  At point t the body sees the block x[0:32, 64t:64t+64, 0:1024] of the activations, the
  whole (transposed, bf16) weight matrix w[0:1024, 0:512] and the whole bias row, and writes the block
  y'[64t:64t+64, 0:32, 0:512] of the position-major result: it reshapes its x block to 2048 rows, multiplies by
  w into a zero accumulator, adds the bias to every row, and lays the rows back out position-major.  The weight
  matrix and the bias have a constant block index, so the pipeline fetches them at the first point only; their
  staging buffers nevertheless hold the same block at every point, because the body leaves them in place.

  This module states, at ANY entry contents V of the TensorCore's buffers: each window's block at a point; the
  output block as one function out0_3 of the three input blocks; the body's triple; the pipeline's proof
  data; and the library's body obligation for it.
-/
import proofs.«134082_j74328704025133_1_alg».proof.Proof.Gen.KernelIdeal.Launch
import proofs.«134082_j74328704025133_1_alg».proof.Proof.Gen.KernelIdeal.Skeleton
import proofs.«134082_j74328704025133_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds their block at every point, for any proof data whose array is V's and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point, fetched there (the first point) or
    not (every later one: its block index never moves, and the body leaves it in place). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer holds the whole row at every point, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S32x64x1024 := Rect.unit (s := S32x64x1024) ![0, 0, 0] S32x64x1024.size inb_S32x64x1024_S32x64x1024_0_0_0
abbrev r0_1 : Rect S1024x512 := Rect.unit (s := S1024x512) ![0, 0] S1024x512.size inb_S1024x512_S1024x512_0_0
abbrev r0_2 : Rect S512 := Rect.unit (s := S512) ![0] S512.size inb_S512_S512_0
abbrev r0_3 : Rect S64x32x512 := Rect.unit (s := S64x32x512) ![0, 0, 0] S64x32x512.size inb_S64x32x512_S64x32x512_0_0_0

/-! ## What the body leaves in the output window's buffer -/

/-- The output block after the body, from the three input blocks: its one store, of the whole block, of the
    linear layer of the loaded blocks laid out position-major. -/
def out0_3 (x0 : Vec F S32x64x1024 .f32) (x1 : Vec F S1024x512 .bf16) (x2 : Vec F S512 .f32) : Vec F S64x32x512 .bf16 :=
  View.canon [⟨r0_3, k0_pay1 (View.ld x0 r0_0) (View.ld x1 r0_1) (View.ld x2 r0_2)⟩]

/-- The one store is of the whole block, so it covers it. -/
theorem cover0_3 (p0 : Vec F S64x32x512 .bf16) (y : S64x32x512.Idx) :
    ∃ pc ∈ ([⟨r0_3, p0⟩] : List (View.Piece (Elt F) S64x32x512 .bf16)), y ∈ pc.1.set :=
  View.cover_of_tiled [⟨r0_3, p0⟩] S64x32x512.size (by rfl) y

/-! ## The body's triple -/

set_option maxHeartbeats 1000000 in
/-- The body on whole staging memrefs, the inputs' at read contents x0, x1, x2 and the output's at anything, runs
    to the continuation holding the inputs' as they were and the output's at out0_3 of the inputs'. -/
theorem sound_kernel0 (c : Dev nD) (E : Set ℕ) (i : grid0.Coords)
    (arg0 : Memref sig .tc .vmem S32x64x1024 .f32) (harg0 : arg0.IsWhole) (arg1 : Memref sig .tc .vmem S1024x512 .bf16) (harg1 : arg1.IsWhole)
    (arg2 : Memref sig .tc .vmem S512 .f32) (harg2 : arg2.IsWhole) (arg3 : Memref sig .tc .vmem S64x32x512 .bf16) (harg3 : arg3.IsWhole)
    (x0 : Vec F S32x64x1024 .f32) (x1 : Vec F S1024x512 .bf16) (x2 : Vec F S512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__mm_kernel i arg0 harg0 arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core c: the arrays as the region finds them (V); after the body at point
    t each input's buffer at its block and the output's at out0_3 of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant
    and the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Assemble.lean ====
/-
  The whole program's run.  @main is four segments: a host stretch (the weight matrix transposed and rounded), the
  first kernel region (the linear layer, written row-block by row-block), a second host stretch (the start flags from
  the mask), the second kernel region (the carried row).  The buffer contents at the five segment boundaries are a
  fold from the launch memory: a host stretch applies its operations; a region replaces its windows' arrays by what
  its write-backs leave and keeps every other buffer.  Each region is entered from "every unscoped buffer at the
  boundary's contents, the generator register at some state, nothing owed" and left in the same form at the next
  boundary, so the segments chain, and the last boundary read against the final memory gives every unscoped buffer's
  final contents — among them the four arguments, which no segment writes, and the result array.
-/
import proofs.«134082_j74328704025133_1_alg».proof.Proof.MmBody
import proofs.«134082_j74328704025133_1_alg».proof.Proof.ScanFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W1`, left at `W2`. Its arrays are split
    out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split
    out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME at any instance: every execution terminates without a fault and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The result array's final contents: what the second region's write-backs leave in its output window's array. -/
theorem final_v8 (c : Dev nD) : W4 m ρ c (Proc.devRef .tc main_v8) = (dat1 (V3 m ρ) c).arrAt 2 cfg1.N :=
  W4_arr m ρ c 2

end Cert.KernelIdeal.Hand

end
-- ==== Proof.LibPlainMatmul.lean ====
/-
  A plain matrix product and the one-axis reductions of a matrix, read at an index written by coordinates, at the
  ideal values, for any extents.

  The product of an `[m, k]` matrix by a `[k, n]` matrix accumulated into the zero matrix is, at `(a, b)`, the sum over
  the contracted coordinate `c` of the products of the entries `(a, c)` and `(c, b)`.  A sum over the rows of an
  `[a, b]` matrix (axis 0 dropped) is, at column `j`, the sum over `i` of the entries `(i, j)`; a sum along the rows
  (axis 1 dropped) is, at row `i`, the sum over `j` of the entries `(i, j)`; and a maximum over the rows is, at column
  `j`, the fold of `max` from the accumulator's value over the entries `(i, j)`.  Each sum runs over a finite index
  type, so no order of the additions is part of the statement.
-/
import Idealize.ShloMosaic.Lib.ValueIdx
import Idealize.ShloMosaic.PureOps.Ideal.Laws
import Idealize.ShloMosaic.PureOps.Reduce

open scoped BigOperators

namespace PlainMatmul

open Idealize.ShloMosaic Idealize.ShloMosaic.ValueIdx

/-! ## The plain product -/

/-- The dimension numbers of a plain product: the left operand's columns contracted with the right operand's rows. -/
abbrev dims {m k n : ℕ}
    (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- THE PLAIN PRODUCT AT `(a, b)`, accumulated into zero: the sum over the contracted coordinate. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (dims w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (dims w) k rfl rfl).symm]
  refine Finset.sum_congr rfl fun c _ => ?_
  have hc := contrEquiv1_symm_val (dims w) k rfl rfl c
  have l0 : ∀ q : (dims w).contr.Idx, ((dims w).lhsIdx (ix2 a b) q (0 : Fin 2)).val = a.val := fun q => by
    unfold DotDims.lhsIdx
    rw [dif_neg (show ¬(0 : Fin 2) ∈ (dims w).lhsBatch from List.not_mem_nil),
      dif_pos (show (0 : Fin 2) ∈ (dims w).lhsNonContracting from List.mem_singleton.mpr rfl)]
    rfl
  have r1 : ∀ q : (dims w).contr.Idx, ((dims w).rhsIdx (ix2 a b) q (1 : Fin 2)).val = b.val := fun q => by
    unfold DotDims.rhsIdx
    rw [dif_neg (show ¬(1 : Fin 2) ∈ (dims w).rhsBatch from List.not_mem_nil),
      dif_pos (show (1 : Fin 2) ∈ (dims w).rhsNonContracting from List.mem_singleton.mpr rfl)]
    rfl
  have el : (dims w).lhsIdx (ix2 a b) ((contrEquiv1 (dims w) k rfl rfl).symm c) = ix2 a c := by
    funext ax; apply Fin.ext
    match ax with
    | ⟨0, _⟩ => exact l0 _
    | ⟨1, _⟩ => exact ((dims w).lhsIdx_val_of_single (cl := (1 : Fin 2)) rfl _ _).trans hc
  have er : (dims w).rhsIdx (ix2 a b) ((contrEquiv1 (dims w) k rfl rfl).symm c) = ix2 c b := by
    funext ax; apply Fin.ext
    match ax with
    | ⟨0, _⟩ => exact ((dims w).rhsIdx_val_of_single (cr := (0 : Fin 2)) rfl _ _).trans hc
    | ⟨1, _⟩ => exact r1 _
  rw [el, er]

/-! ## The index a reduced index and a coordinate on the dropped axis name -/

/-- Dropping the FIRST axis of `[a, b]`: the index over `j` whose first coordinate is `k` is `(k, j)`. -/
theorem lift_first {a b : ℕ} (h : (⟨2, ![a, b]⟩ : Shape).Reduces [0] (⟨1, ![b]⟩ : Shape)) (j : Fin b)
    (k : Fin ((⟨2, ![a, b]⟩ : Shape).size 0)) :
    h.lift (ix1 j) k = ix2 (⟨k.val, k.isLt⟩ : Fin a) j := by
  funext ax; apply Fin.ext
  fin_cases ax <;> rfl

/-- Dropping the LAST axis of `[a, b]`: the index over `i` whose last coordinate is `k` is `(i, k)`. -/
theorem lift_last {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

/-! ## Sums and a maximum over one axis of a matrix -/

variable {φ : FTy}

/-- A sum over the rows (axis 0 dropped), at column `j`. -/
theorem sum_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  exact Finset.sum_congr rfl fun k _ => congrArg src (lift_first h j k)

/-- A sum along the rows (axis 1 dropped), at row `i`. -/
theorem sum_axis1_apply {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ j : Fin b, src (ix2 i j) := by
  refine (Ideal.multiReduction_add_single src acc h hφ hacc (ix1 i)).trans ?_
  exact Finset.sum_congr rfl fun k _ => congrArg src (lift_last h i k)

/-- A maximum over the rows (axis 0 dropped), at column `j`: the fold of `max` from the accumulator's value. -/
theorem max_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (j : Fin b) :
    multiReduction .maximumf [0] ⟨1, ![b]⟩ src acc h hφ hacc (ix1 j)
      = (Finset.univ : Finset (Fin a)).fold max (Ideal.ofBits φ acc) (fun i => src (ix2 i j)) := by
  refine (Ideal.multiReduction_maximumf_single src acc h hφ hacc (ix1 j)).trans ?_
  have hf : (src ∘ h.lift (ix1 j)) = fun i : Fin a => src (ix2 i j) :=
    funext fun k => congrArg src (lift_first h j k)
  exact congrArg (fun f => Finset.fold max (Ideal.ofBits φ acc) f (Finset.univ : Finset (Fin a))) hf

end PlainMatmul
-- ==== Proof.MmValue.lean ====
/-
  The output block of the linear layer's body, read at an index, at the ideal values.

  The block handed to the body at a grid point is x0[b, s, d] (32 batch rows, 64 positions, 1024 features), the
  whole weight matrix x1[d, g] and the bias row x2[g].  The body flattens (b, s) to the row r = 64 b + s of a
  2048-row matrix, forms the product with x1 accumulated into zero, adds the bias to every row, unflattens the
  rows back to (b, s) and swaps the two leading axes.  So at (s, b, g) the block holds
      (sum over d of x0[b, s, d] * x1[d, g]) + x2[g].
  A change of float format is the identity at the ideal values, and the sum runs over a finite index type, so no
  order of the additions is part of the statement.
-/
import proofs.«134082_j74328704025133_1_alg».proof.Proof.MmBody
import proofs.«134082_j74328704025133_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.HandValue

open Cert.KernelIdeal Cert.KernelIdeal.Gen Cert.KernelIdeal.Hand
open Idealize.ShloMosaic Idealize.ShloMosaic.ValueIdx

/-- The row of the flattened matrix that holds batch row b at position s. -/
def row (b : Fin 32) (s : Fin 64) : Fin 2048 := ⟨b.val * 64 + s.val, by omega⟩

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

variable {α : Type}

/-- Swapping the two leading axes: at (s, b, g) the operand at (b, s, g). -/
theorem swap_apply (x : S32x64x512.Idx → α) (h : S32x64x512.Transposes [1, 0, 2] S64x32x512)
    (s : Fin 64) (b : Fin 32) (g : Fin 512) :
    transpose S64x32x512 [1, 0, 2] x h (ix3 s b g) = x (ix3 b s g) :=
  transpose_apply _ x h _ _ fun c => match c with | ⟨0, _⟩ => rfl | ⟨1, _⟩ => rfl | ⟨2, _⟩ => rfl

/-- Unflattening the rows: at (b, s, g) the operand at (64 b + s, g). -/
theorem unflatten_apply (x : S2048x512.Idx → α) (h : S2048x512.ShapeCasts S32x64x512)
    (b : Fin 32) (s : Fin 64) (g : Fin 512) :
    shapeCast S32x64x512 x h (ix3 b s g) = x (ix2 (row b s) g) :=
  shapeCast_apply x h _ _ (by
    rw [Shape.rowMajor_val_two, Shape.rowMajor_val_three]
    rfl)

/-- Flattening the two leading axes: at (64 b + s, d) the operand at (b, s, d). -/
theorem flatten_apply (x : S32x64x1024.Idx → α) (h : S32x64x1024.ShapeCasts S2048x1024)
    (b : Fin 32) (s : Fin 64) (d : Fin 1024) :
    shapeCast S2048x1024 x h (ix2 (row b s) d) = x (ix3 b s d) :=
  shapeCast_apply x h _ _ (by
    rw [Shape.rowMajor_val_two, Shape.rowMajor_val_three]
    rfl)

/-- The bias row laid under every row of the matrix: at (r, g) the bias at g. -/
theorem biasRows_apply (x : S512.Idx → α) (h1 : S512.ShapeCasts S1x512) (h2 : S1x512.Broadcasts S2048x512)
    (r : Fin 2048) (g : Fin 512) :
    broadcastTo S2048x512 (shapeCast S1x512 x h1) h2 (ix2 r g) = x (ix1 g) :=
  (broadcastTo_1b_ab_apply _ h2 r g).trans (shapeCast_a_1a_apply x h1 0 g)

/-- The product's dimension numbers are those of a plain product. -/
theorem dims_eq : dot_S2048x1024_S1024x512_S2048x512_1_0_0_1_n_n
    = PlainMatmul.dims dot_S2048x1024_S1024x512_S2048x512_1_0_0_1_n_n_wf := rfl

/-- The product accumulated into zero, at (r, g): the sum over the contracted coordinate. -/
theorem product_apply (A : FVec Ideal S2048x1024 .bf16) (B : FVec Ideal S1024x512 .bf16) (r : Fin 2048) (g : Fin 512) :
    matmul dot_S2048x1024_S1024x512_S2048x512_1_0_0_1_n_n none A B (constant (F := Ideal) S2048x512 .f32 0x00000000#32) (ix2 r g)
      = ∑ d : Fin 1024, A (ix2 r d) * B (ix2 d g) := by
  rw [dims_eq]
  exact PlainMatmul.matmul_zero_apply _ none A B r g

/-- THE BODY'S STORED VALUE AT (s, b, g). -/
theorem pay_apply (v0 : Vec Ideal S32x64x1024 .f32) (v3 : FVec Ideal S1024x512 .bf16) (v6 : Vec Ideal S512 .f32)
    (s : Fin 64) (b : Fin 32) (g : Fin 512) :
    k0_pay1 (F := Ideal) v0 v3 v6 (ix3 s b g) = (∑ d : Fin 1024, v0 (ix3 b s d) * v3 (ix2 d g)) + v6 (ix1 g) := by
  unfold k0_pay1
  dsimp only
  rw [swap_apply, unflatten_apply, truncf_apply, addf_apply, biasRows_apply, product_apply]
  refine congrArg (· + v6 (ix1 g)) (Finset.sum_congr rfl fun d _ => ?_)
  rw [truncf_apply, flatten_apply, shapeCast_self]

/-- THE OUTPUT BLOCK AT (s, b, g): the linear layer of the block's batch row b at position s. -/
theorem out0_3_apply (x0 : Vec Ideal S32x64x1024 .f32) (x1 : FVec Ideal S1024x512 .bf16) (x2 : Vec Ideal S512 .f32)
    (s : Fin 64) (b : Fin 32) (g : Fin 512) :
    out0_3 (F := Ideal) x0 x1 x2 (ix3 s b g) = (∑ d : Fin 1024, x0 (ix3 b s d) * x1 (ix2 d g)) + x2 (ix1 g) := by
  unfold out0_3
  rw [View.canon_unit_zero hz3, View.ld_unit_zero (S := S32x64x1024) hz3, View.ld_unit_zero (S := S1024x512) hz2,
    View.ld_unit_zero (S := S512) hz1]
  exact pay_apply x0 x1 x2 s b g

end Cert.KernelIdeal.HandValue

end
-- ==== Proof.MmFinal.lean ====
/-
  The linear layer's result array after the first pallas_call, as one function of the arrays the call finds.

  The call's 64 grid points write disjoint blocks of the position-major result y' : [4096, 32, 512]: point t writes
  the positions 64 t ... 64 t + 63.  What point t writes is the body's output block of the three input blocks at t,
  and those are: positions 64 t ... 64 t + 63 of every batch row of the activations x : [32, 4096, 1024], the whole
  weight matrix w : [1024, 512] and the whole bias row.  With the block's value at an index known (the sum over the
  features plus the bias), every point's block is the restriction to its positions of ONE function of the arrays,
      Y0[p, b, g] = (sum over d of x[b, p, d] * w[d, g]) + bias[g],
  and position p lies in the block of point p / 64; so the array ends holding Y0 everywhere.
-/
import proofs.«134082_j74328704025133_1_alg».proof.Proof.MmValue
import Idealize.ShloMosaic.Lib.Pipeline.Value
import Idealize.ShloMosaic.Lib.ValueIdx
import Idealize.ShloMosaic.Lib.Tactic

set_option maxRecDepth 16384

open scoped BigOperators

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the TensorCore's buffer contents when the call is entered
variable (V : (c : Dev nD) → (b : Ref sig .tc) → Buf (Elt Ideal) ((c : Thread nD τ).loc b))

/-! ## The function the array ends holding -/

/-- The linear layer at position p, batch row b, goal coordinate g, of activations x, a weight matrix w laid out
    feature-major, and a bias row. -/
def Yat (x : S32x4096x1024.Idx → EReal) (w : S1024x512.Idx → EReal) (bias : S512.Idx → EReal)
    (p : Fin 4096) (b : Fin 32) (g : Fin 512) : EReal :=
  (∑ d : Fin 1024, x (ix3 b p d) * w (ix2 d g)) + bias (ix1 g)

/-- The position-major result array, of the arrays the call finds. -/
def Y0 (c : Dev nD) : S4096x32x512.Idx → EReal :=
  fun i => Yat (V c main_arg0) (V c main_v1) (V c main_arg3) (i 0) (i 1) (i 2)

theorem Y0_ix3 (c : Dev nD) (p : Fin 4096) (b : Fin 32) (g : Fin 512) :
    Y0 V c (ix3 p b g) = Yat (V c main_arg0) (V c main_v1) (V c main_arg3) p b g := rfl

/-! ## The windows' block indices, decided once over the grid -/

theorem hN0 : cfg0.N = 64 := N_0

/-- At point t the activations' block is block t along the positions, the result's block is block t along its
    positions, and the weight matrix and the bias are whole. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

/-- Position s of the block at point t is position 64 t + s of the array. -/
def pos (t : Fin cfg0.N) (s : Fin 64) : Fin 4096 :=
  ⟨t.val * 64 + s.val, by have := t.isLt; have := hN0; omega⟩

/-! ## The input blocks, read -/

/-- The activations' block at point t: batch row b, position s of the block is position 64 t + s of the array. -/
theorem iblk0_0_apply (c : Dev nD) (t : Fin cfg0.N) (b : Fin 32) (s : Fin 64) (d : Fin 1024) :
    (iblk0 V c 0 t : Vec Ideal S32x64x1024 .f32) (ix3 b s d)
      = (V c main_arg0 : S32x4096x1024.Idx → EReal) (ix3 b (pos t s) d) := by
  obtain ⟨e0, e1, e2, -⟩ := idx_facts t
  unfold iblk0
  rw [View.read_apply]
  show (V c main_arg0 : S32x4096x1024.Idx → EReal) _ = _
  refine congrArg _ (funext fun a => Fin.ext ?_)
  match a with
  | ⟨0, _⟩ => show win0_0.index t (0 : Fin 3) * 32 + 1 * b.val = b.val; omega
  | ⟨1, _⟩ => show win0_0.index t (1 : Fin 3) * 64 + 1 * s.val = t.val * 64 + s.val; omega
  | ⟨2, _⟩ => show win0_0.index t (2 : Fin 3) * 1024 + 1 * d.val = d.val; omega

/-- The weight matrix's block at any point is the whole matrix. -/
theorem iblk0_1_apply (c : Dev nD) (t : Fin cfg0.N) (d : Fin 1024) (g : Fin 512) :
    (iblk0 V c 1 t : FVec Ideal S1024x512 .bf16) (ix2 d g) = (V c main_v1 : S1024x512.Idx → EReal) (ix2 d g) := by
  obtain ⟨-, -, -, e0, e1, -⟩ := idx_facts t
  unfold iblk0
  rw [View.read_apply]
  show (V c main_v1 : S1024x512.Idx → EReal) _ = _
  refine congrArg _ (funext fun a => Fin.ext ?_)
  match a with
  | ⟨0, _⟩ => show win0_1.index t (0 : Fin 2) * 1024 + 1 * d.val = d.val; omega
  | ⟨1, _⟩ => show win0_1.index t (1 : Fin 2) * 512 + 1 * g.val = g.val; omega

/-- The bias row's block at any point is the whole row. -/
theorem iblk0_2_apply (c : Dev nD) (t : Fin cfg0.N) (g : Fin 512) :
    (iblk0 V c 2 t : Vec Ideal S512 .f32) (ix1 g) = (V c main_arg3 : S512.Idx → EReal) (ix1 g) := by
  obtain ⟨-, -, -, -, -, e0, -⟩ := idx_facts t
  unfold iblk0
  rw [View.read_apply]
  show (V c main_arg3 : S512.Idx → EReal) _ = _
  refine congrArg _ (funext fun a => Fin.ext ?_)
  match a with
  | ⟨0, _⟩ => show win0_2.index t (0 : Fin 1) * 512 + 1 * g.val = g.val; omega

/-! ## What a point writes back -/

/-- Where the result's block at point t sits in the array: position s of the block is position 64 t + s. -/
theorem emb3 (t : Fin cfg0.N) (s : Fin 64) (b : Fin 32) (g : Fin 512) :
    (((cfg0.win 3).blk t).view.emb (ix3 s b g) : S4096x32x512.Idx) = ix3 (pos t s) b g := by
  obtain ⟨-, -, -, -, -, -, e0, e1, e2⟩ := idx_facts t
  refine funext fun a => Fin.ext ?_
  match a with
  | ⟨0, _⟩ => show win0_3.index t (0 : Fin 3) * 64 + 1 * s.val = t.val * 64 + s.val; omega
  | ⟨1, _⟩ => show win0_3.index t (1 : Fin 3) * 32 + 1 * b.val = b.val; omega
  | ⟨2, _⟩ => show win0_3.index t (2 : Fin 3) * 512 + 1 * g.val = g.val; omega

/-- The body's output block at point t, index by index, is Y0 where the block sits. -/
theorem block_point (c : Dev nD) (t : Fin cfg0.N) (j : S64x32x512.Idx) :
    out0_3 (F := Ideal) (iblk0 V c 0 t) (iblk0 V c 1 t) (iblk0 V c 2 t) j
      = Y0 V c (((cfg0.win 3).blk t).view.emb j) := by
  obtain ⟨s, b, g, rfl⟩ : ∃ (s : Fin 64) (b : Fin 32) (g : Fin 512), j = ix3 s b g := ⟨j 0, j 1, j 2, eq_ix3 j⟩
  refine (out0_3_apply (iblk0 V c 0 t) (iblk0 V c 1 t) (iblk0 V c 2 t) s b g).trans ?_
  refine Eq.trans ?_ (congrArg (Y0 V c) (emb3 t s b g).symm)
  rw [Y0_ix3]
  unfold Yat
  refine congrArg₂ (fun u v : EReal => u + v) (Finset.sum_congr rfl fun d _ => ?_) (iblk0_2_apply V c t g)
  exact congrArg₂ (fun u v : EReal => u * v) (iblk0_0_apply V c t b s d) (iblk0_1_apply V c t d g)

/-- WHAT POINT t WRITES BACK is block t of Y0. -/
theorem flushed3_eq (c : Dev nD) (t : Fin cfg0.N) :
    (dat0 (F := Ideal) V c).flushed 3 t = ((cfg0.win 3).blk t).view.read (Elt Ideal) (Y0 V c) := by
  show (cfg0.win 3).cut (grid0.coords t) ((dat0 (F := Ideal) V c).after 3 t) = _
  rw [after0_3]
  funext j
  show out0_3 (F := Ideal) (iblk0 V c 0 t) (iblk0 V c 1 t) (iblk0 V c 2 t) j = Y0 V c (((cfg0.win 3).blk t).view.emb j)
  exact block_point V c t j

/-! ## The blocks cover the array -/

/-- An index of the array is in point t's block iff each coordinate is in the block's range on its axis. -/
theorem mem_blk3 (t : Fin cfg0.N) (i : S4096x32x512.Idx) :
    i ∈ ((cfg0.win 3).blk t).view.set ↔ ∀ a : Fin 3, win0_3.index t a * S64x32x512.size a ≤ (i a).val
      ∧ (i a).val < win0_3.index t a * S64x32x512.size a + S64x32x512.size a := by
  show i ∈ ((View.whole main_v2).slice (win0_3.rect t)).set ↔ _
  rw [View.set_slice_whole, Rect.mem_set_unit]
  exact Iff.rfl

/-- Position p lies in the block of point p / 64. -/
theorem cover3 (i : S4096x32x512.Idx) :
    ∃ t : Fin cfg0.N, (cfg0.win 3).flush t = true ∧ i ∈ ((cfg0.win 3).blk t).view.set := by
  have h0 : (i 0).val < 4096 := (i 0).isLt
  have h1 : (i 1).val < 32 := (i 1).isLt
  have h2 : (i 2).val < 512 := (i 2).isLt
  have ht : (i 0).val / 64 < cfg0.N := by rw [hN0]; omega
  refine ⟨⟨(i 0).val / 64, ht⟩, flush0_3 _, ?_⟩
  obtain ⟨-, -, -, -, -, -, e0, e1, e2⟩ := idx_facts ⟨(i 0).val / 64, ht⟩
  have e0' : win0_3.index ⟨(i 0).val / 64, ht⟩ (0 : Fin 3) = (i 0).val / 64 := e0
  rw [mem_blk3]
  intro a
  match a with
  | ⟨0, _⟩ =>
    show win0_3.index ⟨(i 0).val / 64, ht⟩ (0 : Fin 3) * 64 ≤ (i 0).val
      ∧ (i 0).val < win0_3.index ⟨(i 0).val / 64, ht⟩ (0 : Fin 3) * 64 + 64
    omega
  | ⟨1, _⟩ =>
    show win0_3.index ⟨(i 0).val / 64, ht⟩ (1 : Fin 3) * 32 ≤ (i 1).val
      ∧ (i 1).val < win0_3.index ⟨(i 0).val / 64, ht⟩ (1 : Fin 3) * 32 + 32
    omega
  | ⟨2, _⟩ =>
    show win0_3.index ⟨(i 0).val / 64, ht⟩ (2 : Fin 3) * 512 ≤ (i 2).val
      ∧ (i 2).val < win0_3.index ⟨(i 0).val / 64, ht⟩ (2 : Fin 3) * 512 + 512
    omega

/-! ## The array after the call -/

/-- THE RESULT ARRAY after the 64 points: Y0 of the arrays the call finds. -/
theorem arr0_final (c : Dev nD) : (dat0 (F := Ideal) V c).arrAt 3 cfg0.N = Y0 V c :=
  (dat0 (F := Ideal) V c).arrAt_eq_of_cover 3 (Y0 V c) (fun t _ => flushed3_eq V c t) (cover3)

end Cert.KernelIdeal.HandValue

end
-- ==== Proof.HostGlue.lean ====
/-
  The two stretches of host operations of the program, read at an index, at the ideal values.

  Before the first pallas_call the host lays the weight matrix W : [512, 1024] out feature-major and rounds it to
  bf16; at the ideal values the rounding is the identity, so the array the call reads holds W[g, d] at (d, g).
  Between the two calls the host builds the segment-start flags: a column of ones is put in front of the mask's
  first 4095 positions, so that row b holds 1 at position 0 and mask[b, t - 1] at a later position t; the result is
  laid out position-major and turned into floats.  So at (t, b) it holds 1 when position t of row b starts a
  segment and 0 otherwise.  Neither stretch writes any other array.
-/
import proofs.«134082_j74328704025133_1_alg».proof.Proof.Gen.KernelIdeal.Launch
import proofs.«134082_j74328704025133_1_alg».proof.Proof.Gen.KernelIdeal.Regions
import proofs.«134082_j74328704025133_1_alg».proof.Proof.FillSpec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.ValueIdx Idealize.SL.Sem
open Idealize.ShloMosaic.StableHlo

/-! ## One-bit words as floats -/

/-- A one-bit word read as an unsigned integer, at the ideal values: the set bit is 1, the clear bit 0. -/
theorem uitofp_one : FloatOps.uitofp (F := Ideal) .f32 (1#1 : BitVec 1) = (1 : EReal) := by
  show ((((1#1 : BitVec 1).toNat : ℕ) : ℝ) : EReal) = 1
  rw [show (1#1 : BitVec 1).toNat = 1 from rfl, Nat.cast_one, EReal.coe_one]

theorem uitofp_zero : FloatOps.uitofp (F := Ideal) .f32 (0#1 : BitVec 1) = (0 : EReal) := by
  show ((((0#1 : BitVec 1).toNat : ℕ) : ℝ) : EReal) = 0
  rw [show (0#1 : BitVec 1).toNat = 0 from rfl, Nat.cast_zero, EReal.coe_zero]

/-! ## The segment-start flags, batch-major: a column of ones in front of the mask shifted by one position -/

/-- Row b of the flags holds 1 at position 0 and the mask's bit of the position before at a later one: the bit says
    whether the position starts a segment. -/
theorem flags_apply (mask : S32x4096.Idx → BitVec 1) (b : Fin 32) (t : Fin 4096) :
    concatenate S32x4096 1
        [⟨S32x1, broadcastInDim S32x1 ![] bcast_S_S32x1 (constantI S_ 1 1#1)⟩,
         ⟨S32x4095, extractStridedSlice S32x4095 ![0, 0] mask slices_S32x4096_S32x4095_0_0⟩]
        concatenates_S32x1_S32x4095_S32x4096_d1 (ix2 b t)
      = if Cert.FillSpec.starts mask b t.val then 1#1 else 0#1 := by
  rcases t with ⟨_ | u, ht⟩
  · -- position 0: the column of ones
    rw [if_pos (Cert.FillSpec.starts_zero mask b)]
    refine (concatenate_pair_apply_left (t := S32x4096) (s₁ := S32x1) (s₂ := S32x4095) (1 : Fin 2) _ _
      concatenates_S32x1_S32x4095_S32x4096_d1 (ix2 b (⟨0, ht⟩ : Fin 4096)) rfl
      (ix2 b (0 : Fin 1)) fun a => ?_).trans ?_
    · match a with
      | ⟨0, _⟩ => rfl
      | ⟨1, _⟩ => rfl
    · exact (broadcastInDim_scalar_apply bcast_S_S32x1 _ _).trans rfl
  · -- a later position u + 1: the mask at position u
    have hu : u < 4096 := by omega
    have hu' : u < 4095 := by omega
    refine Eq.trans (b := mask (ix2 b ⟨u, hu⟩)) ?_ ?_
    · refine (concatenate_pair_apply_right (t := S32x4096) (s₁ := S32x1) (s₂ := S32x4095) (1 : Fin 2) _ _
        concatenates_S32x1_S32x4095_S32x4096_d1 (ix2 b (⟨u + 1, ht⟩ : Fin 4096)) rfl rfl
        (ix2 b (⟨u, hu'⟩ : Fin 4095)) (fun a ha => ?_) rfl).trans ?_
      · match a with
        | ⟨0, _⟩ => rfl
        | ⟨1, _⟩ => exact absurd rfl ha
      · refine extractStridedSlice_apply _ mask slices_S32x4096_S32x4095_0_0 _ _ fun a => ?_
        match a with
        | ⟨0, _⟩ => exact (Nat.zero_add b.val).symm
        | ⟨1, _⟩ => exact (Nat.zero_add u).symm
    · have hs := Cert.FillSpec.starts_succ mask b u hu
      rcases BitVec.eq_zero_or_eq_one (mask (ix2 b ⟨u, hu⟩)) with h0 | h1
      · rw [if_neg (fun h => by have := hs.mp h; rw [h0] at this; exact absurd this (by decide)), h0]
      · rw [if_pos (hs.mpr h1), h1]

/-! ## The first stretch: the weight matrix laid out feature-major -/

variable (W : Valuation τ sig (Elt Ideal))

/-- The array the first pallas_call reads the weights from: the transposed matrix, rounded to bf16. -/
theorem hostOps0_v1_eq :
    (StableHlo.after (hostOps0 (F := Ideal)) W (Proc.devRef .tc main_v1) : (⟨S1024x512, .bf16⟩ : BufTy).Contents (Elt Ideal))
      = truncf (F := Ideal) .bf16 (transpose S1024x512 [1, 0] (W (Proc.devRef .tc main_arg2)) transposes_S512x1024_S1024x512_1_0) bitsLt_bf16_f32 := by
  after_results

/-- At (d, g) it holds W[g, d]: at the ideal values the rounding to bf16 is the identity. -/
theorem hostOps0_v1_apply (d : Fin 1024) (g : Fin 512) :
    (StableHlo.after (hostOps0 (F := Ideal)) W (Proc.devRef .tc main_v1) : (⟨S1024x512, .bf16⟩ : BufTy).Contents (Elt Ideal)) (ix2 d g)
      = (W (Proc.devRef .tc main_arg2) : (⟨S512x1024, .f32⟩ : BufTy).Contents (Elt Ideal)) (ix2 g d) :=
  (congrFun (hostOps0_v1_eq W) (ix2 d g)).trans
    (transpose_ix2_apply (W (Proc.devRef .tc main_arg2) : (⟨S512x1024, .f32⟩ : BufTy).Contents (Elt Ideal))
      transposes_S512x1024_S1024x512_1_0 d g)

/-- The first stretch writes only its two results. -/
theorem hostOps0_keeps (b : Ref sig .tc) (hb : b ∉ (hostOps0_W : List (Ref sig .tc))) :
    StableHlo.after (hostOps0 (F := Ideal)) W (Proc.devRef .tc b) = W (Proc.devRef .tc b) :=
  StableHlo.after_of_writes_sub hostOps0 W hostOps0_writes hb

/-! ## The second stretch: the segment-start flags, position-major, as floats -/

/-- The flags array as the operations build it. -/
theorem hostOps1_v7_eq :
    (StableHlo.after (hostOps1 (F := Ideal)) W (Proc.devRef .tc main_v7) : (⟨S4096x32, .f32⟩ : BufTy).Contents (Elt Ideal))
      = uitofp (F := Ideal) .f32 (transpose S4096x32 [1, 0]
          (concatenate S32x4096 1
            [⟨S32x1, broadcastInDim S32x1 ![] bcast_S_S32x1 (constantI S_ 1 1#1)⟩,
             ⟨S32x4095, extractStridedSlice S32x4095 ![0, 0] (W (Proc.devRef .tc main_arg1)) slices_S32x4096_S32x4095_0_0⟩]
            concatenates_S32x1_S32x4095_S32x4096_d1)
          transposes_S32x4096_S4096x32_1_0) := by
  after_results

/-- At (t, b) it holds 1 when position t of row b starts a segment, 0 otherwise. -/
theorem hostOps1_v7_apply (t : Fin 4096) (b : Fin 32) :
    (StableHlo.after (hostOps1 (F := Ideal)) W (Proc.devRef .tc main_v7) : (⟨S4096x32, .f32⟩ : BufTy).Contents (Elt Ideal)) (ix2 t b)
      = if Cert.FillSpec.starts (W (Proc.devRef .tc main_arg1)) b t.val then (1 : EReal) else 0 := by
  refine (congrFun (hostOps1_v7_eq W) (ix2 t b)).trans ?_
  show FloatOps.uitofp (F := Ideal) .f32 (transpose S4096x32 [1, 0] _ transposes_S32x4096_S4096x32_1_0 (ix2 t b)) = _
  rw [transpose_ix2_apply _ transposes_S32x4096_S4096x32_1_0 t b,
    flags_apply (W (Proc.devRef .tc main_arg1)) b t]
  by_cases h : Cert.FillSpec.starts (W (Proc.devRef .tc main_arg1)) b t.val
  · rw [if_pos h, if_pos h]; exact uitofp_one
  · rw [if_neg h, if_neg h]; exact uitofp_zero

/-- The second stretch writes only its six results. -/
theorem hostOps1_keeps (b : Ref sig .tc) (hb : b ∉ (hostOps1_W : List (Ref sig .tc))) :
    StableHlo.after (hostOps1 (F := Ideal)) W (Proc.devRef .tc b) = W (Proc.devRef .tc b) :=
  StableHlo.after_of_writes_sub hostOps1 W hostOps1_writes hb

end Cert.KernelIdeal.HandValue

end
-- ==== Proof.KernelValue.lean ====
/-
  The idealized kernel program's result array is the specification's function of the four arguments.

  Follow the buffers through the program.  The first host stretch lays the weight matrix out feature-major (the
  rounding to bf16 is the identity at the ideal values) and writes nothing else, so the first pallas_call finds the
  activations and the bias as launched and W[g, d] at (d, g); it leaves, position-major, the linear layer
      y'[p, b, g] = (sum over d of x[b, p, d] * W[g, d]) + bias[g] = lin b p g.
  The second host stretch builds the start flags, flags[p, b] = 1 when position p of row b starts a segment and 0
  otherwise, from the mask as launched, and keeps y'.  The second pallas_call leaves at (b, p, g) the carried value
  after position p of the recurrence  c * y + (1 - c) * v  over the flags and y' of row b; the positions up to p are
  all that matter, and there the flags and the values are the specification's, so the carried value is the linear
  layer at the last segment start at or before p: the specification's G.
-/
import proofs.«134082_j74328704025133_1_alg».proof.Proof.Assemble
import proofs.«134082_j74328704025133_1_alg».proof.Proof.MmFinal
import proofs.«134082_j74328704025133_1_alg».proof.Proof.HostGlue
import proofs.«134082_j74328704025133_1_alg».proof.Proof.ScanState

set_option maxRecDepth 16384

open scoped BigOperators

noncomputable section

namespace Cert.KernelIdeal.HandValue

open Cert.KernelIdeal Cert.KernelIdeal.Gen Cert.KernelIdeal.Hand Cert.FillSpec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The four arguments as launched, over the specification's shapes -/

abbrev argX : SX.Idx → EReal := m ((c.tc : Thread nD τ).loc main_arg0)
abbrev argMask : SM.Idx → BitVec 1 := m ((c.tc : Thread nD τ).loc main_arg1)
abbrev argW : SW.Idx → EReal := m ((c.tc : Thread nD τ).loc main_arg2)
abbrev argBias : SB.Idx → EReal := m ((c.tc : Thread nD τ).loc main_arg3)

/-! ## What the first pallas_call finds and leaves -/

/-- The activations and the bias reach the first call as launched. -/
theorem V1_arg0 : (V1 (F := Ideal) m ρ c main_arg0 : SX.Idx → EReal) = argX m c :=
  (hostOps0_keeps (W0 m ρ c) main_arg0 (by decide)).trans rfl

theorem V1_arg3 : (V1 (F := Ideal) m ρ c main_arg3 : SB.Idx → EReal) = argBias m c :=
  (hostOps0_keeps (W0 m ρ c) main_arg3 (by decide)).trans rfl

/-- The weights reach it feature-major: W[g, d] at (d, g). -/
theorem V1_v1_apply (d : Fin 1024) (g : Fin 512) :
    (V1 (F := Ideal) m ρ c main_v1 : S1024x512.Idx → EReal) (ix2 d g) = argW m c (ix2 g d) :=
  (hostOps0_v1_apply (W0 m ρ c) d g).trans rfl

/-- So the array the first call leaves is the linear layer, position-major. -/
theorem Y0_lin (p : Fin 4096) (b : Fin 32) (g : Fin 512) :
    Y0 (V1 m ρ) c (ix3 p b g) = lin (argX m c) (argW m c) (argBias m c) b p g := by
  rw [Y0_ix3]
  unfold Yat lin
  refine congrArg₂ (fun u v : EReal => u + v) (Finset.sum_congr rfl fun d _ => ?_) ?_
  · exact congrArg₂ (fun u v : EReal => u * v) (congrFun (V1_arg0 m ρ c) (ix3 b p d)) (V1_v1_apply m ρ c d g)
  · exact congrFun (V1_arg3 m ρ c) (ix1 g)

/-! ## What the second pallas_call finds -/

/-- The linear layer's array reaches the second call as the first left it. -/
theorem V3_v2 : (V3 (F := Ideal) m ρ c main_v2 : S4096x32x512.Idx → EReal) = Y0 (V1 m ρ) c :=
  (hostOps1_keeps (W2 m ρ c) main_v2 (by decide)).trans ((W2_arr m ρ c 3).trans (arr0_final (V1 m ρ) c))

/-- The mask reaches the second host stretch as launched. -/
theorem W2_mask : (W2 (F := Ideal) m ρ c (Proc.devRef .tc main_arg1) : SM.Idx → BitVec 1) = argMask m c :=
  (W2_of_ne m ρ c main_arg1 (by decide)).trans ((hostOps0_keeps (W0 m ρ c) main_arg1 (by decide)).trans rfl)

/-- The flags' array holds 1 where a segment starts and 0 elsewhere. -/
theorem V3_v7_apply (t : Fin 4096) (b : Fin 32) :
    (V3 (F := Ideal) m ρ c main_v7 : S4096x32.Idx → EReal) (ix2 t b)
      = if starts (argMask m c) b t.val then (1 : EReal) else 0 := by
  have h := hostOps1_v7_apply (W2 m ρ c) t b
  rw [W2_mask m ρ c] at h
  exact h

/-! ## The two sequences of the recurrence, at the positions of the array -/

theorem flagAt_eq (b : Fin 32) (k : ℕ) (hk : k < 4096) :
    flagAt (V3 m ρ) c b k = if starts (argMask m c) b k then (1 : EReal) else 0 := by
  unfold flagAt
  rw [posOf_of_lt k hk]
  exact V3_v7_apply m ρ c ⟨k, hk⟩ b

theorem yAt_eq (b : Fin 32) (g : Fin 512) (k : ℕ) :
    yAt (V3 m ρ) c b g k = lin (argX m c) (argW m c) (argBias m c) b (posOf k) g := by
  unfold yAt
  exact (congrFun (V3_v2 m ρ c) (ix3 (posOf k) b g)).trans (Y0_lin m ρ c (posOf k) b g)

/-- The carried value after position p is the linear layer at the last segment start at or before p. -/
theorem state_eq (b : Fin 32) (g : Fin 512) (p : Fin 4096) :
    state (V3 m ρ) c b g p.val = Gat (argX m c) (argMask m c) (argW m c) (argBias m c) b p g := by
  have hp := p.isLt
  unfold state
  rw [carry_congr (flagAt (V3 m ρ) c b) (fun k => if starts (argMask m c) b k then (1 : EReal) else 0)
      (yAt (V3 m ρ) c b g) (fun k => lin (argX m c) (argW m c) (argBias m c) b (posOf k) g) 0 p.val
      (fun k hk => ⟨flagAt_eq m ρ c b k (by omega), yAt_eq m ρ c b g k⟩),
    carry_eq (argMask m c) b _ _ 0 (fun _ => rfl) p.val]
  unfold Gat
  refine congrArg (fun q => lin (argX m c) (argW m c) (argBias m c) b q g) (Fin.ext ?_)
  have hle := segStart_le (argMask m c) b p.val
  show min (segStart (argMask m c) b p.val) 4095 = segStart (argMask m c) b p.val
  exact Nat.min_eq_left (by omega)

/-! ## The result array -/

/-- THE KERNEL PROGRAM'S VALUE: given the second call's result array as the carried value position by position,
    the program's result array is the specification's function of the four arguments as launched. -/
theorem kernel_value_of
    (harr : (dat1 (F := Ideal) (V3 m ρ) c).arrAt 2 cfg1.N
      = fun i : S32x4096x512.Idx => state (V3 m ρ) c (i 0) (i 2) (i 1).val) :
    W4 (F := Ideal) m ρ c (Proc.devRef .tc main_v8)
      = Cert.FillSpec.G (m ((c.tc : Thread nD τ).loc main_arg0)) (m ((c.tc : Thread nD τ).loc main_arg1))
          (m ((c.tc : Thread nD τ).loc main_arg2)) (m ((c.tc : Thread nD τ).loc main_arg3)) := by
  refine (final_v8 m ρ c).trans (harr.trans ?_)
  funext i
  show state (V3 m ρ) c (i 0) (i 2) (i 1).val
    = Gat (argX m c) (argMask m c) (argW m c) (argBias m c) (i 0) (i 1) (i 2)
  exact state_eq m ρ c (i 0) (i 2) (i 1)

end Cert.KernelIdeal.HandValue

end
-- ==== Proof.RefInt.lean ====
/-
  Words and the running maximum, with no program in sight.

  Positions of a row are numbers below 4096, carried as 32-bit words read as signed integers.  The word
  `selW mask b u` is the position `u` itself where `u` starts a segment and the word -1 elsewhere.  Folding
  the signed maximum over positions `0 … t`, from the least signed word, leaves the last start at or before
  `t`: position 0 always starts a segment, a later start replaces a smaller one, and -1 never wins.
  Below the fold: the signed reading of a small word, and the comparisons a bounds check makes on it.
-/
import proofs.«134082_j74328704025133_1_alg».proof.Proof.FillSpec

namespace Cert.RefFill

open Idealize.ShloMosaic Idealize.ShloMosaic.ValueIdx Cert.FillSpec

/-! ## Small words read as signed integers -/

/-- A position below 4096 reads as itself. -/
theorem toInt_pos (n : ℕ) (h : n < 4096) : (BitVec.ofNat 32 n).toInt = (n : Int) := by
  rw [BitVec.toInt_eq_toNat_cond, BitVec.toNat_ofNat, Nat.mod_eq_of_lt (by omega)]
  split <;> omega

theorem toInt_negOne : (4294967295#32 : BitVec 32).toInt = -1 := by decide
theorem toInt_least : (2147483648#32 : BitVec 32).toInt = -2147483648 := by decide

/-- The least signed word loses every maximum. -/
theorem maxsi_least (x : BitVec 32) : IntOp.maxsi 2147483648#32 x = x := by
  unfold IntOp.maxsi
  rw [if_neg]
  simp only [BitVec.slt, toInt_least, decide_eq_true_eq, not_lt]
  have := BitVec.le_toInt x
  omega

/-- The maximum of two positions is the larger position. -/
theorem maxsi_pos (a c : ℕ) (ha : a < 4096) (hc : c < 4096) :
    IntOp.maxsi (BitVec.ofNat 32 a) (BitVec.ofNat 32 c) = BitVec.ofNat 32 (max a c) := by
  unfold IntOp.maxsi
  simp only [BitVec.slt, toInt_pos a ha, toInt_pos c hc, decide_eq_true_eq]
  split
  · rename_i h; rw [max_eq_left (by omega)]
  · rename_i h; rw [max_eq_right (by omega)]

/-- The word -1 loses to every position. -/
theorem maxsi_negOne (a : ℕ) (ha : a < 4096) : IntOp.maxsi (BitVec.ofNat 32 a) 4294967295#32 = BitVec.ofNat 32 a := by
  unfold IntOp.maxsi
  rw [if_pos]
  simp only [BitVec.slt, toInt_pos a ha, toInt_negOne, decide_eq_true_eq]
  omega

/-! ## The bounds check on a position: not negative, at least 0, at most 4095 -/

theorem slt_zero_pos (n : ℕ) (h : n < 4096) : IntOp.cmpi .slt (BitVec.ofNat 32 n) 0#32 = 0#1 := by
  have : (BitVec.ofNat 32 n).slt 0#32 = false := by
    simp only [BitVec.slt, toInt_pos n h, BitVec.toInt_zero, decide_eq_false_iff_not, not_lt]; omega
  show BitVec.ofBool ((BitVec.ofNat 32 n).slt 0#32) = 0#1
  rw [this]; rfl

theorem sge_zero_pos (n : ℕ) (h : n < 4096) : IntOp.cmpi .sge (BitVec.ofNat 32 n) 0#32 = 1#1 := by
  have : (0#32 : BitVec 32).sle (BitVec.ofNat 32 n) = true := by
    simp only [BitVec.sle, toInt_pos n h, BitVec.toInt_zero, decide_eq_true_eq]; omega
  show BitVec.ofBool ((0#32 : BitVec 32).sle (BitVec.ofNat 32 n)) = 1#1
  rw [this]; rfl

theorem sle_last_pos (n : ℕ) (h : n < 4096) : IntOp.cmpi .sle (BitVec.ofNat 32 n) 4095#32 = 1#1 := by
  have h4 : (4095#32 : BitVec 32).toInt = 4095 := by decide
  have : (BitVec.ofNat 32 n).sle 4095#32 = true := by
    simp only [BitVec.sle, toInt_pos n h, h4, decide_eq_true_eq]; omega
  show BitVec.ofBool ((BitVec.ofNat 32 n).sle 4095#32) = 1#1
  rw [this]; rfl

/-- A position, read signed and clamped into the row, is itself. -/
theorem clamp_pos (n : ℕ) (h : n < 4096) : min (BitVec.ofNat 32 n).toInt.toNat (4096 - 1) = n := by
  rw [toInt_pos n h, Int.toNat_natCast]; omega

/-! ## The running maximum of the start positions is the segment start -/

/-- The word a position contributes: itself where it starts a segment, -1 elsewhere. -/
def selW (mask : SM.Idx → BitVec 1) (b : Fin 32) (u : ℕ) : BitVec 32 :=
  if starts mask b u then BitVec.ofNat 32 u else 4294967295#32

/-- The signed maximum over positions `0 … t`, from the least word, of any words that agree with `selW` on those
    positions is the last start at or before `t`. -/
theorem foldl_selW (mask : SM.Idx → BitVec 1) (b : Fin 32) (g : ℕ → BitVec 32) (t : ℕ) (ht : t < 4096)
    (hg : ∀ u, u ≤ t → g u = selW mask b u) :
    (List.range (t + 1)).foldl (fun r u => IntOp.maxsi r (g u)) 2147483648#32
      = BitVec.ofNat 32 (segStart mask b t) := by
  induction t with
  | zero =>
    show IntOp.maxsi 2147483648#32 (g 0) = _
    rw [hg 0 le_rfl, maxsi_least, selW, if_pos (starts_zero mask b)]; rfl
  | succ t ih =>
    rw [List.range_succ, List.foldl_append, ih (by omega) (fun u hu => hg u (by omega))]
    show IntOp.maxsi _ (g (t + 1)) = _
    have hle := segStart_le mask b t
    rw [hg (t + 1) le_rfl, segStart_succ, selW]
    split
    · rw [maxsi_pos _ _ (by omega) ht, max_eq_right (by omega)]
    · rw [maxsi_negOne _ (by omega)]

/-- A fold over a window of `N + 1` slots that sees its initial value on the first `N - t` of them and the
    row's positions `0 … t` on the rest is the fold over those positions, when the initial value absorbs itself. -/
theorem foldl_padded {α : Type} (f : α → α → α) (v : α) (hv : f v v = v) (g : ℕ → α) (N t : ℕ) (ht : t ≤ N) :
    (List.range (N + 1)).foldl (fun r n => f r (if N ≤ t + n then g (t + n - N) else v)) v
      = (List.range (t + 1)).foldl (fun r u => f r (g u)) v := by
  have key : ∀ j, j ≤ t + 1 →
      (List.range (N - t + j)).foldl (fun r n => f r (if N ≤ t + n then g (t + n - N) else v)) v
        = (List.range j).foldl (fun r u => f r (g u)) v := by
    intro j
    induction j with
    | zero =>
      intro _
      show (List.range (N - t)).foldl _ v = v
      have pad : ∀ k, k ≤ N - t →
          (List.range k).foldl (fun r n => f r (if N ≤ t + n then g (t + n - N) else v)) v = v := by
        intro k
        induction k with
        | zero => intro _; rfl
        | succ k ihk =>
          intro hk
          rw [List.range_succ, List.foldl_append, ihk (by omega)]
          show f v (if N ≤ t + k then g (t + k - N) else v) = v
          rw [if_neg (by omega), hv]
      exact pad _ le_rfl
    | succ j ihj =>
      intro hj
      rw [← Nat.add_assoc, List.range_succ, List.foldl_append, ihj (by omega), List.range_succ, List.foldl_append]
      show f _ (if N ≤ t + (N - t + j) then g (t + (N - t + j) - N) else v) = f _ (g j)
      rw [if_pos (by omega)]
      congr 2
      omega
  have := key (t + 1) le_rfl
  rwa [show N - t + (t + 1) = N + 1 by omega] at this

end Cert.RefFill
-- ==== Proof.RefWindow.lean ====
/-
  A window that runs back along a row, read at an index, with no program in sight.

  Over a `32 × 4096` array the window `[1, 4096]` with 4095 slots of padding before each row reaches, at position
  `t` of row `b`, slot `n` of the window onto position `t + n - 4095` of the row when that is not negative, and onto
  padding otherwise.  Its fold is therefore a fold over the numbers `n = 0 … 4095` whose element is the row's entry at
  `t + n - 4095`, or the initial value on the padding.
-/
import Idealize.ShloMosaic.PureOps.Ideal
import Idealize.ShloMosaic.Lib.ValueIdx

namespace Cert.RefFill

open Idealize.ShloMosaic Idealize.ShloMosaic.ValueIdx

/-- A fold over the numbers below `N` as elements of `Fin N`, whose step reads only the number, is the fold over the numbers. -/
theorem foldl_finRange_val {α : Type} (N : ℕ) (F : α → ℕ → α) (v : α) :
    (List.finRange N).foldl (fun r n => F r n.val) v = (List.range N).foldl F v := by
  rw [← List.map_coe_finRange_eq_range, List.foldl_map]

/-- The window `[1, 4096]` has 4096 slots. -/
theorem window_numel : (⟨2, ![1, 4096]⟩ : Shape).numel = 4096 := by
  simp [Shape.numel, Fin.prod_univ_two]

/-- Slot `n` of the window `[1, 4096]` sits at row offset 0 and column offset `n`. -/
theorem window_coords (n : Fin (⟨2, ![1, 4096]⟩ : Shape).numel) :
    (((⟨2, ![1, 4096]⟩ : Shape).rowMajor.symm n) 0).val = 0 ∧ (((⟨2, ![1, 4096]⟩ : Shape).rowMajor.symm n) 1).val = n.val := by
  have h := Shape.rowMajor_val_two ((⟨2, ![1, 4096]⟩ : Shape).rowMajor.symm n)
  rw [Equiv.apply_symm_apply] at h
  have h0 : (((⟨2, ![1, 4096]⟩ : Shape).rowMajor.symm n) 0).val < 1 := (((⟨2, ![1, 4096]⟩ : Shape).rowMajor.symm n) 0).isLt
  have h1 : (![1, 4096] : Fin 2 → ℕ) 1 = 4096 := rfl
  rw [h1] at h
  constructor
  · omega
  · omega

/-- Two rank-2 indices with equal coordinates are equal. -/
theorem ix2_congr {n0 n1 : ℕ} {a a' : Fin n0} {c c' : Fin n1} (ha : a.val = a'.val) (hc : c.val = c'.val) :
    ix2 a c = ix2 a' c' := by
  obtain rfl := Fin.ext ha
  obtain rfl := Fin.ext hc
  rfl

/-- The element slot `n` of the window contributes at position `t` of row `b`. -/
def windowElt {α : Type} (x : (⟨2, ![32, 4096]⟩ : Shape).Idx → α) (v : α) (b : Fin 32) (t n : ℕ) : α :=
  if 4095 ≤ t + n then (if hlt : t + n - 4095 < 4096 then x (ix2 b ⟨t + n - 4095, hlt⟩) else v) else v

/-- THE WINDOW READ AT `(b, t)`: a fold over the slot numbers. -/
theorem reduceWindow_row {α : Type} {u : Shape} (f : α → α → α) (x : (⟨2, ![32, 4096]⟩ : Shape).Idx → α) (init : u.Idx → α)
    (h : (⟨2, ![32, 4096]⟩ : Shape).ReduceWindows (![1, 4096] : Fin 2 → Nat) ![1, 1] ![0, 4095] ![0, 0] ⟨2, ![32, 4096]⟩)
    (hu : 0 < u.numel) (b : Fin 32) (t : Fin 4096) :
    Host.reduceWindow f ![1, 4096] ![1, 1] ![0, 4095] ![0, 0] x init h hu (ix2 b t)
      = (List.range 4096).foldl (fun r n => f r (windowElt x (init (Shape.Idx.first hu)) b t.val n)) (init (Shape.Idx.first hu)) := by
  unfold Host.reduceWindow
  generalize init (Shape.Idx.first hu) = v
  have hR : (List.range 4096).foldl (fun r n => f r (windowElt x v b t.val n)) v
      = (List.finRange (⟨2, ![1, 4096]⟩ : Shape).numel).foldl (fun r n => f r (windowElt x v b t.val n.val)) v := by
    rw [foldl_finRange_val (⟨2, ![1, 4096]⟩ : Shape).numel (fun r n => f r (windowElt x v b t.val n)) v, window_numel]
  rw [hR]
  dsimp only
  congr 1
  funext r n
  congr 1
  obtain ⟨c0, c1⟩ := window_coords n
  have ht := t.isLt
  have hn : n.val < 4096 := lt_of_lt_of_eq n.isLt window_numel
  unfold windowElt
  by_cases hp : 4095 ≤ t.val + n.val
  · have hlt : t.val + n.val - 4095 < 4096 := by omega
    rw [if_pos hp, dif_pos hlt, dif_pos]
    · refine congrArg x ((eq_ix2 _).trans (ix2_congr ?_ ?_))
      · show b.val * 1 + _ - 0 = b.val
        rw [c0]; omega
      · show t.val * 1 + _ - 4095 = t.val + n.val - 4095
        rw [c1]; omega
    · refine Fin.forall_fin_two.2 ⟨?_, ?_⟩
      · show 0 ≤ b.val * 1 + _ ∧ b.val * 1 + _ - 0 < 32
        rw [c0]; have := b.isLt; omega
      · show 4095 ≤ t.val * 1 + _ ∧ t.val * 1 + _ - 4095 < 4096
        rw [c1]; omega
  · rw [if_neg hp, dif_neg]
    intro hall
    have e : 4095 ≤ t.val * 1 + _ := (hall 1).1
    rw [c1] at e
    omega

end Cert.RefFill
-- ==== Proof.RefLayout.lean ====
/-
  Two small operations read at an index, with no program in sight.

  A one-column piece joined in front of a `32 × 4095` piece along axis 1: column 0 of the result is the first
  piece's column, column `t + 1` is the second piece's column `t`.
  An and-reduction of one-bit words all of which are 1, from the word 1, is 1 at every index of the result.
-/
import Idealize.ShloMosaic.Lib.Pipeline.Value
import Idealize.ShloMosaic.Lib.ValueIdx

namespace Cert.RefFill

open Idealize.ShloMosaic Idealize.ShloMosaic.ValueIdx

/-- Column 0 of the join is the leading piece. -/
theorem concat_col_zero {α : Type} (x₁ : (⟨2, ![32, 1]⟩ : Shape).Idx → α) (x₂ : (⟨2, ![32, 4095]⟩ : Shape).Idx → α)
    (h : Shape.Concatenates [(⟨2, ![32, 1]⟩ : Shape), ⟨2, ![32, 4095]⟩] ⟨2, ![32, 4096]⟩ 1) (b : Fin 32) :
    concatenate ⟨2, ![32, 4096]⟩ 1 [⟨⟨2, ![32, 1]⟩, x₁⟩, ⟨⟨2, ![32, 4095]⟩, x₂⟩] h (ix2 b (0 : Fin 4096))
      = x₁ (ix2 b (0 : Fin 1)) :=
  concatenate_pair_apply_left 1 x₁ x₂ h (ix2 b (0 : Fin 4096)) rfl (ix2 b (0 : Fin 1))
    (fun a => match a with | ⟨0, _⟩ => rfl | ⟨1, _⟩ => rfl)

/-- Column `t + 1` of the join is column `t` of the second piece. -/
theorem concat_col_succ {α : Type} (x₁ : (⟨2, ![32, 1]⟩ : Shape).Idx → α) (x₂ : (⟨2, ![32, 4095]⟩ : Shape).Idx → α)
    (h : Shape.Concatenates [(⟨2, ![32, 1]⟩ : Shape), ⟨2, ![32, 4095]⟩] ⟨2, ![32, 4096]⟩ 1) (b : Fin 32) (t : ℕ) (ht : t + 1 < 4096) :
    concatenate ⟨2, ![32, 4096]⟩ 1 [⟨⟨2, ![32, 1]⟩, x₁⟩, ⟨⟨2, ![32, 4095]⟩, x₂⟩] h (ix2 b (⟨t + 1, ht⟩ : Fin 4096))
      = x₂ (ix2 b (⟨t, by omega⟩ : Fin 4095)) :=
  concatenate_pair_apply_right 1 x₁ x₂ h (ix2 b (⟨t + 1, ht⟩ : Fin 4096)) rfl rfl (ix2 b (⟨t, by omega⟩ : Fin 4095))
    (fun a hne => match a, hne with
      | ⟨0, _⟩, _ => rfl
      | ⟨1, _⟩, hne => absurd rfl hne)
    rfl

/-- A left fold by `and` from 1 over words that are all 1 is 1. -/
theorem foldl_andi_one {ι : Type} (fn : ι → BitVec 1) :
    ∀ l : List ι, (∀ n ∈ l, fn n = 1#1) → l.foldl (fun r n => IntOp.andi r (fn n)) 1#1 = 1#1
  | [], _ => rfl
  | a :: l, h => by
    rw [List.foldl_cons, h a List.mem_cons_self]
    have e : IntOp.andi (1#1 : BitVec 1) 1#1 = 1#1 := by decide
    rw [e]
    exact foldl_andi_one fn l (fun n hn => h n (List.mem_cons_of_mem _ hn))

/-- An and-reduction from 1 of an array that is 1 everywhere is 1 everywhere. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  unfold Host.reduce
  rw [hinit]
  exact foldl_andi_one (fun n => x (s.rowMajor.symm n)) _ (fun n _ => hx _)

end Cert.RefFill
-- ==== Proof.RefIdx.lean ====
/-
  The index half of the reference, read at an index.

  From the mask alone the reference computes, for every position `t` of every row `b`, the position its result row is
  taken from.  Stage by stage: the condition `cond[b, t]` (position 0, or the mask set just before `t`) is the join of
  a column of ones with the mask's first 4095 columns; `sel[b, t]` is `t` where the condition holds and -1 elsewhere;
  the running signed maximum of `sel` along the row is the last start at or before `t`; that number is not negative
  and at most 4095, so the wrap-around branch is not taken and the bounds check passes everywhere.
-/
import proofs.«134082_j74328704025133_1_alg».proof.Proof.RefReadP
import proofs.«134082_j74328704025133_1_alg».proof.Proof.RefInt
import proofs.«134082_j74328704025133_1_alg».proof.Proof.RefWindow
import proofs.«134082_j74328704025133_1_alg».proof.Proof.RefLayout

namespace Cert.RefFill

open Cert.ReferenceIdeal Cert.ReferenceIdeal.Gen Cert.ReferenceIdeal.Read Idealize.ShloMosaic Idealize.ShloMosaic.ValueIdx
  Cert.FillSpec

/-- The condition at position 0 is the leading column of ones. -/
theorem cond_zero (x1 : SM.Idx → BitVec 1) (b : Fin 32) (h0 : 0 < 4096) :
    val_main_v7 (F := Ideal) x1 (ix2 b (⟨0, h0⟩ : Fin 4096)) = 1#1 := by
  unfold val_main_v7
  refine (concat_col_zero _ _ _ b).trans ?_
  rw [val_main_v5_apply, val_main_c_apply]

/-- The condition at a later position is the mask just before it. -/
theorem cond_succ (x1 : SM.Idx → BitVec 1) (b : Fin 32) (t : ℕ) (ht : t + 1 < 4096) :
    val_main_v7 (F := Ideal) x1 (ix2 b (⟨t + 1, ht⟩ : Fin 4096)) = x1 (ix2 b (⟨t, by omega⟩ : Fin 4096)) := by
  unfold val_main_v7
  refine (concat_col_succ _ _ _ b t ht).trans ?_
  rw [val_main_v6_apply]
  exact congrArg x1 (funext fun a => by match a with | ⟨0, _⟩ => rfl | ⟨1, _⟩ => rfl)

/-- `sel[b, u]`: the position where it starts a segment, -1 elsewhere. -/
theorem sel_apply (x1 : SM.Idx → BitVec 1) (b : Fin 32) (u : Fin 4096) :
    val_main_v9 (F := Ideal) x1 (ix2 b u) = selW x1 b u.val := by
  rw [val_main_v9_apply, val_main_call0_v1_apply, val_main_v8_apply, val_main_v4_apply, val_main_call0_v2_apply,
    val_main_call0_v0_apply, val_main_c_0_apply]
  show Scalar.select (val_main_v7 (F := Ideal) x1 (ix2 b u)) (BitVec.ofNat 32 u.val) 4294967295#32 = _
  obtain ⟨u, hu⟩ := u
  cases u with
  | zero =>
    rw [cond_zero x1 b hu, select_one, selW, if_pos (starts_zero x1 b)]
  | succ t =>
    rw [cond_succ x1 b t hu, selW]
    unfold Scalar.select
    by_cases hm : x1 (ix2 b (⟨t, by omega⟩ : Fin 4096)) = (1 : BitVec 1)
    · rw [if_pos hm, if_pos ((starts_succ x1 b t (by omega)).2 hm)]
    · rw [if_neg hm, if_neg (fun h => hm ((starts_succ x1 b t (by omega)).1 h))]

/-- The running maximum at `(b, t)` is the last segment start at or before `t`. -/
theorem cummax_apply (x1 : SM.Idx → BitVec 1) (b : Fin 32) (t : Fin 4096) :
    val_main_v10 (F := Ideal) x1 (ix2 b t) = BitVec.ofNat 32 (segStart x1 b t.val) := by
  unfold val_main_v10
  generalize hx : val_main_v9 (F := Ideal) x1 = x
  refine (reduceWindow_row IntOp.maxsi x _ _ _ b t).trans ?_
  rw [val_main_call1_v0_apply, val_main_call1_c_apply]
  have ht := t.isLt
  refine (foldl_padded IntOp.maxsi 2147483648#32 (maxsi_least _)
    (fun u => if hlt : u < 4096 then x (ix2 b (⟨u, hlt⟩ : Fin 4096)) else 2147483648#32) 4095 t.val (by omega)).trans ?_
  refine foldl_selW x1 b _ t.val ht (fun u hu => ?_)
  have hlt : u < 4096 := by omega
  show (if hlt : u < 4096 then x (ix2 b (⟨u, hlt⟩ : Fin 4096)) else 2147483648#32) = _
  rw [dif_pos hlt, ← hx, sel_apply]

theorem idx_v11 (b : Fin 32) (t : Fin 4096) : idx_main_v11 (ix3 b t (0 : Fin 1)) = ix2 b t :=
  funext fun a => by match a with | ⟨0, _⟩ => rfl | ⟨1, _⟩ => rfl

/-- The start index handed to the gather at `(b, t, 0)` is the segment start: the running maximum is not negative,
    so the wrap-around branch keeps it. -/
theorem start_apply (x1 : SM.Idx → BitVec 1) (b : Fin 32) (t : Fin 4096) :
    val_main_call2_v4 (F := Ideal) x1 (ix3 b t (0 : Fin 1)) = BitVec.ofNat 32 (segStart x1 b t.val) := by
  have hs : segStart x1 b t.val < 4096 := lt_of_le_of_lt (segStart_le x1 b t.val) t.isLt
  have h11 : val_main_v11 (F := Ideal) x1 (ix3 b t (0 : Fin 1)) = BitVec.ofNat 32 (segStart x1 b t.val) := by
    rw [val_main_v11_apply, idx_v11, cummax_apply]
  rw [val_main_call2_v4_apply, val_main_call2_v1_apply, h11, val_main_call2_v0_apply, val_main_call2_c_apply,
    slt_zero_pos _ hs, select_zero]

/-- The bounds check passes at every index. -/
theorem check_apply (x1 : SM.Idx → BitVec 1) (i : S32x4096x1.Idx) : val_main_call2_v10 (F := Ideal) x1 i = 1#1 := by
  obtain ⟨b, t, z, rfl⟩ : ∃ (b : Fin 32) (t : Fin 4096) (z : Fin 1), i = ix3 b t z := ⟨i 0, i 1, i 2, eq_ix3 i⟩
  obtain rfl : z = 0 := Subsingleton.elim _ _
  have hs : segStart x1 b t.val < 4096 := lt_of_le_of_lt (segStart_le x1 b t.val) t.isLt
  rw [val_main_call2_v10_apply, val_main_call2_v6_apply, val_main_call2_v9_apply, start_apply, val_main_call2_v5_apply,
    val_main_call2_c_2_apply, val_main_call2_v8_apply, val_main_call2_v7_apply, val_main_call2_c_1_apply,
    sge_zero_pos _ hs, sle_last_pos _ hs]
  decide

/-- So its and-reduction over the unit axis is 1 everywhere. -/
theorem inrange_apply (x1 : SM.Idx → BitVec 1) (j : S32x4096.Idx) : val_main_call2_v11 (F := Ideal) x1 j = 1#1 := by
  unfold val_main_call2_v11
  exact reduce_andi_of_all _ _ _ _ (by rw [val_main_call2_c_3_apply]) (check_apply x1) j

end Cert.RefFill
-- ==== Proof.RefLin.lean ====
/-
  The linear layer of the reference, read at an index: the row of `x` against the row of `W`, plus the bias.
-/
import proofs.«134082_j74328704025133_1_alg».proof.Proof.RefReadP
import proofs.«134082_j74328704025133_1_alg».proof.Proof.FillSpec

open scoped BigOperators

namespace Cert.RefFill

open Cert.ReferenceIdeal Cert.ReferenceIdeal.Gen Cert.ReferenceIdeal.Read Idealize.ShloMosaic Idealize.ShloMosaic.ValueIdx
  Cert.FillSpec

theorem lin_apply (x0 : SX.Idx → EReal) (x2 : SW.Idx → EReal) (x3 : SB.Idx → EReal) (b : Fin 32) (s : Fin 4096) (g : Fin 512) :
    val_main_v3 (F := Ideal) x0 x2 x3 (ix3 b s g) = lin x0 x2 x3 b s g := by
  have el : ∀ k : Fin 1024, lidx_main_v0 (ix3 b s g) k = ix3 b s k := fun k =>
    funext fun a => by match a with | ⟨0, _⟩ => rfl | ⟨1, _⟩ => rfl | ⟨2, _⟩ => rfl
  have er : ∀ k : Fin 1024, ridx_main_v0 (ix3 b s g) k = ix2 g k := fun k =>
    funext fun a => by match a with | ⟨0, _⟩ => rfl | ⟨1, _⟩ => rfl
  have eb : idx_main_v1 (idx_main_v2 (ix3 b s g)) = ix1 g :=
    funext fun a => by match a with | ⟨0, _⟩ => rfl
  rw [val_main_v3_apply, val_main_v0_apply, val_main_v2_apply, val_main_v1_apply, eb]
  simp only [el, er]
  rfl

end Cert.RefFill
-- ==== Proof.RefGather.lean ====
/-
  Rows of a `32 × 4096 × 512` array gathered at a `32 × 4096 × 1` array of start positions, read at an index, with
  no program in sight.

  The dimension numbers are those of taking along axis 1 row by row: axis 0 is a batching axis on both sides, axis 1
  of the operand is collapsed and is the one the start index addresses, axis 2 is carried over whole.  Result element
  `(b, t, g)` is therefore the operand at `(b, p, g)` where `p` is the start index at `(b, t, 0)`, read as a signed
  integer and clamped into `[0, 4095]`.
-/
import Idealize.ShloMosaic.PureOps.Ideal
import Idealize.ShloMosaic.Lib.ValueIdx

namespace Cert.RefFill

open Idealize.ShloMosaic Idealize.ShloMosaic.ValueIdx

/-- Those dimension numbers; their conditions `wf` are decided on the literal shapes. -/
abbrev rowDims (wf : GatherDims.WF ⟨3, ![32, 4096, 512]⟩ ⟨3, ![32, 4096, 1]⟩ ⟨3, ![32, 4096, 512]⟩ [2] [1] [0] [1] [0] 2 ![1, 1, 512]) :
    GatherDims ⟨3, ![32, 4096, 512]⟩ ⟨3, ![32, 4096, 1]⟩ ⟨3, ![32, 4096, 512]⟩ where
  offsetDims := [2]
  collapsedSliceDims := [1]
  operandBatchingDims := [0]
  startIndicesBatchingDims := [0]
  startIndexMap := [1]
  indexVectorDim := 2
  sliceSizes := ![1, 1, 512]
  wf := wf

/-- THE GATHER READ AT `(b, t, g)`: the operand's row `b` at the start index `idx[b, t, 0]`, read signed and clamped,
    at coordinate `g`. -/
theorem gather_row_apply {α : Type} {w : ℕ}
    (wf : GatherDims.WF ⟨3, ![32, 4096, 512]⟩ ⟨3, ![32, 4096, 1]⟩ ⟨3, ![32, 4096, 512]⟩ [2] [1] [0] [1] [0] 2 ![1, 1, 512])
    (x : (⟨3, ![32, 4096, 512]⟩ : Shape).Idx → α) (idx : IVec ⟨3, ![32, 4096, 1]⟩ w) (b : Fin 32) (t : Fin 4096) (g : Fin 512) :
    Host.gather (rowDims wf) x idx (ix3 b t g)
      = x (ix3 b ⟨min (idx (ix3 b t (0 : Fin 1))).toInt.toNat (4096 - 1), by omega⟩ g) := by
  unfold Host.gather
  congr 1
  funext a
  refine Fin.ext ?_
  match a with
  | ⟨0, _⟩ =>
    show (rowDims wf).start (ix3 b t g) idx (0 : Fin 3) + (rowDims wf).batchCoord (ix3 b t g) (0 : Fin 3)
      + (rowDims wf).offCoord (ix3 b t g) (0 : Fin 3) = b.val
    have hb : (0 : Fin 3) ∈ (rowDims wf).operandBatchingDims := List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb]
    simp only [Nat.zero_add, Nat.add_zero]
    rfl
  | ⟨1, _⟩ =>
    show (rowDims wf).start (ix3 b t g) idx (1 : Fin 3) + (rowDims wf).batchCoord (ix3 b t g) (1 : Fin 3)
      + (rowDims wf).offCoord (ix3 b t g) (1 : Fin 3) = min (idx (ix3 b t (0 : Fin 1))).toInt.toNat (4096 - 1)
    have hc : (1 : Fin 3) ∈ (rowDims wf).collapsedSliceDims := List.mem_singleton.mpr rfl
    have hm : (1 : Fin 3) ∈ (rowDims wf).startIndexMap := List.mem_singleton.mpr rfl
    rw [GatherDims.batchCoord_eq_zero _ _ _ (show (1 : Fin 3) ∉ ([0] : List (Fin 3)) by decide),
      GatherDims.offCoord_eq_zero _ _ _ (fun h => ((GatherDims.mem_sKept _ _).mp h).1 hc)]
    simp only [Nat.add_zero]
    unfold GatherDims.start
    rw [dif_pos hm]
    have hsi : (rowDims wf).siIdx (ix3 b t g) ⟨List.idxOf (1 : Fin 3) (rowDims wf).startIndexMap,
        List.idxOf_lt_length_iff.2 hm⟩ = ix3 b t (0 : Fin 1) := by
      funext c; refine Fin.ext ?_
      match c with
      | ⟨0, _⟩ => rfl
      | ⟨1, _⟩ => rfl
      | ⟨2, _⟩ => rfl
    rw [hsi]
    rfl
  | ⟨2, _⟩ =>
    show (rowDims wf).start (ix3 b t g) idx (2 : Fin 3) + (rowDims wf).batchCoord (ix3 b t g) (2 : Fin 3)
      + (rowDims wf).offCoord (ix3 b t g) (2 : Fin 3) = g.val
    have hk : (2 : Fin 3) ∈ (rowDims wf).sKept := (GatherDims.mem_sKept _ _).mpr
      ⟨show (2 : Fin 3) ∉ ([1] : List (Fin 3)) by decide, show (2 : Fin 3) ∉ ([0] : List (Fin 3)) by decide⟩
    rw [GatherDims.batchCoord_eq_zero _ _ _ (show (2 : Fin 3) ∉ ([0] : List (Fin 3)) by decide)]
    unfold GatherDims.start GatherDims.offCoord
    rw [dif_neg (show (2 : Fin 3) ∉ ([1] : List (Fin 3)) by decide), dif_pos hk]
    simp only [Nat.zero_add, Nat.add_zero]
    rfl

end Cert.RefFill
-- ==== Proof.RefSide.lean ====
/-
  The reference's result is the specification: every element of its last stage is the linear layer's row at the
  segment start.

  At `(b, t, g)` the bounds check passes, so the final select keeps the gathered element; the gather reads the linear
  layer at `(b, p, g)` with `p` the start index at `(b, t, 0)`, read signed and clamped into the row; the start index
  is the segment start, a position of the row, so the clamp leaves it alone.
-/
import proofs.«134082_j74328704025133_1_alg».proof.Proof.RefReadP
import proofs.«134082_j74328704025133_1_alg».proof.Proof.FillSpec
import proofs.«134082_j74328704025133_1_alg».proof.Proof.RefIdx
import proofs.«134082_j74328704025133_1_alg».proof.Proof.RefLin
import proofs.«134082_j74328704025133_1_alg».proof.Proof.RefGather

namespace Cert.RefFill

open Cert.ReferenceIdeal Cert.ReferenceIdeal.Gen Cert.ReferenceIdeal.Read Idealize.ShloMosaic Idealize.ShloMosaic.ValueIdx
  Cert.FillSpec

/-- The last stage, as a function of the four arguments, is `G`. -/
theorem val_eq_G (x0 : SX.Idx → EReal) (x1 : SM.Idx → BitVec 1) (x2 : SW.Idx → EReal) (x3 : SB.Idx → EReal) :
    val_main_v12 (F := Ideal) x0 x1 x2 x3 = G x0 x1 x2 x3 := by
  funext i
  obtain ⟨b, t, g, rfl⟩ : ∃ (b : Fin 32) (t : Fin 4096) (g : Fin 512), i = ix3 b t g := ⟨i 0, i 1, i 2, eq_ix3 i⟩
  rw [G_ix3, val_main_v12_apply, val_main_call2_v13_apply, inrange_apply, select_one]
  unfold val_main_call2_v12 Gat
  generalize hy : val_main_v3 (F := Ideal) x0 x2 x3 = y
  generalize hidx : val_main_call2_v4 (F := Ideal) x1 = idx
  refine (gather_row_apply _ y idx b t g).trans ?_
  have hs : segStart x1 b t.val < 4096 := lt_of_le_of_lt (segStart_le x1 b t.val) t.isLt
  have hv : idx (ix3 b t (0 : Fin 1)) = BitVec.ofNat 32 (segStart x1 b t.val) := by rw [← hidx, start_apply]
  have hp : ∀ p : Fin 4096, p.val = segStart x1 b t.val → y (ix3 b p g) = lin x0 x2 x3 b (segStartFin x1 b t) g := by
    intro p hp
    obtain rfl : p = segStartFin x1 b t := Fin.ext hp
    rw [← hy, lin_apply]
  refine hp _ ?_
  show min (idx (ix3 b t (0 : Fin 1))).toInt.toNat (4096 - 1) = _
  rw [hv, clamp_pos _ hs]

end Cert.RefFill
-- ==== Proof.RefRun.lean ====
/-
  The reference's run, read back to the specification.

  The reference is a straight line of 41 tensor operations.  Every weakly fair execution ends with each buffer at the
  fold of the operations' results over the launch contents.  That fold is read here in four stretches, naming the
  contents reached after each: after the linear layer and the operands of the join; after the running maximum; after
  the start indices; and to the end.  Across a stretch only the few buffers later operations read are carried, each
  as a stage of the arguments, so no term ever holds more than one copy of an earlier stage.  The last stage is the
  specification `G` (index by index, in the module before this one); the four arguments end unchanged.
-/
import proofs.«134082_j74328704025133_1_alg».proof.Proof.RefReadP
import proofs.«134082_j74328704025133_1_alg».proof.Proof.RefSide

namespace Cert.RefFill

open Cert.ReferenceIdeal Cert.ReferenceIdeal.Gen Cert.ReferenceIdeal.Value Cert.ReferenceIdeal.Read Idealize.ShloMosaic
  Idealize.ShloMosaic.TcCoe Idealize.SL.Sem Idealize.ShloMosaic.StableHlo Cert.FillSpec

/-- Naming the contents a line of operations has reached: a property of what a further line leaves, proved for any
    contents equal to those. -/
theorem after_named {τ : Topo} {sig : RefSig} {Val : EltTy → Type} (l : List (HloOp τ sig Val)) (X : Valuation τ sig Val)
    (P : Valuation τ sig Val → Prop) (h : ∀ W : Valuation τ sig Val, W = X → P (after l W)) : P (after l X) := h X rfl

set_option maxHeartbeats 1600000 in
/-- After the 41 operations the result buffer holds the last stage of the four arguments. -/
theorem after_result (m : (ℓ : Loc nD τ sig) → Buf (Elt Ideal) ℓ) (c : Dev nD) :
    after (ops (F := Ideal)) (launchContents m c) (Proc.devRef .tc main_v12)
      = val_main_v12 (F := Ideal) (m ((c.tc : Thread nD τ).loc main_arg0)) (m ((c.tc : Thread nD τ).loc main_arg1)) (m ((c.tc : Thread nD τ).loc main_arg2)) (m ((c.tc : Thread nD τ).loc main_arg3)) := by
  -- the linear layer, the positions, the column of ones and the mask's first columns
  rw [after_cons, after_cons, after_cons, after_cons, after_cons, after_cons, after_cons, after_cons]
  refine after_named _ _ (fun A => A (Proc.devRef .tc main_v12) = _) (fun W₁ hW₁ => ?_)
  have h3 : W₁ (Proc.devRef .tc main_v3) = val_main_v3 (F := Ideal) (m ((c.tc : Thread nD τ).loc main_arg0)) (m ((c.tc : Thread nD τ).loc main_arg2)) (m ((c.tc : Thread nD τ).loc main_arg3)) := by
    rw [hW₁]; after_results_simp; rfl
  have h4 : W₁ (Proc.devRef .tc main_v4) = val_main_v4 (F := Ideal) := by
    rw [hW₁]; after_results_simp; rfl
  have h5 : W₁ (Proc.devRef .tc main_v5) = val_main_v5 (F := Ideal) := by
    rw [hW₁]; after_results_simp; rfl
  have h6 : W₁ (Proc.devRef .tc main_v6) = val_main_v6 (F := Ideal) (m ((c.tc : Thread nD τ).loc main_arg1)) := by
    rw [hW₁]; after_results_simp; rfl
  clear hW₁
  -- the join, the selected positions, their running maximum
  rw [after_cons, after_cons, after_cons, after_cons, after_cons, after_cons, after_cons, after_cons, after_cons, after_cons,
    after_cons]
  refine after_named _ _ (fun A => A (Proc.devRef .tc main_v12) = _) (fun W₂ hW₂ => ?_)
  have k3 : W₂ (Proc.devRef .tc main_v3) = val_main_v3 (F := Ideal) (m ((c.tc : Thread nD τ).loc main_arg0)) (m ((c.tc : Thread nD τ).loc main_arg2)) (m ((c.tc : Thread nD τ).loc main_arg3)) := by
    rw [hW₂]; after_results_simp; exact h3
  have k11 : W₂ (Proc.devRef .tc main_v11) = val_main_v11 (F := Ideal) (m ((c.tc : Thread nD τ).loc main_arg1)) := by
    rw [hW₂]; after_results_simp
    simp only [TRef.ofBuf, TRef.toBuf, cast_eq]
    rw [h4, h5, h6]; rfl
  clear hW₂ h3 h4 h5 h6
  -- the start indices
  rw [after_cons, after_cons, after_cons, after_cons, after_cons, after_cons, after_cons]
  refine after_named _ _ (fun A => A (Proc.devRef .tc main_v12) = _) (fun W₃ hW₃ => ?_)
  have j3 : W₃ (Proc.devRef .tc main_v3) = val_main_v3 (F := Ideal) (m ((c.tc : Thread nD τ).loc main_arg0)) (m ((c.tc : Thread nD τ).loc main_arg2)) (m ((c.tc : Thread nD τ).loc main_arg3)) := by
    rw [hW₃]; after_results_simp; exact k3
  have j4 : W₃ (Proc.devRef .tc main_call2_v4) = val_main_call2_v4 (F := Ideal) (m ((c.tc : Thread nD τ).loc main_arg1)) := by
    rw [hW₃]; after_results_simp
    simp only [TRef.ofBuf, TRef.toBuf, cast_eq]
    rw [k11]; rfl
  clear hW₃ k3 k11
  -- the bounds check, the gather, the final select
  after_results_simp
  simp only [TRef.ofBuf, TRef.toBuf, cast_eq]
  rw [j3, j4]; rfl

/-- THE REFERENCE'S RUN: on every device, from any memory with zero counters, every weakly fair execution of the
    reference terminates with its result at the specification `G` of the four arguments and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12) = G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v12).trans ((after_result m c).trans (val_eq_G _ _ _ _)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.RefFill
-- ==== Proof.lean ====
/-
  Two programs computing a forward-filled linear layer are shown equal on the extended reals.

  With x : [32, 4096, 1024], a mask : [32, 4096], W : [512, 1024] and a bias : [512], let
      y[b, s, g] = (∑ d, x[b, s, d] · W[g, d]) + bias[g].
  Position t of batch row b STARTS a segment when t = 0 or the mask is set at position t − 1; the result at
  (b, t, g) is y at the last start at or before t (proof/Proof/FillSpec.lean, `G`).

  The kernel program computes y in a first grid of 64 points, one block of 64 positions per point (a matrix product
  into a zero accumulator plus the bias row; the roundings to a narrower float format on the way are the identity on
  the extended reals), then sweeps the positions in a second grid of 64 points, 64 steps per point, carrying one row
  forward:  carried ← c · y_t + (1 − c) · carried  with c the start flag (1 or 0) of the position.  With c = 1 this is
  y_t + 0 · carried = y_t — on the extended reals 0 · v = 0 for every v, so no finiteness of the inputs is used — and
  with c = 0 it is the carried row unchanged; position 0 always starts a segment, so the carried row at t is y at the
  last start (proof/Proof/FillCarry.lean).  The row is handed from one grid point to the next through a scratch
  buffer that the first point clears.  The reference computes the same y, takes a running maximum of "t if t starts a
  segment, else −1" along each row — the last start at or before t, never negative — and gathers y there.

  The three frames: the two kernel programs run to the end, fault nowhere and leave their arguments unchanged by one
  proof written over any float instance — @main as two host stretches and two kernel regions, the second region's
  invariant between points holding the carried row at what the point before left (proof/Proof/Assemble.lean and, for
  the word-level program, its copy with the program's name substituted); the reference's frame is its run with the
  result forgotten.  No operation of the kernel was rewritten by the idealization, so the two kernel programs are the
  same text at two instances and nothing is owed for their agreement beyond that.
-/
import proofs.«134082_j74328704025133_1_alg».proof.Defs
import proofs.«134082_j74328704025133_1_alg».proof.Proof.Gen.Kernel
import proofs.«134082_j74328704025133_1_alg».proof.Proof.Gen.KernelIdeal
import proofs.«134082_j74328704025133_1_alg».proof.Proof.Gen.ReferenceIdeal
import proofs.«134082_j74328704025133_1_alg».proof.Proof.Gen.Pre_finite_inputs
import proofs.«134082_j74328704025133_1_alg».proof.Proof.WAssemble
import proofs.«134082_j74328704025133_1_alg».proof.Proof.ScanGlobal
import proofs.«134082_j74328704025133_1_alg».proof.Proof.KernelValue
import proofs.«134082_j74328704025133_1_alg».proof.Proof.RefRun

noncomputable section

namespace Cert.Proof

open Idealize.ShloMosaic Idealize.SL.Sem

/-- The word-level kernel program runs, faults nowhere, and leaves its arguments unchanged. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference's frame is its run with the result forgotten. -/
theorem frame_ri : Cert.frame_ReferenceIdeal := fun m ρ _ =>
  (θ_run Cert.ReferenceIdeal.defs _ _).mono (fun _ h c => (h c).2) (Cert.RefFill.ref_run m ρ)

/-- The idealization rewrote no operation. -/
theorem preserves : Cert.preserves_Kernel_KernelIdeal := trivial

/-- Both idealized programs, run from memories agreeing on the arguments, end with the result array at the
    forward-filled linear layer of the arguments. -/
theorem algebraic : Cert.algebraic_KernelIdeal_ReferenceIdeal := by
  intro m ρ m' ρ' _ hagree
  refine ⟨fun c => Cert.FillSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ?_) (Cert.KernelIdeal.Hand.run_all (F := Ideal) m ρ)
    exact ⟨(h c _ (Cert.KernelIdeal.Hand.mem_uc Cert.KernelIdeal.main_v8 (by decide))).trans
        (Cert.KernelIdeal.HandValue.kernel_value_of m ρ c (Cert.KernelIdeal.HandValue.arr1_final (Cert.KernelIdeal.Hand.V3 m ρ) c)),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c)⟩
  · refine (θ_run Cert.ReferenceIdeal.defs _ _).mono (fun _ h c => ⟨(h c).1.trans ?_, (h c).2⟩) (Cert.RefFill.ref_run m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
